-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x2048 .f32) (main_arg5 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4096x1024 : Shape := ⟨2, ![4096, 1024]⟩
abbrev S4096x2048 : Shape := ⟨2, ![4096, 2048]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S1024x4096 : Shape := ⟨2, ![1024, 4096]⟩
abbrev S128x2048 : Shape := ⟨2, ![128, 2048]⟩
abbrev S128x1 : Shape := ⟨2, ![128, 1]⟩
abbrev S128x4096 : Shape := ⟨2, ![128, 4096]⟩
abbrev S4 : Shape := ⟨1, ![4]⟩
abbrev S1x4 : Shape := ⟨2, ![1, 4]⟩
abbrev S1024x4 : Shape := ⟨2, ![1024, 4]⟩
abbrev S1024x4x1 : Shape := ⟨3, ![1024, 4, 1]⟩
abbrev S1 : Shape := ⟨1, ![1]⟩
abbrev S1x1x1 : Shape := ⟨3, ![1, 1, 1]⟩
abbrev S1024x3 : Shape := ⟨2, ![1024, 3]⟩
abbrev S1024x3x1 : Shape := ⟨3, ![1024, 3, 1]⟩
abbrev S4096x1 : Shape := ⟨2, ![4096, 1]⟩
abbrev S4096x1x1 : Shape := ⟨3, ![4096, 1, 1]⟩

abbrev nBuf : Space → Nat
  | .hbm => 241
  | .vmem => 8
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x2048, .f32⟩
  | 5 => ⟨S4096, .i32⟩
  | 6 => ⟨S4096x2048, .bf16⟩
  | 7 => ⟨S4096x2048, .f32⟩
  | 8 => ⟨S_, .f32⟩
  | 9 => ⟨S4096, .f32⟩
  | 10 => ⟨S1024, .f32⟩
  | 11 => ⟨S1024x1, .f32⟩
  | 12 => ⟨S1x4096, .f32⟩
  | 13 => ⟨S1024x4096, .f32⟩
  | 14 => ⟨S1024, .i32⟩
  | 15 => ⟨S1024x1, .i32⟩
  | 16 => ⟨S1x4096, .i32⟩
  | 17 => ⟨S1024x4096, .i32⟩
  | 18 => ⟨S1024x4096, .i32⟩
  | 19 => ⟨S1024x4096, .i1⟩
  | 20 => ⟨S1024x1, .i32⟩
  | 21 => ⟨S_, .i32⟩
  | 22 => ⟨S1024x1, .i32⟩
  | 23 => ⟨S1024x1, .i32⟩
  | 24 => ⟨S4, .i32⟩
  | 25 => ⟨S1x4, .i32⟩
  | 26 => ⟨S1024x4, .i32⟩
  | 27 => ⟨S1024x4, .i32⟩
  | 28 => ⟨S1024x4, .i32⟩
  | 29 => ⟨S_, .i32⟩
  | 30 => ⟨S1024x4, .i32⟩
  | 31 => ⟨S1024x4, .i1⟩
  | 32 => ⟨S_, .i32⟩
  | 33 => ⟨S1024x4, .i32⟩
  | 34 => ⟨S1024x4, .i32⟩
  | 35 => ⟨S1024x4, .i32⟩
  | 36 => ⟨S1024x4x1, .i32⟩
  | 37 => ⟨S1, .i32⟩
  | 38 => ⟨S_, .i32⟩
  | 39 => ⟨S1024x4x1, .i32⟩
  | 40 => ⟨S1024x4x1, .i1⟩
  | 41 => ⟨S1x1x1, .i32⟩
  | 42 => ⟨S1024x4x1, .i32⟩
  | 43 => ⟨S1024x4x1, .i1⟩
  | 44 => ⟨S1024x4x1, .i1⟩
  | 45 => ⟨S_, .i1⟩
  | 46 => ⟨S1024x4, .i1⟩
  | 47 => ⟨S1024x4, .f32⟩
  | 48 => ⟨S_, .f32⟩
  | 49 => ⟨S1024x4, .f32⟩
  | 50 => ⟨S1024x4, .f32⟩
  | 51 => ⟨S1024, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1024, .i32⟩
  | 59 => ⟨S1024, .i32⟩
  | 60 => ⟨S_, .i32⟩
  | 61 => ⟨S1024, .i32⟩
  | 62 => ⟨S1024, .i1⟩
  | 63 => ⟨S_, .i32⟩
  | 64 => ⟨S1024, .i32⟩
  | 65 => ⟨S1024, .i1⟩
  | 66 => ⟨S_, .i32⟩
  | 67 => ⟨S_, .i1⟩
  | 68 => ⟨S1024, .i1⟩
  | 69 => ⟨S1024, .i1⟩
  | 70 => ⟨S1024, .i1⟩
  | 71 => ⟨S1024, .i32⟩
  | 72 => ⟨S1024, .i32⟩
  | 73 => ⟨S1024, .i32⟩
  | 74 => ⟨S4, .i32⟩
  | 75 => ⟨S1x4, .i32⟩
  | 76 => ⟨S1024x1, .i32⟩
  | 77 => ⟨S1024x4, .i32⟩
  | 78 => ⟨S1024x4, .i32⟩
  | 79 => ⟨S1024x4, .i1⟩
  | 80 => ⟨S_, .i32⟩
  | 81 => ⟨S_, .i32⟩
  | 82 => ⟨S1024x4, .i32⟩
  | 83 => ⟨S1024x4, .i32⟩
  | 84 => ⟨S1024x4, .i32⟩
  | 85 => ⟨S1024x4, .i32⟩
  | 86 => ⟨S1024x4, .i32⟩
  | 87 => ⟨S1024x4, .i32⟩
  | 88 => ⟨S1024x3, .i32⟩
  | 89 => ⟨S_, .i32⟩
  | 90 => ⟨S1024x3, .i32⟩
  | 91 => ⟨S1024x3, .i1⟩
  | 92 => ⟨S_, .i32⟩
  | 93 => ⟨S1024x3, .i32⟩
  | 94 => ⟨S1024x3, .i32⟩
  | 95 => ⟨S1024x3, .i32⟩
  | 96 => ⟨S1024x3x1, .i32⟩
  | 97 => ⟨S1, .i32⟩
  | 98 => ⟨S_, .i32⟩
  | 99 => ⟨S1024x3x1, .i32⟩
  | 100 => ⟨S1024x3x1, .i1⟩
  | 101 => ⟨S1x1x1, .i32⟩
  | 102 => ⟨S1024x3x1, .i32⟩
  | 103 => ⟨S1024x3x1, .i1⟩
  | 104 => ⟨S1024x3x1, .i1⟩
  | 105 => ⟨S_, .i1⟩
  | 106 => ⟨S1024x3, .i1⟩
  | 107 => ⟨S1024x3, .f32⟩
  | 108 => ⟨S_, .f32⟩
  | 109 => ⟨S1024x3, .f32⟩
  | 110 => ⟨S1024x3, .f32⟩
  | 111 => ⟨S_, .f32⟩
  | 112 => ⟨S1024, .f32⟩
  | 113 => ⟨S_, .f32⟩
  | 114 => ⟨S1024, .f32⟩
  | 115 => ⟨S1024, .f32⟩
  | 116 => ⟨S1024x1, .f32⟩
  | 117 => ⟨S1024x3, .f32⟩
  | 118 => ⟨S1024x3, .f32⟩
  | 119 => ⟨S1024x3, .f32⟩
  | 120 => ⟨S_, .f32⟩
  | 121 => ⟨S1024, .f32⟩
  | 122 => ⟨S1024x1, .f32⟩
  | 123 => ⟨S1024x3, .f32⟩
  | 124 => ⟨S1024x3, .f32⟩
  | 125 => ⟨S1024x3, .f32⟩
  | 126 => ⟨S_, .f32⟩
  | 127 => ⟨S1024, .f32⟩
  | _ => ⟨S4096x1024, .f32⟩

abbrev hbmTy0_1 (i : Nat) : BufTy := match i % 128 with
  | 0 => ⟨S1024x4096, .i1⟩
  | 1 => ⟨S_, .f32⟩
  | 2 => ⟨S_, .f32⟩
  | 3 => ⟨S1024x4096, .f32⟩
  | 4 => ⟨S1024x4096, .f32⟩
  | 5 => ⟨S_, .f32⟩
  | 6 => ⟨S1024, .f32⟩
  | 7 => ⟨S_, .f32⟩
  | 8 => ⟨S1024, .f32⟩
  | 9 => ⟨S1024, .f32⟩
  | 10 => ⟨S1024x1, .f32⟩
  | 11 => ⟨S1024x4096, .f32⟩
  | 12 => ⟨S1024x4096, .i1⟩
  | 13 => ⟨S1024x4096, .i1⟩
  | 14 => ⟨S1024x4096, .f32⟩
  | 15 => ⟨S_, .f32⟩
  | 16 => ⟨S_, .f32⟩
  | 17 => ⟨S1024x4096, .f32⟩
  | 18 => ⟨S1024x4096, .f32⟩
  | 19 => ⟨S_, .f32⟩
  | 20 => ⟨S1024, .f32⟩
  | 21 => ⟨S_, .f32⟩
  | 22 => ⟨S1024, .f32⟩
  | 23 => ⟨S1024, .f32⟩
  | 24 => ⟨S1024x1, .f32⟩
  | 25 => ⟨S1024x4096, .f32⟩
  | 26 => ⟨S1024x4096, .f32⟩
  | 27 => ⟨S1024x4096, .f32⟩
  | 28 => ⟨S_, .f32⟩
  | 29 => ⟨S1024, .f32⟩
  | 30 => ⟨S1024x1, .f32⟩
  | 31 => ⟨S1024x4096, .f32⟩
  | 32 => ⟨S1024x4096, .f32⟩
  | 33 => ⟨S_, .f32⟩
  | 34 => ⟨S_, .f32⟩
  | 35 => ⟨S1024x4096, .f32⟩
  | 36 => ⟨S1024x4096, .f32⟩
  | 37 => ⟨S1024x4096, .f32⟩
  | 38 => ⟨S_, .f32⟩
  | 39 => ⟨S1024, .f32⟩
  | 40 => ⟨S1024, .f32⟩
  | 41 => ⟨S_, .f32⟩
  | 42 => ⟨S1024, .f32⟩
  | 43 => ⟨S1024, .f32⟩
  | 44 => ⟨S_, .f32⟩
  | 45 => ⟨S1024, .f32⟩
  | 46 => ⟨S1024, .f32⟩
  | 47 => ⟨S_, .f32⟩
  | 48 => ⟨S_, .f32⟩
  | 49 => ⟨S_, .f32⟩
  | 50 => ⟨S_, .f32⟩
  | 51 => ⟨S_, .f32⟩
  | 52 => ⟨S4096, .f32⟩
  | 53 => ⟨S_, .f32⟩
  | 54 => ⟨S4096, .f32⟩
  | 55 => ⟨S4096, .f32⟩
  | 56 => ⟨S4096x1, .f32⟩
  | 57 => ⟨S4096x1024, .f32⟩
  | 58 => ⟨S4096x1024, .f32⟩
  | 59 => ⟨S4096x1024, .f32⟩
  | 60 => ⟨S_, .f32⟩
  | 61 => ⟨S4096, .f32⟩
  | 62 => ⟨S4096x1, .f32⟩
  | 63 => ⟨S4096x1, .f32⟩
  | 64 => ⟨S4096x1024, .f32⟩
  | 65 => ⟨S4096x1024, .f32⟩
  | 66 => ⟨S4096x1, .i32⟩
  | 67 => ⟨S_, .i32⟩
  | 68 => ⟨S4096x1, .i32⟩
  | 69 => ⟨S4096x1, .i1⟩
  | 70 => ⟨S_, .i32⟩
  | 71 => ⟨S4096x1, .i32⟩
  | 72 => ⟨S4096x1, .i32⟩
  | 73 => ⟨S4096x1, .i32⟩
  | 74 => ⟨S4096x1x1, .i32⟩
  | 75 => ⟨S1, .i32⟩
  | 76 => ⟨S_, .i32⟩
  | 77 => ⟨S4096x1x1, .i32⟩
  | 78 => ⟨S4096x1x1, .i1⟩
  | 79 => ⟨S1x1x1, .i32⟩
  | 80 => ⟨S4096x1x1, .i32⟩
  | 81 => ⟨S4096x1x1, .i1⟩
  | 82 => ⟨S4096x1x1, .i1⟩
  | 83 => ⟨S_, .i1⟩
  | 84 => ⟨S4096x1, .i1⟩
  | 85 => ⟨S4096x1, .f32⟩
  | 86 => ⟨S_, .f32⟩
  | 87 => ⟨S4096x1, .f32⟩
  | 88 => ⟨S4096x1, .f32⟩
  | 89 => ⟨S_, .f32⟩
  | 90 => ⟨S_, .f32⟩
  | 91 => ⟨S_, .f32⟩
  | 92 => ⟨S_, .f32⟩
  | 93 => ⟨S_, .f32⟩
  | 94 => ⟨S4096x1024, .f32⟩
  | 95 => ⟨S4096x1024, .f32⟩
  | 96 => ⟨S_, .f32⟩
  | 97 => ⟨S_, .f32⟩
  | 98 => ⟨S_, .f32⟩
  | 99 => ⟨S4096x1024, .f32⟩
  | 100 => ⟨S4096x1024, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S128x2048, .bf16⟩
  | .local _ .vmem, ⟨1, _⟩ => ⟨S128x2048, .bf16⟩
  | .local _ .vmem, ⟨2, _⟩ => ⟨S4096x2048, .bf16⟩
  | .local _ .vmem, ⟨3, _⟩ => ⟨S128x1, .f32⟩
  | .local _ .vmem, ⟨4, _⟩ => ⟨S128x1, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v21 : Ref sig .tc := ⟨.hbm, 50, rfl⟩
abbrev main_v22 : Ref sig .tc := ⟨.hbm, 51, rfl⟩
abbrev main_c_0 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_1 : Ref sig .tc := ⟨.hbm, 80, rfl⟩
abbrev main_c_2 : Ref sig .tc := ⟨.hbm, 81, rfl⟩
abbrev main_call2_v0 : Ref sig .tc := ⟨.hbm, 82, rfl⟩
abbrev main_call2_v1 : Ref sig .tc := ⟨.hbm, 83, rfl⟩
abbrev main_v30 : Ref sig .tc := ⟨.hbm, 84, rfl⟩
abbrev main_call3_v0 : Ref sig .tc := ⟨.hbm, 85, rfl⟩
abbrev main_call3_v1_0 : Ref sig .tc := ⟨.hbm, 86, rfl⟩
abbrev main_v31 : Ref sig .tc := ⟨.hbm, 87, rfl⟩
abbrev main_v32 : Ref sig .tc := ⟨.hbm, 88, rfl⟩
abbrev main_call4_c : Ref sig .tc := ⟨.hbm, 89, rfl⟩
abbrev main_call4_v0 : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_c_1 : Ref sig .tc := ⟨.hbm, 97, rfl⟩
abbrev main_call4_c_2 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_3 : Ref sig .tc := ⟨.hbm, 105, rfl⟩
abbrev main_call4_v12 : Ref sig .tc := ⟨.hbm, 106, rfl⟩
abbrev main_call4_v13 : Ref sig .tc := ⟨.hbm, 107, rfl⟩
abbrev main_call4_cst : Ref sig .tc := ⟨.hbm, 108, rfl⟩
abbrev main_call4_v14 : Ref sig .tc := ⟨.hbm, 109, rfl⟩
abbrev main_v33 : Ref sig .tc := ⟨.hbm, 110, rfl⟩
abbrev main_cst_3 : Ref sig .tc := ⟨.hbm, 111, rfl⟩
abbrev main_v34 : Ref sig .tc := ⟨.hbm, 112, rfl⟩
abbrev main_cst_4 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_cst_5 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_cst_6 : Ref sig .tc := ⟨.hbm, 126, rfl⟩
abbrev main_v46 : Ref sig .tc := ⟨.hbm, 127, rfl⟩
abbrev main_v47 : Ref sig .tc := ⟨.hbm, 128, rfl⟩
abbrev main_cst_7 : Ref sig .tc := ⟨.hbm, 129, rfl⟩
abbrev main_call5_v0 : Ref sig .tc := ⟨.hbm, 130, rfl⟩
abbrev main_call5_v1 : Ref sig .tc := ⟨.hbm, 131, rfl⟩
abbrev main_v48 : Ref sig .tc := ⟨.hbm, 132, rfl⟩
abbrev main_cst_8 : Ref sig .tc := ⟨.hbm, 133, rfl⟩
abbrev main_v49 : Ref sig .tc := ⟨.hbm, 134, rfl⟩
abbrev main_cst_9 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_cst_10 : Ref sig .tc := ⟨.hbm, 143, rfl⟩
abbrev main_call6_v0 : Ref sig .tc := ⟨.hbm, 144, rfl⟩
abbrev main_call6_v1 : Ref sig .tc := ⟨.hbm, 145, rfl⟩
abbrev main_v57 : Ref sig .tc := ⟨.hbm, 146, rfl⟩
abbrev main_cst_11 : Ref sig .tc := ⟨.hbm, 147, rfl⟩
abbrev main_v58 : Ref sig .tc := ⟨.hbm, 148, rfl⟩
abbrev main_cst_12 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_cst_13 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_cst_14 : Ref sig .tc := ⟨.hbm, 161, rfl⟩
abbrev main_call7_v0 : Ref sig .tc := ⟨.hbm, 162, rfl⟩
abbrev main_call7_v1 : Ref sig .tc := ⟨.hbm, 163, rfl⟩
abbrev main_v69 : Ref sig .tc := ⟨.hbm, 164, rfl⟩
abbrev main_v70 : Ref sig .tc := ⟨.hbm, 165, rfl⟩
abbrev main_cst_15 : Ref sig .tc := ⟨.hbm, 166, rfl⟩
abbrev main_v71 : Ref sig .tc := ⟨.hbm, 167, rfl⟩
abbrev main_v72 : Ref sig .tc := ⟨.hbm, 168, rfl⟩
abbrev main_cst_16 : Ref sig .tc := ⟨.hbm, 169, rfl⟩
abbrev main_v73 : Ref sig .tc := ⟨.hbm, 170, rfl⟩
abbrev main_v74 : Ref sig .tc := ⟨.hbm, 171, rfl⟩
abbrev main_call8_cst : Ref sig .tc := ⟨.hbm, 172, rfl⟩
abbrev main_call8_v0 : Ref sig .tc := ⟨.hbm, 173, rfl⟩
abbrev main_v75 : Ref sig .tc := ⟨.hbm, 174, rfl⟩
abbrev main_cst_17 : Ref sig .tc := ⟨.hbm, 175, rfl⟩
abbrev main_v76 : Ref sig .tc := ⟨.hbm, 176, rfl⟩
abbrev main_cst_18 : Ref sig .tc := ⟨.hbm, 177, rfl⟩
abbrev main_v77 : Ref sig .tc := ⟨.hbm, 178, rfl⟩
abbrev main_call9_cst : Ref sig .tc := ⟨.hbm, 179, rfl⟩
abbrev main_call9_v0 : Ref sig .tc := ⟨.hbm, 180, rfl⟩
abbrev main_call9_cst_0 : Ref sig .tc := ⟨.hbm, 181, rfl⟩
abbrev main_call9_v1 : Ref sig .tc := ⟨.hbm, 182, rfl⟩
abbrev main_call9_v2 : Ref sig .tc := ⟨.hbm, 183, rfl⟩
abbrev main_call9_v3 : Ref sig .tc := ⟨.hbm, 184, rfl⟩
abbrev main_call9_v4 : Ref sig .tc := ⟨.hbm, 185, rfl⟩
abbrev main_call9_v5 : Ref sig .tc := ⟨.hbm, 186, rfl⟩
abbrev main_call9_v6 : Ref sig .tc := ⟨.hbm, 187, rfl⟩
abbrev main_call9_cst_1 : Ref sig .tc := ⟨.hbm, 188, rfl⟩
abbrev main_call9_v7 : Ref sig .tc := ⟨.hbm, 189, rfl⟩
abbrev main_call9_v8 : Ref sig .tc := ⟨.hbm, 190, rfl⟩
abbrev main_call9_v9 : Ref sig .tc := ⟨.hbm, 191, rfl⟩
abbrev main_call9_v10 : Ref sig .tc := ⟨.hbm, 192, rfl⟩
abbrev main_v78 : Ref sig .tc := ⟨.hbm, 193, rfl⟩
abbrev main_v79 : Ref sig .tc := ⟨.hbm, 194, rfl⟩
abbrev main_call10_c : Ref sig .tc := ⟨.hbm, 195, rfl⟩
abbrev main_call10_v0 : Ref sig .tc := ⟨.hbm, 196, rfl⟩
abbrev main_call10_v1 : Ref sig .tc := ⟨.hbm, 197, rfl⟩
abbrev main_call10_c_0 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_call10_v5 : Ref sig .tc := ⟨.hbm, 202, rfl⟩
abbrev main_call10_c_1 : Ref sig .tc := ⟨.hbm, 203, rfl⟩
abbrev main_call10_c_2 : Ref sig .tc := ⟨.hbm, 204, rfl⟩
abbrev main_call10_v6 : Ref sig .tc := ⟨.hbm, 205, rfl⟩
abbrev main_call10_v7 : Ref sig .tc := ⟨.hbm, 206, rfl⟩
abbrev main_call10_v8 : Ref sig .tc := ⟨.hbm, 207, rfl⟩
abbrev main_call10_v9 : Ref sig .tc := ⟨.hbm, 208, rfl⟩
abbrev main_call10_v10 : Ref sig .tc := ⟨.hbm, 209, rfl⟩
abbrev main_call10_v11 : Ref sig .tc := ⟨.hbm, 210, rfl⟩
abbrev main_call10_c_3 : Ref sig .tc := ⟨.hbm, 211, rfl⟩
abbrev main_call10_v12 : Ref sig .tc := ⟨.hbm, 212, rfl⟩
abbrev main_call10_v13 : Ref sig .tc := ⟨.hbm, 213, rfl⟩
abbrev main_call10_cst : Ref sig .tc := ⟨.hbm, 214, rfl⟩
abbrev main_call10_v14 : Ref sig .tc := ⟨.hbm, 215, rfl⟩
abbrev main_v80 : Ref sig .tc := ⟨.hbm, 216, rfl⟩
abbrev main_cst_19 : Ref sig .tc := ⟨.hbm, 217, rfl⟩
abbrev main_v81 : Ref sig .tc := ⟨.hbm, 218, rfl⟩
abbrev main_cst_20 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩
abbrev main_v85 : Ref sig .tc := ⟨.hbm, 223, rfl⟩
abbrev main_cst_21 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_cst_22 : Ref sig .tc := ⟨.hbm, 229, rfl⟩
abbrev main_v90 : Ref sig .tc := ⟨.hbm, 230, rfl⟩
abbrev main_v91 : Ref sig .tc := ⟨.hbm, 231, rfl⟩
abbrev main_cst_23 : Ref sig .tc := ⟨.hbm, 232, rfl⟩
abbrev main_v92 : Ref sig .tc := ⟨.hbm, 233, rfl⟩
abbrev main_cst_24 : Ref sig .tc := ⟨.hbm, 234, rfl⟩
abbrev main_v93 : Ref sig .tc := ⟨.hbm, 235, rfl⟩
abbrev main_v94 : Ref sig .tc := ⟨.hbm, 236, rfl⟩
abbrev main_v95 : Ref sig .tc := ⟨.hbm, 237, rfl⟩
abbrev main_cst_25 : Ref sig .tc := ⟨.hbm, 238, rfl⟩
abbrev main_v96 : Ref sig .tc := ⟨.hbm, 239, rfl⟩
abbrev main_v97 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S4096x2048_S4096_d1 : S4096x2048.ReducesTo [1] S4096
  h_S_ : 0 < S_.numel
  slices_S4096_S1024_0 : S4096.Slices ![0] S1024
  shapeCasts_S1024_S1024x1 : S1024.ShapeCasts S1024x1
  shapeCasts_S4096_S1x4096 : S4096.ShapeCasts S1x4096
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  bcast_S_S1024x1 : S_.BroadcastsInDim S1024x1 (![] : Fin 0 → Fin S1024x1.rank)
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  bcast_S_S1024x4 : S_.BroadcastsInDim S1024x4 (![] : Fin 0 → Fin S1024x4.rank)
  shapeCasts_S1024x4_S1024x4x1 : S1024x4.ShapeCasts S1024x4x1
  bcast_S_S1024x4x1 : S_.BroadcastsInDim S1024x4x1 (![] : Fin 0 → Fin S1024x4x1.rank)
  bcast_S1_S1x1x1_2 : S1.BroadcastsInDim S1x1x1 (![2] : Fin 1 → Fin S1x1x1.rank)
  bcast_S1x1x1_S1024x4x1_0_1_2 : S1x1x1.BroadcastsInDim S1024x4x1 (![0, 1, 2] : Fin 3 → Fin S1024x4x1.rank)
  reducesTo_S1024x4x1_S1024x4_d2 : S1024x4x1.ReducesTo [2] S1024x4
  bcast_S_S1024 : S_.BroadcastsInDim S1024 (![] : Fin 0 → Fin S1024.rank)
  slices_S1024x4_S1024x3_0_0 : S1024x4.Slices ![0, 0] S1024x3
  bcast_S_S1024x3 : S_.BroadcastsInDim S1024x3 (![] : Fin 0 → Fin S1024x3.rank)
  shapeCasts_S1024x3_S1024x3x1 : S1024x3.ShapeCasts S1024x3x1
  bcast_S_S1024x3x1 : S_.BroadcastsInDim S1024x3x1 (![] : Fin 0 → Fin S1024x3x1.rank)
  bcast_S1x1x1_S1024x3x1_0_1_2 : S1x1x1.BroadcastsInDim S1024x3x1 (![0, 1, 2] : Fin 3 → Fin S1024x3x1.rank)
  reducesTo_S1024x3x1_S1024x3_d2 : S1024x3x1.ReducesTo [2] S1024x3
  reducesTo_S1024x3_S1024_d1 : S1024x3.ReducesTo [1] S1024
  bcast_S1024x1_S1024x3_0_1 : S1024x1.BroadcastsInDim S1024x3 (![0, 1] : Fin 2 → Fin S1024x3.rank)
  bcast_S_S1024x4096 : S_.BroadcastsInDim S1024x4096 (![] : Fin 0 → Fin S1024x4096.rank)
  reducesTo_S1024x4096_S1024_d1 : S1024x4096.ReducesTo [1] S1024
  reducesTo_S1024_S_d0 : S1024.ReducesTo [0] S_
  reducesTo_S4096x1024_S4096_d1 : S4096x1024.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  reducesTo_S4096x1024_S_d0_1 : S4096x1024.ReducesTo [0, 1] S_
  dot_S128x2048_S4096x2048_S128x4096_1_1_0_0_n_n_wf : DotDims.WF S128x2048 S4096x2048 S128x4096 [1] [1] [0] [0] [] []
  gather_S1024x4096_S1024x4x1_S1024x4_n_1_0_0_1_2_11_wf : GatherDims.WF S1024x4096 S1024x4x1 S1024x4 [] [1] [0] [1] [0] 2 ![1, 1]
  gather_S1024x4_S1024x3x1_S1024x3_n_1_0_0_1_2_11_wf : GatherDims.WF S1024x4 S1024x3x1 S1024x3 [] [1] [0] [1] [0] 2 ![1, 1]
  gather_S4096x1024_S4096x1x1_S4096x1_n_1_0_0_1_2_11_wf : GatherDims.WF S4096x1024 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S1024x1.size a
  hwx0_2 : ∀ i : grid0.Coords, EltTy.bits .f32 = 32 ∨ (Rect.block (s := S1024x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S1024x4096.size a
  hwx0_4 : ∀ i : grid0.Coords, EltTy.bits .f32 = 32 ∨ (Rect.block (s := S1024x4096) S128x4096.size (cc0_transform_4 i) (hinb0_4 i)).WholeWords (EltTy.packing .f32)

variable [Facts₀]

def dot_S128x2048_S4096x2048_S128x4096_1_1_0_0_n_n : DotDims S128x2048 S4096x2048 S128x4096 where
  lhsContracting := [1]
  rhsContracting := [1]
  lhsNonContracting := [0]
  rhsNonContracting := [0]
  lhsBatch := []
  rhsBatch := []
  wf := dot_S128x2048_S4096x2048_S128x4096_1_1_0_0_n_n_wf
def gather_S1024x4096_S1024x4x1_S1024x4_n_1_0_0_1_2_11 : GatherDims S1024x4096 S1024x4x1 S1024x4 where
  offsetDims := []
  collapsedSliceDims := [1]
  operandBatchingDims := [0]
  startIndicesBatchingDims := [0]
  startIndexMap := [1]
  indexVectorDim := 2
  sliceSizes := ![1, 1]
  wf := gather_S1024x4096_S1024x4x1_S1024x4_n_1_0_0_1_2_11_wf
def comparator_i32_i32_d1 : BitVec 32 × BitVec 32 → BitVec 32 × BitVec 32 → BitVec 1 :=
  fun l r =>
    let v2 := IntOp.cmpi .slt l.1 r.1
    v2
def gather_S1024x4_S1024x3x1_S1024x3_n_1_0_0_1_2_11 : GatherDims S1024x4 S1024x3x1 S1024x3 where
  offsetDims := []
  collapsedSliceDims := [1]
  operandBatchingDims := [0]
  startIndicesBatchingDims := [0]
  startIndexMap := [1]
  indexVectorDim := 2
  sliceSizes := ![1, 1]
  wf := gather_S1024x4_S1024x3x1_S1024x3_n_1_0_0_1_2_11_wf
def gather_S4096x1024_S4096x1x1_S4096x1_n_1_0_0_1_2_11 : GatherDims S4096x1024 S4096x1x1 S4096x1 where
  offsetDims := []
  collapsedSliceDims := [1]
  operandBatchingDims := [0]
  startIndicesBatchingDims := [0]
  startIndexMap := [1]
  indexVectorDim := 2
  sliceSizes := ![1, 1]
  wf := gather_S4096x1024_S4096x1x1_S4096x1_n_1_0_0_1_2_11_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩
abbrev S1024x4096 : Shape := ⟨2, ![1024, 4096]⟩
abbrev S1024 : Shape := ⟨1, ![1024]⟩
abbrev S1024x1 : Shape := ⟨2, ![1024, 1]⟩
abbrev S4 : Shape := ⟨1, ![4]⟩
abbrev S1x4 : Shape := ⟨2, ![1, 4]⟩
abbrev S1024x4 : Shape := ⟨2, ![1024, 4]⟩
abbrev S1024x4x1 : Shape := ⟨3, ![1024, 4, 1]⟩
abbrev S1 : Shape := ⟨1, ![1]⟩
abbrev S1x1x1 : Shape := ⟨3, ![1, 1, 1]⟩
abbrev S1024x3 : Shape := ⟨2, ![1024, 3]⟩
abbrev S1024x3x1 : Shape := ⟨3, ![1024, 3, 1]⟩
abbrev S4096x1x1 : Shape := ⟨3, ![4096, 1, 1]⟩

abbrev nBuf : Space → Nat
  | .hbm => 253
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x2048, .f32⟩
  | 5 => ⟨S4096, .i32⟩
  | 6 => ⟨S4096x2048, .f32⟩
  | 7 => ⟨S_, .f32⟩
  | 8 => ⟨S4096, .f32⟩
  | 9 => ⟨S4096x1, .f32⟩
  | 10 => ⟨S1x4096, .f32⟩
  | 11 => ⟨S4096x4096, .f32⟩
  | 12 => ⟨S4096x4096, .f32⟩
  | 13 => ⟨S4096x4096, .f32⟩
  | 14 => ⟨S2048x4096, .f32⟩
  | 15 => ⟨S4096x4096, .f32⟩
  | 16 => ⟨S_, .f32⟩
  | 17 => ⟨S4096x4096, .f32⟩
  | 18 => ⟨S4096x4096, .f32⟩
  | 19 => ⟨S4096x4096, .f32⟩
  | 20 => ⟨S_, .f32⟩
  | 21 => ⟨S_, .f32⟩
  | 22 => ⟨S4096x4096, .f32⟩
  | 23 => ⟨S4096x4096, .f32⟩
  | 24 => ⟨S4096x4096, .f32⟩
  | 25 => ⟨S1024x4096, .f32⟩
  | 26 => ⟨S1024, .i32⟩
  | 27 => ⟨S1024x1, .i32⟩
  | 28 => ⟨S1x4096, .i32⟩
  | 29 => ⟨S1024x4096, .i32⟩
  | 30 => ⟨S1024x4096, .i32⟩
  | 31 => ⟨S1024x4096, .i1⟩
  | 32 => ⟨S1024x1, .i32⟩
  | 33 => ⟨S_, .i32⟩
  | 34 => ⟨S1024x1, .i32⟩
  | 35 => ⟨S1024x1, .i32⟩
  | 36 => ⟨S4, .i32⟩
  | 37 => ⟨S1x4, .i32⟩
  | 38 => ⟨S1024x4, .i32⟩
  | 39 => ⟨S1024x4, .i32⟩
  | 40 => ⟨S1024x4, .i32⟩
  | 41 => ⟨S_, .i32⟩
  | 42 => ⟨S1024x4, .i32⟩
  | 43 => ⟨S1024x4, .i1⟩
  | 44 => ⟨S_, .i32⟩
  | 45 => ⟨S1024x4, .i32⟩
  | 46 => ⟨S1024x4, .i32⟩
  | 47 => ⟨S1024x4, .i32⟩
  | 48 => ⟨S1024x4x1, .i32⟩
  | 49 => ⟨S1, .i32⟩
  | 50 => ⟨S_, .i32⟩
  | 51 => ⟨S1024x4x1, .i32⟩
  | 52 => ⟨S1024x4x1, .i1⟩
  | 53 => ⟨S1x1x1, .i32⟩
  | 54 => ⟨S1024x4x1, .i32⟩
  | 55 => ⟨S1024x4x1, .i1⟩
  | 56 => ⟨S1024x4x1, .i1⟩
  | 57 => ⟨S_, .i1⟩
  | 58 => ⟨S1024x4, .i1⟩
  | 59 => ⟨S1024x4, .f32⟩
  | 60 => ⟨S_, .f32⟩
  | 61 => ⟨S1024x4, .f32⟩
  | 62 => ⟨S1024x4, .f32⟩
  | 63 => ⟨S1024, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i1⟩
  | 78 => ⟨S_, .i32⟩
  | 79 => ⟨S_, .i1⟩
  | 80 => ⟨S1024, .i1⟩
  | 81 => ⟨S1024, .i1⟩
  | 82 => ⟨S1024, .i1⟩
  | 83 => ⟨S1024, .i32⟩
  | 84 => ⟨S1024, .i32⟩
  | 85 => ⟨S1024, .i32⟩
  | 86 => ⟨S4, .i32⟩
  | 87 => ⟨S1x4, .i32⟩
  | 88 => ⟨S1024x1, .i32⟩
  | 89 => ⟨S1024x4, .i32⟩
  | 90 => ⟨S1024x4, .i32⟩
  | 91 => ⟨S1024x4, .i1⟩
  | 92 => ⟨S_, .i32⟩
  | 93 => ⟨S_, .i32⟩
  | 94 => ⟨S1024x4, .i32⟩
  | 95 => ⟨S1024x4, .i32⟩
  | 96 => ⟨S1024x4, .i32⟩
  | 97 => ⟨S1024x4, .i32⟩
  | 98 => ⟨S1024x4, .i32⟩
  | 99 => ⟨S1024x4, .i32⟩
  | 100 => ⟨S1024x3, .i32⟩
  | 101 => ⟨S_, .i32⟩
  | 102 => ⟨S1024x3, .i32⟩
  | 103 => ⟨S1024x3, .i1⟩
  | 104 => ⟨S_, .i32⟩
  | 105 => ⟨S1024x3, .i32⟩
  | 106 => ⟨S1024x3, .i32⟩
  | 107 => ⟨S1024x3, .i32⟩
  | 108 => ⟨S1024x3x1, .i32⟩
  | 109 => ⟨S1, .i32⟩
  | 110 => ⟨S_, .i32⟩
  | 111 => ⟨S1024x3x1, .i32⟩
  | 112 => ⟨S1024x3x1, .i1⟩
  | 113 => ⟨S1x1x1, .i32⟩
  | 114 => ⟨S1024x3x1, .i32⟩
  | 115 => ⟨S1024x3x1, .i1⟩
  | 116 => ⟨S1024x3x1, .i1⟩
  | 117 => ⟨S_, .i1⟩
  | 118 => ⟨S1024x3, .i1⟩
  | 119 => ⟨S1024x3, .f32⟩
  | 120 => ⟨S_, .f32⟩
  | 121 => ⟨S1024x3, .f32⟩
  | 122 => ⟨S1024x3, .f32⟩
  | 123 => ⟨S_, .f32⟩
  | 124 => ⟨S1024, .f32⟩
  | 125 => ⟨S_, .f32⟩
  | 126 => ⟨S1024, .f32⟩
  | 127 => ⟨S1024, .f32⟩
  | _ => ⟨S4096x1024, .f32⟩

abbrev hbmTy0_1 (i : Nat) : BufTy := match i % 128 with
  | 0 => ⟨S1024x1, .f32⟩
  | 1 => ⟨S1024x3, .f32⟩
  | 2 => ⟨S1024x3, .f32⟩
  | 3 => ⟨S1024x3, .f32⟩
  | 4 => ⟨S_, .f32⟩
  | 5 => ⟨S1024, .f32⟩
  | 6 => ⟨S1024x1, .f32⟩
  | 7 => ⟨S1024x3, .f32⟩
  | 8 => ⟨S1024x3, .f32⟩
  | 9 => ⟨S1024x3, .f32⟩
  | 10 => ⟨S_, .f32⟩
  | 11 => ⟨S1024, .f32⟩
  | 12 => ⟨S1024x4096, .i1⟩
  | 13 => ⟨S_, .f32⟩
  | 14 => ⟨S_, .f32⟩
  | 15 => ⟨S1024x4096, .f32⟩
  | 16 => ⟨S1024x4096, .f32⟩
  | 17 => ⟨S_, .f32⟩
  | 18 => ⟨S1024, .f32⟩
  | 19 => ⟨S_, .f32⟩
  | 20 => ⟨S1024, .f32⟩
  | 21 => ⟨S1024, .f32⟩
  | 22 => ⟨S1024x1, .f32⟩
  | 23 => ⟨S1024x4096, .f32⟩
  | 24 => ⟨S1024x4096, .i1⟩
  | 25 => ⟨S1024x4096, .i1⟩
  | 26 => ⟨S1024x4096, .f32⟩
  | 27 => ⟨S_, .f32⟩
  | 28 => ⟨S_, .f32⟩
  | 29 => ⟨S1024x4096, .f32⟩
  | 30 => ⟨S1024x4096, .f32⟩
  | 31 => ⟨S_, .f32⟩
  | 32 => ⟨S1024, .f32⟩
  | 33 => ⟨S_, .f32⟩
  | 34 => ⟨S1024, .f32⟩
  | 35 => ⟨S1024, .f32⟩
  | 36 => ⟨S1024x1, .f32⟩
  | 37 => ⟨S1024x4096, .f32⟩
  | 38 => ⟨S1024x4096, .f32⟩
  | 39 => ⟨S1024x4096, .f32⟩
  | 40 => ⟨S_, .f32⟩
  | 41 => ⟨S1024, .f32⟩
  | 42 => ⟨S1024x1, .f32⟩
  | 43 => ⟨S1024x4096, .f32⟩
  | 44 => ⟨S1024x4096, .f32⟩
  | 45 => ⟨S_, .f32⟩
  | 46 => ⟨S_, .f32⟩
  | 47 => ⟨S1024x4096, .f32⟩
  | 48 => ⟨S1024x4096, .f32⟩
  | 49 => ⟨S1024x4096, .f32⟩
  | 50 => ⟨S_, .f32⟩
  | 51 => ⟨S1024, .f32⟩
  | 52 => ⟨S1024, .f32⟩
  | 53 => ⟨S_, .f32⟩
  | 54 => ⟨S1024, .f32⟩
  | 55 => ⟨S1024, .f32⟩
  | 56 => ⟨S_, .f32⟩
  | 57 => ⟨S1024, .f32⟩
  | 58 => ⟨S1024, .f32⟩
  | 59 => ⟨S_, .f32⟩
  | 60 => ⟨S_, .f32⟩
  | 61 => ⟨S_, .f32⟩
  | 62 => ⟨S_, .f32⟩
  | 63 => ⟨S_, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x1024, .f32⟩
  | 70 => ⟨S4096x1024, .f32⟩
  | 71 => ⟨S4096x1024, .f32⟩
  | 72 => ⟨S_, .f32⟩
  | 73 => ⟨S4096, .f32⟩
  | 74 => ⟨S4096x1, .f32⟩
  | 75 => ⟨S4096x1, .f32⟩
  | 76 => ⟨S4096x1024, .f32⟩
  | 77 => ⟨S4096x1024, .f32⟩
  | 78 => ⟨S4096x1, .i32⟩
  | 79 => ⟨S_, .i32⟩
  | 80 => ⟨S4096x1, .i32⟩
  | 81 => ⟨S4096x1, .i1⟩
  | 82 => ⟨S_, .i32⟩
  | 83 => ⟨S4096x1, .i32⟩
  | 84 => ⟨S4096x1, .i32⟩
  | 85 => ⟨S4096x1, .i32⟩
  | 86 => ⟨S4096x1x1, .i32⟩
  | 87 => ⟨S1, .i32⟩
  | 88 => ⟨S_, .i32⟩
  | 89 => ⟨S4096x1x1, .i32⟩
  | 90 => ⟨S4096x1x1, .i1⟩
  | 91 => ⟨S1x1x1, .i32⟩
  | 92 => ⟨S4096x1x1, .i32⟩
  | 93 => ⟨S4096x1x1, .i1⟩
  | 94 => ⟨S4096x1x1, .i1⟩
  | 95 => ⟨S_, .i1⟩
  | 96 => ⟨S4096x1, .i1⟩
  | 97 => ⟨S4096x1, .f32⟩
  | 98 => ⟨S_, .f32⟩
  | 99 => ⟨S4096x1, .f32⟩
  | 100 => ⟨S4096x1, .f32⟩
  | 101 => ⟨S_, .f32⟩
  | 102 => ⟨S_, .f32⟩
  | 103 => ⟨S_, .f32⟩
  | 104 => ⟨S_, .f32⟩
  | 105 => ⟨S_, .f32⟩
  | 106 => ⟨S4096x1024, .f32⟩
  | 107 => ⟨S4096x1024, .f32⟩
  | 108 => ⟨S_, .f32⟩
  | 109 => ⟨S_, .f32⟩
  | 110 => ⟨S_, .f32⟩
  | 111 => ⟨S4096x1024, .f32⟩
  | 112 => ⟨S4096x1024, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v29 : Ref sig .tc := ⟨.hbm, 62, rfl⟩
abbrev main_v30 : Ref sig .tc := ⟨.hbm, 63, rfl⟩
abbrev main_c_2 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_v5 : Ref sig .tc := ⟨.hbm, 73, rfl⟩
abbrev main_call2_v6 : Ref sig .tc := ⟨.hbm, 74, rfl⟩
abbrev main_call2_c_2 : Ref sig .tc := ⟨.hbm, 75, rfl⟩
abbrev main_call2_v7 : Ref sig .tc := ⟨.hbm, 76, rfl⟩
abbrev main_call2_v8 : Ref sig .tc := ⟨.hbm, 77, rfl⟩
abbrev main_call2_c_3 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_c_3 : Ref sig .tc := ⟨.hbm, 92, rfl⟩
abbrev main_c_4 : Ref sig .tc := ⟨.hbm, 93, rfl⟩
abbrev main_call3_v0 : Ref sig .tc := ⟨.hbm, 94, rfl⟩
abbrev main_call3_v1 : Ref sig .tc := ⟨.hbm, 95, rfl⟩
abbrev main_v38 : Ref sig .tc := ⟨.hbm, 96, rfl⟩
abbrev main_call4_v0 : Ref sig .tc := ⟨.hbm, 97, rfl⟩
abbrev main_call4_v1_0 : Ref sig .tc := ⟨.hbm, 98, rfl⟩
abbrev main_v39 : Ref sig .tc := ⟨.hbm, 99, rfl⟩
abbrev main_v40 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_cst : Ref sig .tc := ⟨.hbm, 120, rfl⟩
abbrev main_call5_v14 : Ref sig .tc := ⟨.hbm, 121, rfl⟩
abbrev main_v41 : Ref sig .tc := ⟨.hbm, 122, rfl⟩
abbrev main_cst_5 : Ref sig .tc := ⟨.hbm, 123, rfl⟩
abbrev main_v42 : Ref sig .tc := ⟨.hbm, 124, rfl⟩
abbrev main_cst_6 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_cst_7 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_cst_8 : Ref sig .tc := ⟨.hbm, 138, rfl⟩
abbrev main_v54 : Ref sig .tc := ⟨.hbm, 139, rfl⟩
abbrev main_v55 : Ref sig .tc := ⟨.hbm, 140, rfl⟩
abbrev main_cst_9 : Ref sig .tc := ⟨.hbm, 141, rfl⟩
abbrev main_call6_v0 : Ref sig .tc := ⟨.hbm, 142, rfl⟩
abbrev main_call6_v1 : Ref sig .tc := ⟨.hbm, 143, rfl⟩
abbrev main_v56 : Ref sig .tc := ⟨.hbm, 144, rfl⟩
abbrev main_cst_10 : Ref sig .tc := ⟨.hbm, 145, rfl⟩
abbrev main_v57 : Ref sig .tc := ⟨.hbm, 146, rfl⟩
abbrev main_cst_11 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_cst_12 : Ref sig .tc := ⟨.hbm, 155, rfl⟩
abbrev main_call7_v0 : Ref sig .tc := ⟨.hbm, 156, rfl⟩
abbrev main_call7_v1 : Ref sig .tc := ⟨.hbm, 157, rfl⟩
abbrev main_v65 : Ref sig .tc := ⟨.hbm, 158, rfl⟩
abbrev main_cst_13 : Ref sig .tc := ⟨.hbm, 159, rfl⟩
abbrev main_v66 : Ref sig .tc := ⟨.hbm, 160, rfl⟩
abbrev main_cst_14 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_cst_15 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_cst_16 : Ref sig .tc := ⟨.hbm, 173, rfl⟩
abbrev main_call8_v0 : Ref sig .tc := ⟨.hbm, 174, rfl⟩
abbrev main_call8_v1 : Ref sig .tc := ⟨.hbm, 175, rfl⟩
abbrev main_v77 : Ref sig .tc := ⟨.hbm, 176, rfl⟩
abbrev main_v78 : Ref sig .tc := ⟨.hbm, 177, rfl⟩
abbrev main_cst_17 : Ref sig .tc := ⟨.hbm, 178, rfl⟩
abbrev main_v79 : Ref sig .tc := ⟨.hbm, 179, rfl⟩
abbrev main_v80 : Ref sig .tc := ⟨.hbm, 180, rfl⟩
abbrev main_cst_18 : Ref sig .tc := ⟨.hbm, 181, rfl⟩
abbrev main_v81 : Ref sig .tc := ⟨.hbm, 182, rfl⟩
abbrev main_v82 : Ref sig .tc := ⟨.hbm, 183, rfl⟩
abbrev main_call9_cst : Ref sig .tc := ⟨.hbm, 184, rfl⟩
abbrev main_call9_v0 : Ref sig .tc := ⟨.hbm, 185, rfl⟩
abbrev main_v83 : Ref sig .tc := ⟨.hbm, 186, rfl⟩
abbrev main_cst_19 : Ref sig .tc := ⟨.hbm, 187, rfl⟩
abbrev main_v84 : Ref sig .tc := ⟨.hbm, 188, rfl⟩
abbrev main_cst_20 : Ref sig .tc := ⟨.hbm, 189, rfl⟩
abbrev main_v85 : Ref sig .tc := ⟨.hbm, 190, rfl⟩
abbrev main_call10_cst : Ref sig .tc := ⟨.hbm, 191, rfl⟩
abbrev main_call10_v0 : Ref sig .tc := ⟨.hbm, 192, rfl⟩
abbrev main_call10_cst_0 : Ref sig .tc := ⟨.hbm, 193, rfl⟩
abbrev main_call10_v1 : Ref sig .tc := ⟨.hbm, 194, rfl⟩
abbrev main_call10_v2 : Ref sig .tc := ⟨.hbm, 195, rfl⟩
abbrev main_call10_v3 : Ref sig .tc := ⟨.hbm, 196, rfl⟩
abbrev main_call10_v4 : Ref sig .tc := ⟨.hbm, 197, rfl⟩
abbrev main_call10_v5 : Ref sig .tc := ⟨.hbm, 198, rfl⟩
abbrev main_call10_v6 : Ref sig .tc := ⟨.hbm, 199, rfl⟩
abbrev main_call10_cst_1 : Ref sig .tc := ⟨.hbm, 200, rfl⟩
abbrev main_call10_v7 : Ref sig .tc := ⟨.hbm, 201, rfl⟩
abbrev main_call10_v8 : Ref sig .tc := ⟨.hbm, 202, rfl⟩
abbrev main_call10_v9 : Ref sig .tc := ⟨.hbm, 203, rfl⟩
abbrev main_call10_v10 : Ref sig .tc := ⟨.hbm, 204, rfl⟩
abbrev main_v86 : Ref sig .tc := ⟨.hbm, 205, rfl⟩
abbrev main_v87 : Ref sig .tc := ⟨.hbm, 206, rfl⟩
abbrev main_call11_c : Ref sig .tc := ⟨.hbm, 207, rfl⟩
abbrev main_call11_v0 : Ref sig .tc := ⟨.hbm, 208, rfl⟩
abbrev main_call11_v1 : Ref sig .tc := ⟨.hbm, 209, rfl⟩
abbrev main_call11_c_0 : Ref sig .tc := ⟨.hbm, 210, rfl⟩
abbrev main_call11_v2 : Ref sig .tc := ⟨.hbm, 211, rfl⟩
abbrev main_call11_v3 : Ref sig .tc := ⟨.hbm, 212, rfl⟩
abbrev main_call11_v4 : Ref sig .tc := ⟨.hbm, 213, rfl⟩
abbrev main_call11_v5 : Ref sig .tc := ⟨.hbm, 214, rfl⟩
abbrev main_call11_c_1 : Ref sig .tc := ⟨.hbm, 215, rfl⟩
abbrev main_call11_c_2 : Ref sig .tc := ⟨.hbm, 216, rfl⟩
abbrev main_call11_v6 : Ref sig .tc := ⟨.hbm, 217, rfl⟩
abbrev main_call11_v7 : Ref sig .tc := ⟨.hbm, 218, rfl⟩
abbrev main_call11_v8 : Ref sig .tc := ⟨.hbm, 219, rfl⟩
abbrev main_call11_v9 : Ref sig .tc := ⟨.hbm, 220, rfl⟩
abbrev main_call11_v10 : Ref sig .tc := ⟨.hbm, 221, rfl⟩
abbrev main_call11_v11 : Ref sig .tc := ⟨.hbm, 222, rfl⟩
abbrev main_call11_c_3 : Ref sig .tc := ⟨.hbm, 223, rfl⟩
abbrev main_call11_v12 : Ref sig .tc := ⟨.hbm, 224, rfl⟩
abbrev main_call11_v13 : Ref sig .tc := ⟨.hbm, 225, rfl⟩
abbrev main_call11_cst : Ref sig .tc := ⟨.hbm, 226, rfl⟩
abbrev main_call11_v14 : Ref sig .tc := ⟨.hbm, 227, rfl⟩
abbrev main_v88 : Ref sig .tc := ⟨.hbm, 228, rfl⟩
abbrev main_cst_21 : Ref sig .tc := ⟨.hbm, 229, rfl⟩
abbrev main_v89 : Ref sig .tc := ⟨.hbm, 230, rfl⟩
abbrev main_cst_22 : Ref sig .tc := ⟨.hbm, 231, rfl⟩
abbrev main_v90 : Ref sig .tc := ⟨.hbm, 232, rfl⟩
abbrev main_v91 : Ref sig .tc := ⟨.hbm, 233, rfl⟩
abbrev main_v92 : Ref sig .tc := ⟨.hbm, 234, rfl⟩
abbrev main_v93 : Ref sig .tc := ⟨.hbm, 235, rfl⟩
abbrev main_cst_23 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_cst_24 : Ref sig .tc := ⟨.hbm, 241, rfl⟩
abbrev main_v98 : Ref sig .tc := ⟨.hbm, 242, rfl⟩
abbrev main_v99 : Ref sig .tc := ⟨.hbm, 243, rfl⟩
abbrev main_cst_25 : Ref sig .tc := ⟨.hbm, 244, rfl⟩
abbrev main_v100 : Ref sig .tc := ⟨.hbm, 245, rfl⟩
abbrev main_cst_26 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_cst_27 : Ref sig .tc := ⟨.hbm, 250, rfl⟩
abbrev main_v104 : Ref sig .tc := ⟨.hbm, 251, rfl⟩
abbrev main_v105 : Ref sig .tc := ⟨.hbm, 252, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  slices_S4096x4096_S1024x4096_0_0 : S4096x4096.Slices ![0, 0] S1024x4096
  slices_S4096_S1024_0 : S4096.Slices ![0] S1024
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  bcast_S_S1024x1 : S_.BroadcastsInDim S1024x1 (![] : Fin 0 → Fin S1024x1.rank)
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  bcast_S_S1024x4 : S_.BroadcastsInDim S1024x4 (![] : Fin 0 → Fin S1024x4.rank)
  shapeCasts_S1024x4_S1024x4x1 : S1024x4.ShapeCasts S1024x4x1
  bcast_S_S1024x4x1 : S_.BroadcastsInDim S1024x4x1 (![] : Fin 0 → Fin S1024x4x1.rank)
  bcast_S1_S1x1x1_2 : S1.BroadcastsInDim S1x1x1 (![2] : Fin 1 → Fin S1x1x1.rank)
  bcast_S1x1x1_S1024x4x1_0_1_2 : S1x1x1.BroadcastsInDim S1024x4x1 (![0, 1, 2] : Fin 3 → Fin S1024x4x1.rank)
  reducesTo_S1024x4x1_S1024x4_d2 : S1024x4x1.ReducesTo [2] S1024x4
  bcast_S_S1024 : S_.BroadcastsInDim S1024 (![] : Fin 0 → Fin S1024.rank)
  slices_S1024x4_S1024x3_0_0 : S1024x4.Slices ![0, 0] S1024x3
  bcast_S_S1024x3 : S_.BroadcastsInDim S1024x3 (![] : Fin 0 → Fin S1024x3.rank)
  shapeCasts_S1024x3_S1024x3x1 : S1024x3.ShapeCasts S1024x3x1
  bcast_S_S1024x3x1 : S_.BroadcastsInDim S1024x3x1 (![] : Fin 0 → Fin S1024x3x1.rank)
  bcast_S1x1x1_S1024x3x1_0_1_2 : S1x1x1.BroadcastsInDim S1024x3x1 (![0, 1, 2] : Fin 3 → Fin S1024x3x1.rank)
  reducesTo_S1024x3x1_S1024x3_d2 : S1024x3x1.ReducesTo [2] S1024x3
  reducesTo_S1024x3_S1024_d1 : S1024x3.ReducesTo [1] S1024
  bcast_S1024x1_S1024x3_0_1 : S1024x1.BroadcastsInDim S1024x3 (![0, 1] : Fin 2 → Fin S1024x3.rank)
  bcast_S_S1024x4096 : S_.BroadcastsInDim S1024x4096 (![] : Fin 0 → Fin S1024x4096.rank)
  reducesTo_S1024x4096_S1024_d1 : S1024x4096.ReducesTo [1] S1024
  reducesTo_S1024_S_d0 : S1024.ReducesTo [0] S_
  reducesTo_S4096x1024_S4096_d1 : S4096x1024.ReducesTo [1] S4096
  bcast_S_S4096 : S_.BroadcastsInDim S4096 (![] : Fin 0 → Fin S4096.rank)
  bcast_S4096x1_S4096x1024_0_1 : S4096x1.BroadcastsInDim S4096x1024 (![0, 1] : Fin 2 → Fin S4096x1024.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  reducesTo_S4096x1024_S_d0_1 : S4096x1024.ReducesTo [0, 1] S_
  dot_S4096x2048_S2048x4096_S4096x4096_1_0_0_1_n_n_wf : DotDims.WF S4096x2048 S2048x4096 S4096x4096 [1] [0] [0] [1] [] []
  gather_S1024x4096_S1024x4x1_S1024x4_n_1_0_0_1_2_11_wf : GatherDims.WF S1024x4096 S1024x4x1 S1024x4 [] [1] [0] [1] [0] 2 ![1, 1]
  gather_S1024x4_S1024x3x1_S1024x3_n_1_0_0_1_2_11_wf : GatherDims.WF S1024x4 S1024x3x1 S1024x3 [] [1] [0] [1] [0] 2 ![1, 1]
  gather_S4096x1024_S4096x1x1_S4096x1_n_1_0_0_1_2_11_wf : GatherDims.WF S4096x1024 S4096x1x1 S4096x1 [] [1] [0] [1] [0] 2 ![1, 1]

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def gather_S1024x4096_S1024x4x1_S1024x4_n_1_0_0_1_2_11 : GatherDims S1024x4096 S1024x4x1 S1024x4 where
  offsetDims := []
  collapsedSliceDims := [1]
  operandBatchingDims := [0]
  startIndicesBatchingDims := [0]
  startIndexMap := [1]
  indexVectorDim := 2
  sliceSizes := ![1, 1]
  wf := gather_S1024x4096_S1024x4x1_S1024x4_n_1_0_0_1_2_11_wf
def comparator_i32_i32_d1 : BitVec 32 × BitVec 32 → BitVec 32 × BitVec 32 → BitVec 1 :=
  fun l r =>
    let v2 := IntOp.cmpi .slt l.1 r.1
    v2
def gather_S1024x4_S1024x3x1_S1024x3_n_1_0_0_1_2_11 : GatherDims S1024x4 S1024x3x1 S1024x3 where
  offsetDims := []
  collapsedSliceDims := [1]
  operandBatchingDims := [0]
  startIndicesBatchingDims := [0]
  startIndexMap := [1]
  indexVectorDim := 2
  sliceSizes := ![1, 1]
  wf := gather_S1024x4_S1024x3x1_S1024x3_n_1_0_0_1_2_11_wf
def gather_S4096x1024_S4096x1x1_S4096x1_n_1_0_0_1_2_11 : GatherDims S4096x1024 S4096x1x1 S4096x1 where
  offsetDims := []
  collapsedSliceDims := [1]
  operandBatchingDims := [0]
  startIndicesBatchingDims := [0]
  startIndexMap := [1]
  indexVectorDim := 2
  sliceSizes := ![1, 1]
  wf := gather_S4096x1024_S4096x1x1_S4096x1_n_1_0_0_1_2_11_wf

class Facts : Prop extends Facts₀ where

variable [Facts]
-- ==== Proof.KBDat.lean ====
/-
  The distance kernel's launch data at the ideal-program text, for any float instance.

  The pallas_call has five windows over a grid of eight points: window 0 the 128 query rows of the point, window 1 the
  whole 4096-row key matrix (the same array as window 0's), window 2 the 128 query squared norms as a column, window 3
  the 4096 key squared norms as a row, window 4 the 128×4096 block of distances the point writes.  The body loads the
  four input blocks whole and stores one value, a pure function of them, over the whole output block.  Here: each
  window's block at a point read off the array as the region finds it, what the body leaves in the output block, and
  the proof data of the pipeline (the input blocks stay, the output block is the stored value, the two windows on the
  shared array each hold half of it).
-/
import proofs.«136027_j7438883356888_1_alg».proof.Proof.Gen.Kernel.Launch
import proofs.«136027_j7438883356888_1_alg».proof.Proof.Gen.Kernel.Skeleton
import proofs.«136027_j7438883356888_1_alg».proof.Proof.Gen.Kernel.Points
import Idealize.ShloMosaic.Lib.Pipeline.FrameBody
import Idealize.ShloMosaic.Lib.Pipeline.Regions
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's five accesses: each the whole of its staging buffer. -/
abbrev r0_0 : Rect S128x2048 := Rect.unit (s := S128x2048) ![0, 0] S128x2048.size inb_S128x2048_S128x2048_0_0
abbrev r0_1 : Rect S4096x2048 := Rect.unit (s := S4096x2048) ![0, 0] S4096x2048.size inb_S4096x2048_S4096x2048_0_0
abbrev r0_2 : Rect S128x1 := Rect.unit (s := S128x1) ![0, 0] S128x1.size inb_S128x1_S128x1_0_0
abbrev r0_3 : Rect S1x4096 := Rect.unit (s := S1x4096) ![0, 0] S1x4096.size inb_S1x4096_S1x4096_0_0
abbrev r0_4 : Rect S128x4096 := Rect.unit (s := S128x4096) ![0, 0] S128x4096.size inb_S128x4096_S128x4096_0_0

/-- The output block after the body, from the four input blocks: its one store, of the body's value. -/
def out0_4 (x0 : Vec F S128x2048 .bf16) (x1 : Vec F S4096x2048 .bf16) (x2 : Vec F S128x1 .f32) (x3 : Vec F S1x4096 .f32) :
    Vec F S128x4096 .f32 :=
  View.canon [⟨r0_4, k0_pay1 (View.ld x0 r0_0) (View.ld x1 r0_1) (View.ld x2 r0_2) (View.ld x3 r0_3)⟩]

/-- The one store covers the block. -/
theorem cover0_4 (p0 : Vec F S128x4096 .f32) (y : S128x4096.Idx) :
    ∃ pc ∈ ([⟨r0_4, p0⟩] : List (View.Piece (Elt F) S128x4096 .f32)), y ∈ pc.1.set :=
  View.cover_of_tiled [⟨r0_4, p0⟩] S128x4096.size (by rfl) y

/-- The pipeline's proof data on core `c`: the arrays as the region finds them; after the body at point `t` each
    input's buffer at its block and the output's at `out0_4` of the input blocks; the invariant the scoped rest and the
    generator register, untouched; nothing owed; the array behind windows 0 and 1 held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

end Cert.Kernel.Hand

end
-- ==== Proof.KBBody.lean ====
/-
  The distance kernel's body at a point of the grid, for any float instance.

  The body is called with the five windows' current staging buffers.  Each input buffer holds its window's block of the
  array as the region found it, at every point: where the pipeline fetched the block this is what a fetch leaves, and
  where it did not the block index has not moved since the point before, so the buffer still holds the same block.  On
  such buffers the body loads the four inputs whole, loads the output buffer (the value is not used), and stores one
  value over the whole output buffer: the inputs stay as they were and the output buffer ends at `out0_4` of the input
  blocks.  This is the pipeline's body obligation for the proof data `dat0`.
-/
import proofs.«136027_j7438883356888_1_alg».proof.Proof.KBDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input's current staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's triple -/

set_option maxHeartbeats 1000000 in
/-- The body on whole staging memrefs, the inputs' at read contents `x0 … x3` and the output's at anything, runs to the
    continuation holding the inputs' as they were and the output's at `out0_4` of them. -/
theorem sound_kernel0 (c : Dev nD) (E : Set ℕ) (i : grid0.Coords)
    (arg1 : Memref sig .tc .vmem S128x2048 .bf16) (harg1 : arg1.IsWhole) (arg2 : Memref sig .tc .vmem S4096x2048 .bf16) (harg2 : arg2.IsWhole)
    (arg3 : Memref sig .tc .vmem S128x1 .f32) (harg3 : arg3.IsWhole) (arg4 : Memref sig .tc .vmem S1x4096 .f32) (harg4 : arg4.IsWhole)
    (arg5 : Memref sig .tc .vmem S128x4096 .f32) (harg5 : arg5.IsWhole)
    (x0 : Vec F S128x2048 .bf16) (x1 : Vec F S4096x2048 .bf16) (x2 : Vec F S128x1 .f32) (x3 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dist_kernel i arg1 harg1 arg2 harg2 arg3 harg3 arg4 harg4 arg5 harg5) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`: the invariant, the core owing nothing, each current staging buffer
    at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBShare.lean ====
/-
  The array two windows share, at the region's entry and exit, for any float instance.

  Windows 0 and 1 of the distance kernel both stage the array of bf16 rows; windows 2, 3, 4 have an array each.  A core
  enters the region holding every unscoped buffer whole.  Here the four distinct buffers behind the five windows' arrays
  are taken out of that holding and dealt to the windows as the proof data say: the shared array's full share is cut
  into its two halves, one per window, and each other array goes whole to its window.  At the exit the two halves, each
  still holding the array as entered (an input window's array is never written), are put back together, and with the
  output array at what the write-backs leave and the untouched rest they are again every unscoped buffer held whole.
-/
import proofs.«136027_j7438883356888_1_alg».proof.Proof.KBDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' arrays, one by one -/

/-- The distinct buffers behind the five windows' arrays. -/
theorem arr_image0 : (Finset.univ : Finset (Fin 5)).image (Pipeline.arrRef spec0) = {main_v0, main_v4, main_v5, main_v6} := by decide

/-- Those buffers held whole at the full share, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v4) ↦{fullShare} Vc main_v4)
          ∗ (((c : Thread nD τ).loc main_v5) ↦{fullShare} Vc main_v5) ∗ (((c : Thread nD τ).loc main_v6) ↦{fullShare} Vc main_v6)) := by
  unfold Pipeline.arrBufs
  rw [arr_image0, bigSep_insert (by decide), bigSep_insert (by decide), bigSep_insert (by decide), bigSep_singleton]
  rfl

/-- The pipeline's arrays at contents `G`, window by window: the shared array's two halves, then the three others. -/
theorem arrays0_eq (c : Dev nD) (G : (w : Fin cfg0.W) → Buf (Elt F) ((cfg0.win w).arr.view.loc (c : Thread nD τ))) :
    (dat0 V c).arrays G = iprop(
        (((c : Thread nD τ).loc main_v0) ↦{fullShare.left} G 0) ∗ (((c : Thread nD τ).loc main_v0) ↦{fullShare.right} G 1)
        ∗ (((c : Thread nD τ).loc main_v4) ↦{fullShare} G 2) ∗ (((c : Thread nD τ).loc main_v5) ↦{fullShare} G 3)
        ∗ (((c : Thread nD τ).loc main_v6) ↦{fullShare} G 4)) := by
  unfold Dat.arrays
  rw [bigSep_W0]
  have e0 : ((cfg0.win 0).arr.view.loc (c : Thread nD τ) ↦[(cfg0.win 0).arr.view.set]{(dat0 V c).share 0} G 0 : sProp 𝕄)
      = (((c : Thread nD τ).loc main_v0) ↦{fullShare.left} G 0) := by
    rw [show (cfg0.win 0).arr.view.set = Finset.univ from (arr_whole0 0).set_eq_univ, show (dat0 V c).share 0 = fullShare.left from rfl]
  have e1 : ((cfg0.win 1).arr.view.loc (c : Thread nD τ) ↦[(cfg0.win 1).arr.view.set]{(dat0 V c).share 1} G 1 : sProp 𝕄)
      = (((c : Thread nD τ).loc main_v0) ↦{fullShare.right} G 1) := by
    rw [show (cfg0.win 1).arr.view.set = Finset.univ from (arr_whole0 1).set_eq_univ, show (dat0 V c).share 1 = fullShare.right from rfl]
  have e2 : ((cfg0.win 2).arr.view.loc (c : Thread nD τ) ↦[(cfg0.win 2).arr.view.set]{(dat0 V c).share 2} G 2 : sProp 𝕄)
      = (((c : Thread nD τ).loc main_v4) ↦{fullShare} G 2) := by
    rw [show (cfg0.win 2).arr.view.set = Finset.univ from (arr_whole0 2).set_eq_univ, show (dat0 V c).share 2 = fullShare from rfl]
  have e3 : ((cfg0.win 3).arr.view.loc (c : Thread nD τ) ↦[(cfg0.win 3).arr.view.set]{(dat0 V c).share 3} G 3 : sProp 𝕄)
      = (((c : Thread nD τ).loc main_v5) ↦{fullShare} G 3) := by
    rw [show (cfg0.win 3).arr.view.set = Finset.univ from (arr_whole0 3).set_eq_univ, show (dat0 V c).share 3 = fullShare from rfl]
  have e4 : ((cfg0.win 4).arr.view.loc (c : Thread nD τ) ↦[(cfg0.win 4).arr.view.set]{(dat0 V c).share 4} G 4 : sProp 𝕄)
      = (((c : Thread nD τ).loc main_v6) ↦{fullShare} G 4) := by
    rw [show (cfg0.win 4).arr.view.set = Finset.univ from (arr_whole0 4).set_eq_univ, show (dat0 V c).share 4 = fullShare from rfl]
  rw [e0, e1, e2, e3, e4]

/-- The core's unscoped buffers are the buffers behind the windows' arrays and the rest. -/
theorem unscopedBufs_split0 (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec0 c Vc ∗ Pipeline.unscopedRest spec0 c Vc) :=
  Pipeline.unscopedBufs_split₀ cfgs 0 winFacts₀0.arr_unscoped c Vc

/-- What the input windows' arrays hold after every write-back: what they held at entry. -/
theorem arrAt0_0 (c : Dev nD) (n : Nat) : (dat0 V c).arrAt 0 n = V c main_v0 := ((dat0 V c).arrAt_in 0 rfl n).trans (A_eq0 V c 0)
theorem arrAt0_1 (c : Dev nD) (n : Nat) : (dat0 V c).arrAt 1 n = V c main_v0 := ((dat0 V c).arrAt_in 1 rfl n).trans (A_eq0 V c 1)
theorem arrAt0_2 (c : Dev nD) (n : Nat) : (dat0 V c).arrAt 2 n = V c main_v4 := ((dat0 V c).arrAt_in 2 rfl n).trans (A_eq0 V c 2)
theorem arrAt0_3 (c : Dev nD) (n : Nat) : (dat0 V c).arrAt 3 n = V c main_v5 := ((dat0 V c).arrAt_in 3 rfl n).trans (A_eq0 V c 3)

/-- ENTRY: a core's unscoped buffers at contents `V c` are the pipeline's arrays at the proof data's entry contents
    (the shared array's full share cut into the two windows' halves) and the unscoped rest. -/
theorem arrays_of_unscopedBufs0 (c : Dev nD) :
    (unscopedBufs (Ix := Unit) (Name := ℕ) (U := UR sig nD τ) (Lvl := ℕ) c (V c) : sProp 𝕄)
      ⊢ iprop((dat0 V c).arrays (fun w => (dat0 V c).arrAt w 0) ∗ Pipeline.unscopedRest spec0 c (V c)) := by
  rw [unscopedBufs_split0, arrBufs0_eq, arrays0_eq]
  iintro ⟨⟨H0, H4, H5, H6⟩, Hrest⟩
  isplitr [Hrest]
  swap; · iexact Hrest
  ihave H0' := (pointsTo_share (PosShare.mem_left_op_right fullShare)).1 $$ H0
  icases H0' with ⟨Hl, Hr⟩
  isplitl [Hl]; · iexact Hl
  isplitl [Hr]; · iexact Hr
  isplitl [H4]; · iexact H4
  isplitl [H5]; · iexact H5
  iexact H6

/-- EXIT: the pipeline's arrays at their final contents (the two halves of the shared array, each still at the entry
    contents, rejoined; the output array at what the write-backs leave) and the unscoped rest are the core's unscoped
    buffers at any contents `V'` that agree with these. -/
theorem unscopedBufs_of_arrays0 (c : Dev nD) (V' : (b : Ref sig .tc) → Buf (Elt F) ((c : Thread nD τ).loc b))
    (h6 : V' main_v6 = (dat0 V c).arrAt 4 cfg0.N) (hrest : ∀ b, b ≠ main_v6 → V' b = V c b) :
    iprop((dat0 V c).arrays (fun w => (dat0 V c).arrAt w cfg0.N) ∗ Pipeline.unscopedRest spec0 c (V c))
      ⊢ (unscopedBufs (Ix := Unit) (Name := ℕ) (U := UR sig nD τ) (Lvl := ℕ) c V' : sProp 𝕄) := by
  have hR : (Pipeline.unscopedRest (Ix := Unit) (Name := ℕ) (U := UR sig nD τ) (Lvl := ℕ) spec0 c (V c) : sProp 𝕄)
      = Pipeline.unscopedRest spec0 c V' := by
    unfold Pipeline.unscopedRest
    refine bigSep_congr fun b hb => ?_
    rw [hrest b fun e => (Finset.mem_sdiff.mp hb).2 (e ▸ (by decide : main_v6 ∈ (Finset.univ : Finset (Fin 5)).image (Pipeline.arrRef spec0)))]
  rw [unscopedBufs_split0, arrBufs0_eq, arrays0_eq, hR, h6, hrest main_v0 (by decide), hrest main_v4 (by decide), hrest main_v5 (by decide)]
  beta_reduce
  rw [arrAt0_0, arrAt0_1, arrAt0_2, arrAt0_3]
  iintro ⟨⟨Hl, Hr, H4, H5, H6⟩, Hrest⟩
  isplitr [Hrest]
  swap; · iexact Hrest
  isplitl [Hl Hr]
  · iapply (pointsTo_share (PosShare.mem_left_op_right fullShare)).2
    isplitl [Hl]; · iexact Hl
    iexact Hr
  isplitl [H4]; · iexact H4
  isplitl [H5]; · iexact H5
  iexact H6

end Cert.Kernel.Hand

end
-- ==== Proof.KBVals.lean ====
/-
  The contents of a core's buffers at every boundary of @main's run, for any float instance.

  @main is a first line of host operations, the distance kernel's region, and twenty-two further lines of host
  operations.  A line of host operations takes a valuation of the buffers to the valuation after it; the region changes
  one buffer only, the output array, which it leaves at what the pipeline's write-backs fold into it from the arrays the
  region found.  Folding these from the launch memory gives the contents at each boundary, the last being what @main
  returns with.
-/
import proofs.«136027_j7438883356888_1_alg».proof.Proof.KBDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first line of host operations: the contents the region is entered with. -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v6) ((dat0 (V1 m ρ) c).arrAt 4 cfg0.N)
theorem W2_main_v6 (c : Dev nD) : W2 m ρ c (Proc.devRef .tc main_v6) = (dat0 (V1 m ρ) c).arrAt 4 cfg0.N := by
  unfold W2; exact Function.update_self ..
theorem W2_of_ne (c : Dev nD) (b : Ref sig .tc) (hb : b ≠ main_v6) :
    W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b
/-- After the line `hostOps1`. -/
abbrev W3 : Dev nD → Valuation τ sig (Elt F) := fun c => StableHlo.after hostOps1 (W2 m ρ c)
/-- After the line `hostOps1_1`. -/
abbrev W4 : Dev nD → Valuation τ sig (Elt F) := fun c => StableHlo.after hostOps1_1 (W3 m ρ c)
/-- After the line `hostOps1_2`. -/
abbrev W5 : Dev nD → Valuation τ sig (Elt F) := fun c => StableHlo.after hostOps1_2 (W4 m ρ c)
/-- After the line `hostOps1_3`. -/
abbrev W6 : Dev nD → Valuation τ sig (Elt F) := fun c => StableHlo.after hostOps1_3 (W5 m ρ c)
/-- After the line `hostOps1_4`. -/
abbrev W7 : Dev nD → Valuation τ sig (Elt F) := fun c => StableHlo.after hostOps1_4 (W6 m ρ c)
/-- After the line `hostOps1_5`. -/
abbrev W8 : Dev nD → Valuation τ sig (Elt F) := fun c => StableHlo.after hostOps1_5 (W7 m ρ c)
/-- After the line `hostOps1_6`. -/
abbrev W9 : Dev nD → Valuation τ sig (Elt F) := fun c => StableHlo.after hostOps1_6 (W8 m ρ c)
/-- After the line `hostOps1_7`. -/
abbrev W10 : Dev nD → Valuation τ sig (Elt F) := fun c => StableHlo.after hostOps1_7 (W9 m ρ c)
/-- After the line `hostOps1_8`. -/
abbrev W11 : Dev nD → Valuation τ sig (Elt F) := fun c => StableHlo.after hostOps1_8 (W10 m ρ c)
/-- After the line `hostOps1_9`. -/
abbrev W12 : Dev nD → Valuation τ sig (Elt F) := fun c => StableHlo.after hostOps1_9 (W11 m ρ c)
/-- After the line `hostOps1_10`. -/
abbrev W13 : Dev nD → Valuation τ sig (Elt F) := fun c => StableHlo.after hostOps1_10 (W12 m ρ c)
/-- After the line `hostOps1_11`. -/
abbrev W14 : Dev nD → Valuation τ sig (Elt F) := fun c => StableHlo.after hostOps1_11 (W13 m ρ c)
/-- After the line `hostOps1_12`. -/
abbrev W15 : Dev nD → Valuation τ sig (Elt F) := fun c => StableHlo.after hostOps1_12 (W14 m ρ c)
/-- After the line `hostOps1_13`. -/
abbrev W16 : Dev nD → Valuation τ sig (Elt F) := fun c => StableHlo.after hostOps1_13 (W15 m ρ c)
/-- After the line `hostOps1_14`. -/
abbrev W17 : Dev nD → Valuation τ sig (Elt F) := fun c => StableHlo.after hostOps1_14 (W16 m ρ c)
/-- After the line `hostOps1_15`. -/
abbrev W18 : Dev nD → Valuation τ sig (Elt F) := fun c => StableHlo.after hostOps1_15 (W17 m ρ c)
/-- After the line `hostOps1_16`. -/
abbrev W19 : Dev nD → Valuation τ sig (Elt F) := fun c => StableHlo.after hostOps1_16 (W18 m ρ c)
/-- After the line `hostOps1_17`. -/
abbrev W20 : Dev nD → Valuation τ sig (Elt F) := fun c => StableHlo.after hostOps1_17 (W19 m ρ c)
/-- After the line `hostOps1_18`. -/
abbrev W21 : Dev nD → Valuation τ sig (Elt F) := fun c => StableHlo.after hostOps1_18 (W20 m ρ c)
/-- After the line `hostOps1_19`. -/
abbrev W22 : Dev nD → Valuation τ sig (Elt F) := fun c => StableHlo.after hostOps1_19 (W21 m ρ c)
/-- After the line `hostOps1_20`. -/
abbrev W23 : Dev nD → Valuation τ sig (Elt F) := fun c => StableHlo.after hostOps1_20 (W22 m ρ c)
/-- After the line `hostOps1_21`. -/
abbrev W24 : Dev nD → Valuation τ sig (Elt F) := fun c => StableHlo.after hostOps1_21 (W23 m ρ c)
/-- What @main returns with. -/
abbrev Wend : Dev nD → Valuation τ sig (Elt F) := W24 m ρ

end Cert.Kernel.Hand

end
-- ==== Proof.KBRegion.lean ====
/-
  The distance kernel's region as a segment of @main's run, for any float instance.

  Between two segments of the run a core holds every unscoped buffer whole at the boundary's contents, its generator
  register at some state, and owes nothing.  The region is entered from that state at the contents the first line of
  host operations leaves, and left in it with the output array at what the pipeline's write-backs leave: its arrays are
  taken out of the unscoped buffers on entry and put back on exit (the shared array cut into its halves and rejoined),
  the generator register rides through the pipeline's invariant, and the kernel has no semaphore of its own.
-/
import proofs.«136027_j7438883356888_1_alg».proof.Proof.KBBody
import proofs.«136027_j7438883356888_1_alg».proof.Proof.KBShare
import proofs.«136027_j7438883356888_1_alg».proof.Proof.KBVals

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The region as a segment -/

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) :=
      arrays_of_unscopedBufs0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) :=
      unscopedBufs_of_arrays0 (V1 m ρ) c (V2 m ρ c) (W2_main_v6 m ρ c) (fun b hb => W2_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KBHostFresh.lean ====
/-
  The host stretches of the program allocate nothing: every host operation between the launch and the return
  writes a buffer the program's signature already names, so a stretch's set of fresh buffers is empty, operation
  by operation.
-/
import proofs.«136027_j7438883356888_1_alg».proof.Proof.Gen.Kernel.Launch

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps1_3` allocates a buffer. -/
theorem hostOps1_3_fresh : (hostOps1_3 : List (HloOp τ sig (Elt F))).Forall fun op => op.fresh = ∅ := by
  simp only [List.Forall]; repeat' constructor
/-- No operation of `hostOps1_4` allocates a buffer. -/
theorem hostOps1_4_fresh : (hostOps1_4 : List (HloOp τ sig (Elt F))).Forall fun op => op.fresh = ∅ := by
  simp only [List.Forall]; repeat' constructor
/-- No operation of `hostOps1_5` allocates a buffer. -/
theorem hostOps1_5_fresh : (hostOps1_5 : List (HloOp τ sig (Elt F))).Forall fun op => op.fresh = ∅ := by
  simp only [List.Forall]; repeat' constructor
/-- No operation of `hostOps1_6` allocates a buffer. -/
theorem hostOps1_6_fresh : (hostOps1_6 : List (HloOp τ sig (Elt F))).Forall fun op => op.fresh = ∅ := by
  simp only [List.Forall]; repeat' constructor
/-- No operation of `hostOps1_7` allocates a buffer. -/
theorem hostOps1_7_fresh : (hostOps1_7 : List (HloOp τ sig (Elt F))).Forall fun op => op.fresh = ∅ := by
  simp only [List.Forall]; repeat' constructor
/-- No operation of `hostOps1_8` allocates a buffer. -/
theorem hostOps1_8_fresh : (hostOps1_8 : List (HloOp τ sig (Elt F))).Forall fun op => op.fresh = ∅ := by
  simp only [List.Forall]; repeat' constructor
/-- No operation of `hostOps1_9` allocates a buffer. -/
theorem hostOps1_9_fresh : (hostOps1_9 : List (HloOp τ sig (Elt F))).Forall fun op => op.fresh = ∅ := by
  simp only [List.Forall]; repeat' constructor
/-- No operation of `hostOps1_10` allocates a buffer. -/
theorem hostOps1_10_fresh : (hostOps1_10 : List (HloOp τ sig (Elt F))).Forall fun op => op.fresh = ∅ := by
  simp only [List.Forall]; repeat' constructor
/-- No operation of `hostOps1_11` allocates a buffer. -/
theorem hostOps1_11_fresh : (hostOps1_11 : List (HloOp τ sig (Elt F))).Forall fun op => op.fresh = ∅ := by
  simp only [List.Forall]; repeat' constructor
/-- No operation of `hostOps1_12` allocates a buffer. -/
theorem hostOps1_12_fresh : (hostOps1_12 : List (HloOp τ sig (Elt F))).Forall fun op => op.fresh = ∅ := by
  simp only [List.Forall]; repeat' constructor
/-- No operation of `hostOps1_13` allocates a buffer. -/
theorem hostOps1_13_fresh : (hostOps1_13 : List (HloOp τ sig (Elt F))).Forall fun op => op.fresh = ∅ := by
  simp only [List.Forall]; repeat' constructor
/-- No operation of `hostOps1_14` allocates a buffer. -/
theorem hostOps1_14_fresh : (hostOps1_14 : List (HloOp τ sig (Elt F))).Forall fun op => op.fresh = ∅ := by
  simp only [List.Forall]; repeat' constructor
/-- No operation of `hostOps1_15` allocates a buffer. -/
theorem hostOps1_15_fresh : (hostOps1_15 : List (HloOp τ sig (Elt F))).Forall fun op => op.fresh = ∅ := by
  simp only [List.Forall]; repeat' constructor
/-- No operation of `hostOps1_16` allocates a buffer. -/
theorem hostOps1_16_fresh : (hostOps1_16 : List (HloOp τ sig (Elt F))).Forall fun op => op.fresh = ∅ := by
  simp only [List.Forall]; repeat' constructor
/-- No operation of `hostOps1_17` allocates a buffer. -/
theorem hostOps1_17_fresh : (hostOps1_17 : List (HloOp τ sig (Elt F))).Forall fun op => op.fresh = ∅ := by
  simp only [List.Forall]; repeat' constructor
/-- No operation of `hostOps1_18` allocates a buffer. -/
theorem hostOps1_18_fresh : (hostOps1_18 : List (HloOp τ sig (Elt F))).Forall fun op => op.fresh = ∅ := by
  simp only [List.Forall]; repeat' constructor
/-- No operation of `hostOps1_19` allocates a buffer. -/
theorem hostOps1_19_fresh : (hostOps1_19 : List (HloOp τ sig (Elt F))).Forall fun op => op.fresh = ∅ := by
  simp only [List.Forall]; repeat' constructor
/-- No operation of `hostOps1_20` allocates a buffer. -/
theorem hostOps1_20_fresh : (hostOps1_20 : List (HloOp τ sig (Elt F))).Forall fun op => op.fresh = ∅ := by
  simp only [List.Forall]; repeat' constructor
/-- No operation of `hostOps1_21` allocates a buffer. -/
theorem hostOps1_21_fresh : (hostOps1_21 : List (HloOp τ sig (Elt F))).Forall fun op => op.fresh = ∅ := by
  simp only [List.Forall]; repeat' constructor

end Cert.Kernel.Hand

end
-- ==== Proof.KBFrame.lean ====
/-
  The distance kernel program's run from launch to return, and its frame, for any float instance.

  @main is twenty-four segments: a line of host operations, the kernel's region, and twenty-two more lines.  Each line
  runs over the core's unscoped buffers from the contents at its boundary and leaves them at the contents at the next;
  the region is the segment of the module before this one.  Chained, they take the launch memory to the last boundary's
  contents: every weakly fair execution of @main terminates, and in every final state each unscoped buffer of each core
  holds what the fold of the boundaries says.  No line writes an argument array and the region writes only its output
  array, so the six arguments end as launched.
-/
import proofs.«136027_j7438883356888_1_alg».proof.Proof.KBRegion
import proofs.«136027_j7438883356888_1_alg».proof.Proof.KBHostFresh
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines of host operations as segments -/

/-- A line of host operations as a segment: it runs over the unscoped references from the contents `W`, the generator
    register and the core's dues riding along, and leaves the references at the contents after the line. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator
    register at some state. -/
abbrev Tₙ (c : Dev nD) : sProp 𝕄 := iprop(StableHlo.held (c : Thread nD τ) (Pipeline.ucRefs τ sig) (Wend m ρ c) ∗ ∃ r, prngReg c r)

/-! ## @main as segments, and the launch -/

/-- @main's twenty-four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .host (hseg hostOps1_13 hostOps1_13_sub hostOps1_13_fresh (W15 m ρ)),
    .host (hseg hostOps1_14 hostOps1_14_sub hostOps1_14_fresh (W16 m ρ)),
    .host (hseg hostOps1_15 hostOps1_15_sub hostOps1_15_fresh (W17 m ρ)),
    .host (hseg hostOps1_16 hostOps1_16_sub hostOps1_16_fresh (W18 m ρ)),
    .host (hseg hostOps1_17 hostOps1_17_sub hostOps1_17_fresh (W19 m ρ)),
    .host (hseg hostOps1_18 hostOps1_18_sub hostOps1_18_fresh (W20 m ρ)),
    .host (hseg hostOps1_19 hostOps1_19_sub hostOps1_19_fresh (W21 m ρ)),
    .host (hseg hostOps1_20 hostOps1_20_sub hostOps1_20_fresh (W22 m ρ)),
    .host (hseg hostOps1_21 hostOps1_21_sub hostOps1_21_fresh (W23 m ρ)) ]

/-- @main is the run of the segments: @main is the chain of its items, and the segments' run is the chain of theirs. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      StableHlo.seq hostOps1_3,
      StableHlo.seq hostOps1_4,
      StableHlo.seq hostOps1_5,
      StableHlo.seq hostOps1_6,
      StableHlo.seq hostOps1_7,
      StableHlo.seq hostOps1_8,
      StableHlo.seq hostOps1_9,
      StableHlo.seq hostOps1_10,
      StableHlo.seq hostOps1_11,
      StableHlo.seq hostOps1_12,
      StableHlo.seq hostOps1_13,
      StableHlo.seq hostOps1_14,
      StableHlo.seq hostOps1_15,
      StableHlo.seq hostOps1_16,
      StableHlo.seq hostOps1_17,
      StableHlo.seq hostOps1_18,
      StableHlo.seq hostOps1_19,
      StableHlo.seq hostOps1_20,
      StableHlo.seq hostOps1_21 ] from rfl]
  rfl

set_option backward.isDefEq.respectTransparency.types false in
/-- THE RUN: from any memory with zero counters, every weakly fair execution of @main on the TensorCores terminates,
    nothing faulting, and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (Wend m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

end Cert.Kernel.Hand

end
-- ==== Proof.KBHostWrites.lean ====
/-
  What each host stretch of the program writes: per stretch the list of the buffers its operations write, one per
  operation, and that every operation's written set lies in that list.  A buffer outside a stretch's list therefore
  holds after the stretch what it held before.
-/
import proofs.«136027_j7438883356888_1_alg».proof.Proof.Gen.Kernel.Launch

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The references `hostOps0`'s operations write, in order. -/
abbrev hostOps0_W : List (Ref sig .tc) := [main_v0, main_v1, main_cst, main_v2, main_v3, main_v4, main_v5]
/-- Each operation of `hostOps0` writes one of them. -/
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1`'s operations write, in order. -/
abbrev hostOps1_W : List (Ref sig .tc) := [main_v7, main_v8, main_v9, main_v10, main_v11, main_v12, main_v13, main_c, main_v14, main_v15, main_v16, main_v17, main_v18, main_v19, main_v20]
/-- Each operation of `hostOps1` writes one of them. -/
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_1`'s operations write, in order. -/
abbrev hostOps1_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v21]
/-- Each operation of `hostOps1_1` writes one of them. -/
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_2`'s operations write, in order. -/
abbrev hostOps1_2_W : List (Ref sig .tc) := [main_v22, main_c_0]
/-- Each operation of `hostOps1_2` writes one of them. -/
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_3`'s operations write, in order. -/
abbrev hostOps1_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v23]
/-- Each operation of `hostOps1_3` writes one of them. -/
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_4`'s operations write, in order. -/
abbrev hostOps1_4_W : List (Ref sig .tc) := [main_v24, main_v25, main_v26, main_v27, main_v28, main_v29, main_c_1, main_c_2]
/-- Each operation of `hostOps1_4` writes one of them. -/
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_5`'s operations write, in order. -/
abbrev hostOps1_5_W : List (Ref sig .tc) := [main_call2_v0, main_call2_v1, main_v30]
/-- Each operation of `hostOps1_5` writes one of them. -/
theorem hostOps1_5_writes : (hostOps1_5 : List (HloOp τ sig (Elt F))).Forall fun op => op.writes ⊆ (hostOps1_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_6`'s operations write, in order. -/
abbrev hostOps1_6_W : List (Ref sig .tc) := [main_call3_v0, main_call3_v1_0, main_v31]
/-- Each operation of `hostOps1_6` writes one of them. -/
theorem hostOps1_6_writes : (hostOps1_6 : List (HloOp τ sig (Elt F))).Forall fun op => op.writes ⊆ (hostOps1_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_7`'s operations write, in order. -/
abbrev hostOps1_7_W : List (Ref sig .tc) := [main_v32]
/-- Each operation of `hostOps1_7` writes one of them. -/
theorem hostOps1_7_writes : (hostOps1_7 : List (HloOp τ sig (Elt F))).Forall fun op => op.writes ⊆ (hostOps1_7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_8`'s operations write, in order. -/
abbrev hostOps1_8_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v33]
/-- Each operation of `hostOps1_8` writes one of them. -/
theorem hostOps1_8_writes : (hostOps1_8 : List (HloOp τ sig (Elt F))).Forall fun op => op.writes ⊆ (hostOps1_8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_9`'s operations write, in order. -/
abbrev hostOps1_9_W : List (Ref sig .tc) := [main_cst_3, main_v34, main_cst_4, main_v35, main_v36, main_v37, main_v38, main_v39, main_v40, main_cst_5, main_v41, main_v42, main_v43, main_v44, main_v45, main_cst_6, main_v46, main_v47, main_cst_7]
/-- Each operation of `hostOps1_9` writes one of them. -/
theorem hostOps1_9_writes : (hostOps1_9 : List (HloOp τ sig (Elt F))).Forall fun op => op.writes ⊆ (hostOps1_9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_10`'s operations write, in order. -/
abbrev hostOps1_10_W : List (Ref sig .tc) := [main_call5_v0, main_call5_v1, main_v48]
/-- Each operation of `hostOps1_10` writes one of them. -/
theorem hostOps1_10_writes : (hostOps1_10 : List (HloOp τ sig (Elt F))).Forall fun op => op.writes ⊆ (hostOps1_10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_11`'s operations write, in order. -/
abbrev hostOps1_11_W : List (Ref sig .tc) := [main_cst_8, main_v49, main_cst_9, main_v50, main_v51, main_v52, main_v53, main_v54, main_v55, main_v56, main_cst_10]
/-- Each operation of `hostOps1_11` writes one of them. -/
theorem hostOps1_11_writes : (hostOps1_11 : List (HloOp τ sig (Elt F))).Forall fun op => op.writes ⊆ (hostOps1_11_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_12`'s operations write, in order. -/
abbrev hostOps1_12_W : List (Ref sig .tc) := [main_call6_v0, main_call6_v1, main_v57]
/-- Each operation of `hostOps1_12` writes one of them. -/
theorem hostOps1_12_writes : (hostOps1_12 : List (HloOp τ sig (Elt F))).Forall fun op => op.writes ⊆ (hostOps1_12_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_13`'s operations write, in order. -/
abbrev hostOps1_13_W : List (Ref sig .tc) := [main_cst_11, main_v58, main_cst_12, main_v59, main_v60, main_v61, main_v62, main_v63, main_v64, main_cst_13, main_v65, main_v66, main_v67, main_v68, main_cst_14]
/-- Each operation of `hostOps1_13` writes one of them. -/
theorem hostOps1_13_writes : (hostOps1_13 : List (HloOp τ sig (Elt F))).Forall fun op => op.writes ⊆ (hostOps1_13_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_14`'s operations write, in order. -/
abbrev hostOps1_14_W : List (Ref sig .tc) := [main_call7_v0, main_call7_v1, main_v69]
/-- Each operation of `hostOps1_14` writes one of them. -/
theorem hostOps1_14_writes : (hostOps1_14 : List (HloOp τ sig (Elt F))).Forall fun op => op.writes ⊆ (hostOps1_14_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_15`'s operations write, in order. -/
abbrev hostOps1_15_W : List (Ref sig .tc) := [main_v70, main_cst_15, main_v71, main_v72, main_cst_16, main_v73, main_v74]
/-- Each operation of `hostOps1_15` writes one of them. -/
theorem hostOps1_15_writes : (hostOps1_15 : List (HloOp τ sig (Elt F))).Forall fun op => op.writes ⊆ (hostOps1_15_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_16`'s operations write, in order. -/
abbrev hostOps1_16_W : List (Ref sig .tc) := [main_call8_cst, main_call8_v0, main_v75]
/-- Each operation of `hostOps1_16` writes one of them. -/
theorem hostOps1_16_writes : (hostOps1_16 : List (HloOp τ sig (Elt F))).Forall fun op => op.writes ⊆ (hostOps1_16_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_17`'s operations write, in order. -/
abbrev hostOps1_17_W : List (Ref sig .tc) := [main_cst_17, main_v76, main_cst_18, main_v77]
/-- Each operation of `hostOps1_17` writes one of them. -/
theorem hostOps1_17_writes : (hostOps1_17 : List (HloOp τ sig (Elt F))).Forall fun op => op.writes ⊆ (hostOps1_17_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_18`'s operations write, in order. -/
abbrev hostOps1_18_W : List (Ref sig .tc) := [main_call9_cst, main_call9_v0, main_call9_cst_0, main_call9_v1, main_call9_v2, main_call9_v3, main_call9_v4, main_call9_v5, main_call9_v6, main_call9_cst_1, main_call9_v7, main_call9_v8, main_call9_v9, main_call9_v10, main_v78]
/-- Each operation of `hostOps1_18` writes one of them. -/
theorem hostOps1_18_writes : (hostOps1_18 : List (HloOp τ sig (Elt F))).Forall fun op => op.writes ⊆ (hostOps1_18_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_19`'s operations write, in order. -/
abbrev hostOps1_19_W : List (Ref sig .tc) := [main_v79]
/-- Each operation of `hostOps1_19` writes one of them. -/
theorem hostOps1_19_writes : (hostOps1_19 : List (HloOp τ sig (Elt F))).Forall fun op => op.writes ⊆ (hostOps1_19_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_20`'s operations write, in order. -/
abbrev hostOps1_20_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v80]
/-- Each operation of `hostOps1_20` writes one of them. -/
theorem hostOps1_20_writes : (hostOps1_20 : List (HloOp τ sig (Elt F))).Forall fun op => op.writes ⊆ (hostOps1_20_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_21`'s operations write, in order. -/
abbrev hostOps1_21_W : List (Ref sig .tc) := [main_cst_19, main_v81, main_cst_20, main_v82, main_v83, main_v84, main_v85, main_cst_21, main_v86, main_v87, main_v88, main_v89, main_cst_22, main_v90, main_v91, main_cst_23, main_v92, main_cst_24, main_v93, main_v94, main_v95, main_cst_25, main_v96, main_v97]
/-- Each operation of `hostOps1_21` writes one of them. -/
theorem hostOps1_21_writes : (hostOps1_21 : List (HloOp τ sig (Elt F))).Forall fun op => op.writes ⊆ (hostOps1_21_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.Kernel.Hand

end
-- ==== Proof.KBTail.lean ====
/-
  The kernel program's host operations after the region, as one line: the twenty-two stretches in program order.
-/
import proofs.«136027_j7438883356888_1_alg».proof.Proof.Gen.Kernel.Launch

noncomputable section

namespace Cert.Kernel.Hand

open Cert.Kernel Cert.Kernel.Gen Idealize.ShloMosaic

variable {F : FTy → Type} [FloatOps F]

/-- Everything @main does after the region: the mining of hard positives and negatives over the distance rows, the
    cross entropy, the two norms and the weighted sum. -/
abbrev tailOps : List (HloOp τ sig (Elt F)) :=
  hostOps1 ++ (hostOps1_1 ++ (hostOps1_2 ++ (hostOps1_3 ++ (hostOps1_4 ++ (hostOps1_5 ++ (hostOps1_6 ++ (hostOps1_7 ++
  (hostOps1_8 ++ (hostOps1_9 ++ (hostOps1_10 ++ (hostOps1_11 ++ (hostOps1_12 ++ (hostOps1_13 ++ (hostOps1_14 ++
  (hostOps1_15 ++ (hostOps1_16 ++ (hostOps1_17 ++ (hostOps1_18 ++ (hostOps1_19 ++ (hostOps1_20 ++ hostOps1_21))))))))))))))))))))

end Cert.Kernel.Hand

end
-- ==== Proof.KBValsFacts.lean ====
/-
  How the buffers' contents move from one boundary of @main's run to the next.

  A line of host operations changes only the buffers its operations write, so a buffer outside a line's write list
  holds after the line what it held before; the region changes the output array only.  Chaining these from the
  return back to the launch: each argument of @main reaches the return holding its launch contents, and the contents
  at the return are the lines after the region, run as one line, from what the region leaves.
-/
import proofs.«136027_j7438883356888_1_alg».proof.Proof.KBVals
import proofs.«136027_j7438883356888_1_alg».proof.Proof.KBHostWrites
import proofs.«136027_j7438883356888_1_alg».proof.Proof.KBTail

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## One boundary to the next -/

/-- A buffer the first line does not write holds at the region's entry what it held at launch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A buffer the line `hostOps1` does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- A buffer the line `hostOps1_1` does not write holds after it what it held before. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
/-- A buffer the line `hostOps1_2` does not write holds after it what it held before. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
/-- A buffer the line `hostOps1_3` does not write holds after it what it held before. -/
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
/-- A buffer the line `hostOps1_4` does not write holds after it what it held before. -/
theorem W7_of (c : Dev nD) (r : Ref sig .tc) (h : r ∉ hostOps1_4_W) :
    W7 m ρ c (Proc.devRef .tc r) = W6 m ρ c (Proc.devRef .tc r) :=
  StableHlo.after_of_writes_sub hostOps1_4 _ hostOps1_4_writes h
/-- A buffer the line `hostOps1_5` does not write holds after it what it held before. -/
theorem W8_of (c : Dev nD) (r : Ref sig .tc) (h : r ∉ hostOps1_5_W) :
    W8 m ρ c (Proc.devRef .tc r) = W7 m ρ c (Proc.devRef .tc r) :=
  StableHlo.after_of_writes_sub hostOps1_5 _ hostOps1_5_writes h
/-- A buffer the line `hostOps1_6` does not write holds after it what it held before. -/
theorem W9_of (c : Dev nD) (r : Ref sig .tc) (h : r ∉ hostOps1_6_W) :
    W9 m ρ c (Proc.devRef .tc r) = W8 m ρ c (Proc.devRef .tc r) :=
  StableHlo.after_of_writes_sub hostOps1_6 _ hostOps1_6_writes h
/-- A buffer the line `hostOps1_7` does not write holds after it what it held before. -/
theorem W10_of (c : Dev nD) (r : Ref sig .tc) (h : r ∉ hostOps1_7_W) :
    W10 m ρ c (Proc.devRef .tc r) = W9 m ρ c (Proc.devRef .tc r) :=
  StableHlo.after_of_writes_sub hostOps1_7 _ hostOps1_7_writes h
/-- A buffer the line `hostOps1_8` does not write holds after it what it held before. -/
theorem W11_of (c : Dev nD) (r : Ref sig .tc) (h : r ∉ hostOps1_8_W) :
    W11 m ρ c (Proc.devRef .tc r) = W10 m ρ c (Proc.devRef .tc r) :=
  StableHlo.after_of_writes_sub hostOps1_8 _ hostOps1_8_writes h
/-- A buffer the line `hostOps1_9` does not write holds after it what it held before. -/
theorem W12_of (c : Dev nD) (r : Ref sig .tc) (h : r ∉ hostOps1_9_W) :
    W12 m ρ c (Proc.devRef .tc r) = W11 m ρ c (Proc.devRef .tc r) :=
  StableHlo.after_of_writes_sub hostOps1_9 _ hostOps1_9_writes h
/-- A buffer the line `hostOps1_10` does not write holds after it what it held before. -/
theorem W13_of (c : Dev nD) (r : Ref sig .tc) (h : r ∉ hostOps1_10_W) :
    W13 m ρ c (Proc.devRef .tc r) = W12 m ρ c (Proc.devRef .tc r) :=
  StableHlo.after_of_writes_sub hostOps1_10 _ hostOps1_10_writes h
/-- A buffer the line `hostOps1_11` does not write holds after it what it held before. -/
theorem W14_of (c : Dev nD) (r : Ref sig .tc) (h : r ∉ hostOps1_11_W) :
    W14 m ρ c (Proc.devRef .tc r) = W13 m ρ c (Proc.devRef .tc r) :=
  StableHlo.after_of_writes_sub hostOps1_11 _ hostOps1_11_writes h
/-- A buffer the line `hostOps1_12` does not write holds after it what it held before. -/
theorem W15_of (c : Dev nD) (r : Ref sig .tc) (h : r ∉ hostOps1_12_W) :
    W15 m ρ c (Proc.devRef .tc r) = W14 m ρ c (Proc.devRef .tc r) :=
  StableHlo.after_of_writes_sub hostOps1_12 _ hostOps1_12_writes h
/-- A buffer the line `hostOps1_13` does not write holds after it what it held before. -/
theorem W16_of (c : Dev nD) (r : Ref sig .tc) (h : r ∉ hostOps1_13_W) :
    W16 m ρ c (Proc.devRef .tc r) = W15 m ρ c (Proc.devRef .tc r) :=
  StableHlo.after_of_writes_sub hostOps1_13 _ hostOps1_13_writes h
/-- A buffer the line `hostOps1_14` does not write holds after it what it held before. -/
theorem W17_of (c : Dev nD) (r : Ref sig .tc) (h : r ∉ hostOps1_14_W) :
    W17 m ρ c (Proc.devRef .tc r) = W16 m ρ c (Proc.devRef .tc r) :=
  StableHlo.after_of_writes_sub hostOps1_14 _ hostOps1_14_writes h
/-- A buffer the line `hostOps1_15` does not write holds after it what it held before. -/
theorem W18_of (c : Dev nD) (r : Ref sig .tc) (h : r ∉ hostOps1_15_W) :
    W18 m ρ c (Proc.devRef .tc r) = W17 m ρ c (Proc.devRef .tc r) :=
  StableHlo.after_of_writes_sub hostOps1_15 _ hostOps1_15_writes h
/-- A buffer the line `hostOps1_16` does not write holds after it what it held before. -/
theorem W19_of (c : Dev nD) (r : Ref sig .tc) (h : r ∉ hostOps1_16_W) :
    W19 m ρ c (Proc.devRef .tc r) = W18 m ρ c (Proc.devRef .tc r) :=
  StableHlo.after_of_writes_sub hostOps1_16 _ hostOps1_16_writes h
/-- A buffer the line `hostOps1_17` does not write holds after it what it held before. -/
theorem W20_of (c : Dev nD) (r : Ref sig .tc) (h : r ∉ hostOps1_17_W) :
    W20 m ρ c (Proc.devRef .tc r) = W19 m ρ c (Proc.devRef .tc r) :=
  StableHlo.after_of_writes_sub hostOps1_17 _ hostOps1_17_writes h
/-- A buffer the line `hostOps1_18` does not write holds after it what it held before. -/
theorem W21_of (c : Dev nD) (r : Ref sig .tc) (h : r ∉ hostOps1_18_W) :
    W21 m ρ c (Proc.devRef .tc r) = W20 m ρ c (Proc.devRef .tc r) :=
  StableHlo.after_of_writes_sub hostOps1_18 _ hostOps1_18_writes h
/-- A buffer the line `hostOps1_19` does not write holds after it what it held before. -/
theorem W22_of (c : Dev nD) (r : Ref sig .tc) (h : r ∉ hostOps1_19_W) :
    W22 m ρ c (Proc.devRef .tc r) = W21 m ρ c (Proc.devRef .tc r) :=
  StableHlo.after_of_writes_sub hostOps1_19 _ hostOps1_19_writes h
/-- A buffer the line `hostOps1_20` does not write holds after it what it held before. -/
theorem W23_of (c : Dev nD) (r : Ref sig .tc) (h : r ∉ hostOps1_20_W) :
    W23 m ρ c (Proc.devRef .tc r) = W22 m ρ c (Proc.devRef .tc r) :=
  StableHlo.after_of_writes_sub hostOps1_20 _ hostOps1_20_writes h
/-- A buffer the line `hostOps1_21` does not write holds after it what it held before. -/
theorem W24_of (c : Dev nD) (r : Ref sig .tc) (h : r ∉ hostOps1_21_W) :
    W24 m ρ c (Proc.devRef .tc r) = W23 m ρ c (Proc.devRef .tc r) :=
  StableHlo.after_of_writes_sub hostOps1_21 _ hostOps1_21_writes h

/-! ## From the return back to the region's exit -/

/-- A buffer none of the lines after the region writes holds at the return what the region left in it. -/
theorem Wend_of (c : Dev nD) (r : Ref sig .tc) (h0 : r ∉ hostOps1_W) (h1 : r ∉ hostOps1_1_W) (h2 : r ∉ hostOps1_2_W) (h3 : r ∉ hostOps1_3_W) (h4 : r ∉ hostOps1_4_W) (h5 : r ∉ hostOps1_5_W) (h6 : r ∉ hostOps1_6_W) (h7 : r ∉ hostOps1_7_W) (h8 : r ∉ hostOps1_8_W) (h9 : r ∉ hostOps1_9_W) (h10 : r ∉ hostOps1_10_W) (h11 : r ∉ hostOps1_11_W) (h12 : r ∉ hostOps1_12_W) (h13 : r ∉ hostOps1_13_W) (h14 : r ∉ hostOps1_14_W) (h15 : r ∉ hostOps1_15_W) (h16 : r ∉ hostOps1_16_W) (h17 : r ∉ hostOps1_17_W) (h18 : r ∉ hostOps1_18_W) (h19 : r ∉ hostOps1_19_W) (h20 : r ∉ hostOps1_20_W) (h21 : r ∉ hostOps1_21_W) :
    Wend m ρ c (Proc.devRef .tc r) = W2 m ρ c (Proc.devRef .tc r) :=
  (W24_of m ρ c r h21).trans <| (W23_of m ρ c r h20).trans <| (W22_of m ρ c r h19).trans <| (W21_of m ρ c r h18).trans <| (W20_of m ρ c r h17).trans <| (W19_of m ρ c r h16).trans <| (W18_of m ρ c r h15).trans <| (W17_of m ρ c r h14).trans <| (W16_of m ρ c r h13).trans <| (W15_of m ρ c r h12).trans <| (W14_of m ρ c r h11).trans <| (W13_of m ρ c r h10).trans <| (W12_of m ρ c r h9).trans <| (W11_of m ρ c r h8).trans <| (W10_of m ρ c r h7).trans <| (W9_of m ρ c r h6).trans <| (W8_of m ρ c r h5).trans <| (W7_of m ρ c r h4).trans <| (W6_of m ρ c r h3).trans <| (W5_of m ρ c r h2).trans <| (W4_of m ρ c r h1).trans <| (W3_of m ρ c r h0)

/-! ## The arguments end as launched -/

/-- Argument `main_arg0` reaches the return as launched: no host operation writes it and the region does not change it. -/
theorem Wend_main_arg0 (c : Dev nD) : Wend m ρ c (Proc.devRef .tc main_arg0) = m ((c : Thread nD τ).loc main_arg0) :=
  (Wend_of m ρ c main_arg0 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg0 (by decide)).trans <| (W1_of m ρ c main_arg0 (by decide)).trans rfl

/-- Argument `main_arg1` reaches the return as launched: no host operation writes it and the region does not change it. -/
theorem Wend_main_arg1 (c : Dev nD) : Wend m ρ c (Proc.devRef .tc main_arg1) = m ((c : Thread nD τ).loc main_arg1) :=
  (Wend_of m ρ c main_arg1 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg1 (by decide)).trans <| (W1_of m ρ c main_arg1 (by decide)).trans rfl

/-- Argument `main_arg2` reaches the return as launched: no host operation writes it and the region does not change it. -/
theorem Wend_main_arg2 (c : Dev nD) : Wend m ρ c (Proc.devRef .tc main_arg2) = m ((c : Thread nD τ).loc main_arg2) :=
  (Wend_of m ρ c main_arg2 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg2 (by decide)).trans <| (W1_of m ρ c main_arg2 (by decide)).trans rfl

/-- Argument `main_arg3` reaches the return as launched: no host operation writes it and the region does not change it. -/
theorem Wend_main_arg3 (c : Dev nD) : Wend m ρ c (Proc.devRef .tc main_arg3) = m ((c : Thread nD τ).loc main_arg3) :=
  (Wend_of m ρ c main_arg3 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg3 (by decide)).trans <| (W1_of m ρ c main_arg3 (by decide)).trans rfl

/-- Argument `main_arg4` reaches the return as launched: no host operation writes it and the region does not change it. -/
theorem Wend_main_arg4 (c : Dev nD) : Wend m ρ c (Proc.devRef .tc main_arg4) = m ((c : Thread nD τ).loc main_arg4) :=
  (Wend_of m ρ c main_arg4 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg4 (by decide)).trans <| (W1_of m ρ c main_arg4 (by decide)).trans rfl

/-- Argument `main_arg5` reaches the return as launched: no host operation writes it and the region does not change it. -/
theorem Wend_main_arg5 (c : Dev nD) : Wend m ρ c (Proc.devRef .tc main_arg5) = m ((c : Thread nD τ).loc main_arg5) :=
  (Wend_of m ρ c main_arg5 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg5 (by decide)).trans <| (W1_of m ρ c main_arg5 (by decide)).trans rfl

/-! ## The lines after the region as one line -/

/-- The contents at the return are the twenty-two lines after the region, run as one line, from what the region
    leaves. -/
theorem Wend_eq_tail (c : Dev nD) : Wend m ρ c = StableHlo.after tailOps (W2 m ρ c) := by
  unfold tailOps
  simp only [StableHlo.after_append]

end Cert.Kernel.Hand

end
-- ==== Proof.KBFrameArgs.lean ====
/-
  The distance kernel program's frame, for any float instance: its six argument arrays end as launched.

  Every final state of @main's run holds each unscoped buffer at the last boundary's contents; no line of host
  operations writes an argument array and the region writes its output array only, so at an argument the fold of the
  boundaries walks back to the launch memory.
-/
import proofs.«136027_j7438883356888_1_alg».proof.Proof.KBFrame
import proofs.«136027_j7438883356888_1_alg».proof.Proof.KBValsFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: from any memory with zero counters, every weakly fair execution of @main on the TensorCores terminates,
    nothing faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run defs (onTc (τ := τ) (main (F := F))) ⟨m, fun _ => 0, ρ⟩) (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c)⟩) (run_main m ρ)

end Cert.Kernel.Hand

end
-- ==== Proof.KIDat.lean ====
/-
  The distance kernel's launch data at the ideal-program text, for any float instance.

  The pallas_call has five windows over a grid of eight points: window 0 the 128 query rows of the point, window 1 the
  whole 4096-row key matrix (the same array as window 0's), window 2 the 128 query squared norms as a column, window 3
  the 4096 key squared norms as a row, window 4 the 128×4096 block of distances the point writes.  The body loads the
  four input blocks whole and stores one value, a pure function of them, over the whole output block.  Here: each
  window's block at a point read off the array as the region finds it, what the body leaves in the output block, and
  the proof data of the pipeline (the input blocks stay, the output block is the stored value, the two windows on the
  shared array each hold half of it).
-/
import proofs.«136027_j7438883356888_1_alg».proof.Proof.Gen.KernelIdeal.Launch
import proofs.«136027_j7438883356888_1_alg».proof.Proof.Gen.KernelIdeal.Skeleton
import proofs.«136027_j7438883356888_1_alg».proof.Proof.Gen.KernelIdeal.Points
import Idealize.ShloMosaic.Lib.Pipeline.FrameBody
import Idealize.ShloMosaic.Lib.Pipeline.Regions
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's five accesses: each the whole of its staging buffer. -/
abbrev r0_0 : Rect S128x2048 := Rect.unit (s := S128x2048) ![0, 0] S128x2048.size inb_S128x2048_S128x2048_0_0
abbrev r0_1 : Rect S4096x2048 := Rect.unit (s := S4096x2048) ![0, 0] S4096x2048.size inb_S4096x2048_S4096x2048_0_0
abbrev r0_2 : Rect S128x1 := Rect.unit (s := S128x1) ![0, 0] S128x1.size inb_S128x1_S128x1_0_0
abbrev r0_3 : Rect S1x4096 := Rect.unit (s := S1x4096) ![0, 0] S1x4096.size inb_S1x4096_S1x4096_0_0
abbrev r0_4 : Rect S128x4096 := Rect.unit (s := S128x4096) ![0, 0] S128x4096.size inb_S128x4096_S128x4096_0_0

/-- The output block after the body, from the four input blocks: its one store, of the body's value. -/
def out0_4 (x0 : Vec F S128x2048 .bf16) (x1 : Vec F S4096x2048 .bf16) (x2 : Vec F S128x1 .f32) (x3 : Vec F S1x4096 .f32) :
    Vec F S128x4096 .f32 :=
  View.canon [⟨r0_4, k0_pay1 (View.ld x0 r0_0) (View.ld x1 r0_1) (View.ld x2 r0_2) (View.ld x3 r0_3)⟩]

/-- The one store covers the block. -/
theorem cover0_4 (p0 : Vec F S128x4096 .f32) (y : S128x4096.Idx) :
    ∃ pc ∈ ([⟨r0_4, p0⟩] : List (View.Piece (Elt F) S128x4096 .f32)), y ∈ pc.1.set :=
  View.cover_of_tiled [⟨r0_4, p0⟩] S128x4096.size (by rfl) y

/-- The pipeline's proof data on core `c`: the arrays as the region finds them; after the body at point `t` each
    input's buffer at its block and the output's at `out0_4` of the input blocks; the invariant the scoped rest and the
    generator register, untouched; nothing owed; the array behind windows 0 and 1 held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

end Cert.KernelIdeal.Hand

end
-- ==== Proof.KIBody.lean ====
/-
  The distance kernel's body at a point of the grid, for any float instance.

  The body is called with the five windows' current staging buffers.  Each input buffer holds its window's block of the
  array as the region found it, at every point: where the pipeline fetched the block this is what a fetch leaves, and
  where it did not the block index has not moved since the point before, so the buffer still holds the same block.  On
  such buffers the body loads the four inputs whole, loads the output buffer (the value is not used), and stores one
  value over the whole output buffer: the inputs stay as they were and the output buffer ends at `out0_4` of the input
  blocks.  This is the pipeline's body obligation for the proof data `dat0`.
-/
import proofs.«136027_j7438883356888_1_alg».proof.Proof.KIDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Each input's current staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's triple -/

set_option maxHeartbeats 1000000 in
/-- The body on whole staging memrefs, the inputs' at read contents `x0 … x3` and the output's at anything, runs to the
    continuation holding the inputs' as they were and the output's at `out0_4` of them. -/
theorem sound_kernel0 (c : Dev nD) (E : Set ℕ) (i : grid0.Coords)
    (arg1 : Memref sig .tc .vmem S128x2048 .bf16) (harg1 : arg1.IsWhole) (arg2 : Memref sig .tc .vmem S4096x2048 .bf16) (harg2 : arg2.IsWhole)
    (arg3 : Memref sig .tc .vmem S128x1 .f32) (harg3 : arg3.IsWhole) (arg4 : Memref sig .tc .vmem S1x4096 .f32) (harg4 : arg4.IsWhole)
    (arg5 : Memref sig .tc .vmem S128x4096 .f32) (harg5 : arg5.IsWhole)
    (x0 : Vec F S128x2048 .bf16) (x1 : Vec F S4096x2048 .bf16) (x2 : Vec F S128x1 .f32) (x3 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dist_kernel i arg1 harg1 arg2 harg2 arg3 harg3 arg4 harg4 arg5 harg5) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`: the invariant, the core owing nothing, each current staging buffer
    at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIShare.lean ====
/-
  The array two windows share, at the region's entry and exit, for any float instance.

  Windows 0 and 1 of the distance kernel both stage the array of bf16 rows; windows 2, 3, 4 have an array each.  A core
  enters the region holding every unscoped buffer whole.  Here the four distinct buffers behind the five windows' arrays
  are taken out of that holding and dealt to the windows as the proof data say: the shared array's full share is cut
  into its two halves, one per window, and each other array goes whole to its window.  At the exit the two halves, each
  still holding the array as entered (an input window's array is never written), are put back together, and with the
  output array at what the write-backs leave and the untouched rest they are again every unscoped buffer held whole.
-/
import proofs.«136027_j7438883356888_1_alg».proof.Proof.KIDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' arrays, one by one -/

/-- The distinct buffers behind the five windows' arrays. -/
theorem arr_image0 : (Finset.univ : Finset (Fin 5)).image (Pipeline.arrRef spec0) = {main_v0, main_v4, main_v5, main_v6} := by decide

/-- Those buffers held whole at the full share, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v0) ↦{fullShare} Vc main_v0) ∗ (((c : Thread nD τ).loc main_v4) ↦{fullShare} Vc main_v4)
          ∗ (((c : Thread nD τ).loc main_v5) ↦{fullShare} Vc main_v5) ∗ (((c : Thread nD τ).loc main_v6) ↦{fullShare} Vc main_v6)) := by
  unfold Pipeline.arrBufs
  rw [arr_image0, bigSep_insert (by decide), bigSep_insert (by decide), bigSep_insert (by decide), bigSep_singleton]
  rfl

/-- The pipeline's arrays at contents `G`, window by window: the shared array's two halves, then the three others. -/
theorem arrays0_eq (c : Dev nD) (G : (w : Fin cfg0.W) → Buf (Elt F) ((cfg0.win w).arr.view.loc (c : Thread nD τ))) :
    (dat0 V c).arrays G = iprop(
        (((c : Thread nD τ).loc main_v0) ↦{fullShare.left} G 0) ∗ (((c : Thread nD τ).loc main_v0) ↦{fullShare.right} G 1)
        ∗ (((c : Thread nD τ).loc main_v4) ↦{fullShare} G 2) ∗ (((c : Thread nD τ).loc main_v5) ↦{fullShare} G 3)
        ∗ (((c : Thread nD τ).loc main_v6) ↦{fullShare} G 4)) := by
  unfold Dat.arrays
  rw [bigSep_W0]
  have e0 : ((cfg0.win 0).arr.view.loc (c : Thread nD τ) ↦[(cfg0.win 0).arr.view.set]{(dat0 V c).share 0} G 0 : sProp 𝕄)
      = (((c : Thread nD τ).loc main_v0) ↦{fullShare.left} G 0) := by
    rw [show (cfg0.win 0).arr.view.set = Finset.univ from (arr_whole0 0).set_eq_univ, show (dat0 V c).share 0 = fullShare.left from rfl]
  have e1 : ((cfg0.win 1).arr.view.loc (c : Thread nD τ) ↦[(cfg0.win 1).arr.view.set]{(dat0 V c).share 1} G 1 : sProp 𝕄)
      = (((c : Thread nD τ).loc main_v0) ↦{fullShare.right} G 1) := by
    rw [show (cfg0.win 1).arr.view.set = Finset.univ from (arr_whole0 1).set_eq_univ, show (dat0 V c).share 1 = fullShare.right from rfl]
  have e2 : ((cfg0.win 2).arr.view.loc (c : Thread nD τ) ↦[(cfg0.win 2).arr.view.set]{(dat0 V c).share 2} G 2 : sProp 𝕄)
      = (((c : Thread nD τ).loc main_v4) ↦{fullShare} G 2) := by
    rw [show (cfg0.win 2).arr.view.set = Finset.univ from (arr_whole0 2).set_eq_univ, show (dat0 V c).share 2 = fullShare from rfl]
  have e3 : ((cfg0.win 3).arr.view.loc (c : Thread nD τ) ↦[(cfg0.win 3).arr.view.set]{(dat0 V c).share 3} G 3 : sProp 𝕄)
      = (((c : Thread nD τ).loc main_v5) ↦{fullShare} G 3) := by
    rw [show (cfg0.win 3).arr.view.set = Finset.univ from (arr_whole0 3).set_eq_univ, show (dat0 V c).share 3 = fullShare from rfl]
  have e4 : ((cfg0.win 4).arr.view.loc (c : Thread nD τ) ↦[(cfg0.win 4).arr.view.set]{(dat0 V c).share 4} G 4 : sProp 𝕄)
      = (((c : Thread nD τ).loc main_v6) ↦{fullShare} G 4) := by
    rw [show (cfg0.win 4).arr.view.set = Finset.univ from (arr_whole0 4).set_eq_univ, show (dat0 V c).share 4 = fullShare from rfl]
  rw [e0, e1, e2, e3, e4]

/-- The core's unscoped buffers are the buffers behind the windows' arrays and the rest. -/
theorem unscopedBufs_split0 (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec0 c Vc ∗ Pipeline.unscopedRest spec0 c Vc) :=
  Pipeline.unscopedBufs_split₀ cfgs 0 winFacts₀0.arr_unscoped c Vc

/-- What the input windows' arrays hold after every write-back: what they held at entry. -/
theorem arrAt0_0 (c : Dev nD) (n : Nat) : (dat0 V c).arrAt 0 n = V c main_v0 := ((dat0 V c).arrAt_in 0 rfl n).trans (A_eq0 V c 0)
theorem arrAt0_1 (c : Dev nD) (n : Nat) : (dat0 V c).arrAt 1 n = V c main_v0 := ((dat0 V c).arrAt_in 1 rfl n).trans (A_eq0 V c 1)
theorem arrAt0_2 (c : Dev nD) (n : Nat) : (dat0 V c).arrAt 2 n = V c main_v4 := ((dat0 V c).arrAt_in 2 rfl n).trans (A_eq0 V c 2)
theorem arrAt0_3 (c : Dev nD) (n : Nat) : (dat0 V c).arrAt 3 n = V c main_v5 := ((dat0 V c).arrAt_in 3 rfl n).trans (A_eq0 V c 3)

/-- ENTRY: a core's unscoped buffers at contents `V c` are the pipeline's arrays at the proof data's entry contents
    (the shared array's full share cut into the two windows' halves) and the unscoped rest. -/
theorem arrays_of_unscopedBufs0 (c : Dev nD) :
    (unscopedBufs (Ix := Unit) (Name := ℕ) (U := UR sig nD τ) (Lvl := ℕ) c (V c) : sProp 𝕄)
      ⊢ iprop((dat0 V c).arrays (fun w => (dat0 V c).arrAt w 0) ∗ Pipeline.unscopedRest spec0 c (V c)) := by
  rw [unscopedBufs_split0, arrBufs0_eq, arrays0_eq]
  iintro ⟨⟨H0, H4, H5, H6⟩, Hrest⟩
  isplitr [Hrest]
  swap; · iexact Hrest
  ihave H0' := (pointsTo_share (PosShare.mem_left_op_right fullShare)).1 $$ H0
  icases H0' with ⟨Hl, Hr⟩
  isplitl [Hl]; · iexact Hl
  isplitl [Hr]; · iexact Hr
  isplitl [H4]; · iexact H4
  isplitl [H5]; · iexact H5
  iexact H6

/-- EXIT: the pipeline's arrays at their final contents (the two halves of the shared array, each still at the entry
    contents, rejoined; the output array at what the write-backs leave) and the unscoped rest are the core's unscoped
    buffers at any contents `V'` that agree with these. -/
theorem unscopedBufs_of_arrays0 (c : Dev nD) (V' : (b : Ref sig .tc) → Buf (Elt F) ((c : Thread nD τ).loc b))
    (h6 : V' main_v6 = (dat0 V c).arrAt 4 cfg0.N) (hrest : ∀ b, b ≠ main_v6 → V' b = V c b) :
    iprop((dat0 V c).arrays (fun w => (dat0 V c).arrAt w cfg0.N) ∗ Pipeline.unscopedRest spec0 c (V c))
      ⊢ (unscopedBufs (Ix := Unit) (Name := ℕ) (U := UR sig nD τ) (Lvl := ℕ) c V' : sProp 𝕄) := by
  have hR : (Pipeline.unscopedRest (Ix := Unit) (Name := ℕ) (U := UR sig nD τ) (Lvl := ℕ) spec0 c (V c) : sProp 𝕄)
      = Pipeline.unscopedRest spec0 c V' := by
    unfold Pipeline.unscopedRest
    refine bigSep_congr fun b hb => ?_
    rw [hrest b fun e => (Finset.mem_sdiff.mp hb).2 (e ▸ (by decide : main_v6 ∈ (Finset.univ : Finset (Fin 5)).image (Pipeline.arrRef spec0)))]
  rw [unscopedBufs_split0, arrBufs0_eq, arrays0_eq, hR, h6, hrest main_v0 (by decide), hrest main_v4 (by decide), hrest main_v5 (by decide)]
  beta_reduce
  rw [arrAt0_0, arrAt0_1, arrAt0_2, arrAt0_3]
  iintro ⟨⟨Hl, Hr, H4, H5, H6⟩, Hrest⟩
  isplitr [Hrest]
  swap; · iexact Hrest
  isplitl [Hl Hr]
  · iapply (pointsTo_share (PosShare.mem_left_op_right fullShare)).2
    isplitl [Hl]; · iexact Hl
    iexact Hr
  isplitl [H4]; · iexact H4
  isplitl [H5]; · iexact H5
  iexact H6

end Cert.KernelIdeal.Hand

end
-- ==== Proof.KIVals.lean ====
/-
  The contents of a core's buffers at every boundary of @main's run, for any float instance.

  @main is a first line of host operations, the distance kernel's region, and twenty-two further lines of host
  operations.  A line of host operations takes a valuation of the buffers to the valuation after it; the region changes
  one buffer only, the output array, which it leaves at what the pipeline's write-backs fold into it from the arrays the
  region found.  Folding these from the launch memory gives the contents at each boundary, the last being what @main
  returns with.
-/
import proofs.«136027_j7438883356888_1_alg».proof.Proof.KIDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first line of host operations: the contents the region is entered with. -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v6) ((dat0 (V1 m ρ) c).arrAt 4 cfg0.N)
theorem W2_main_v6 (c : Dev nD) : W2 m ρ c (Proc.devRef .tc main_v6) = (dat0 (V1 m ρ) c).arrAt 4 cfg0.N := by
  unfold W2; exact Function.update_self ..
theorem W2_of_ne (c : Dev nD) (b : Ref sig .tc) (hb : b ≠ main_v6) :
    W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b
/-- After the line `hostOps1`. -/
abbrev W3 : Dev nD → Valuation τ sig (Elt F) := fun c => StableHlo.after hostOps1 (W2 m ρ c)
/-- After the line `hostOps1_1`. -/
abbrev W4 : Dev nD → Valuation τ sig (Elt F) := fun c => StableHlo.after hostOps1_1 (W3 m ρ c)
/-- After the line `hostOps1_2`. -/
abbrev W5 : Dev nD → Valuation τ sig (Elt F) := fun c => StableHlo.after hostOps1_2 (W4 m ρ c)
/-- After the line `hostOps1_3`. -/
abbrev W6 : Dev nD → Valuation τ sig (Elt F) := fun c => StableHlo.after hostOps1_3 (W5 m ρ c)
/-- After the line `hostOps1_4`. -/
abbrev W7 : Dev nD → Valuation τ sig (Elt F) := fun c => StableHlo.after hostOps1_4 (W6 m ρ c)
/-- After the line `hostOps1_5`. -/
abbrev W8 : Dev nD → Valuation τ sig (Elt F) := fun c => StableHlo.after hostOps1_5 (W7 m ρ c)
/-- After the line `hostOps1_6`. -/
abbrev W9 : Dev nD → Valuation τ sig (Elt F) := fun c => StableHlo.after hostOps1_6 (W8 m ρ c)
/-- After the line `hostOps1_7`. -/
abbrev W10 : Dev nD → Valuation τ sig (Elt F) := fun c => StableHlo.after hostOps1_7 (W9 m ρ c)
/-- After the line `hostOps1_8`. -/
abbrev W11 : Dev nD → Valuation τ sig (Elt F) := fun c => StableHlo.after hostOps1_8 (W10 m ρ c)
/-- After the line `hostOps1_9`. -/
abbrev W12 : Dev nD → Valuation τ sig (Elt F) := fun c => StableHlo.after hostOps1_9 (W11 m ρ c)
/-- After the line `hostOps1_10`. -/
abbrev W13 : Dev nD → Valuation τ sig (Elt F) := fun c => StableHlo.after hostOps1_10 (W12 m ρ c)
/-- After the line `hostOps1_11`. -/
abbrev W14 : Dev nD → Valuation τ sig (Elt F) := fun c => StableHlo.after hostOps1_11 (W13 m ρ c)
/-- After the line `hostOps1_12`. -/
abbrev W15 : Dev nD → Valuation τ sig (Elt F) := fun c => StableHlo.after hostOps1_12 (W14 m ρ c)
/-- After the line `hostOps1_13`. -/
abbrev W16 : Dev nD → Valuation τ sig (Elt F) := fun c => StableHlo.after hostOps1_13 (W15 m ρ c)
/-- After the line `hostOps1_14`. -/
abbrev W17 : Dev nD → Valuation τ sig (Elt F) := fun c => StableHlo.after hostOps1_14 (W16 m ρ c)
/-- After the line `hostOps1_15`. -/
abbrev W18 : Dev nD → Valuation τ sig (Elt F) := fun c => StableHlo.after hostOps1_15 (W17 m ρ c)
/-- After the line `hostOps1_16`. -/
abbrev W19 : Dev nD → Valuation τ sig (Elt F) := fun c => StableHlo.after hostOps1_16 (W18 m ρ c)
/-- After the line `hostOps1_17`. -/
abbrev W20 : Dev nD → Valuation τ sig (Elt F) := fun c => StableHlo.after hostOps1_17 (W19 m ρ c)
/-- After the line `hostOps1_18`. -/
abbrev W21 : Dev nD → Valuation τ sig (Elt F) := fun c => StableHlo.after hostOps1_18 (W20 m ρ c)
/-- After the line `hostOps1_19`. -/
abbrev W22 : Dev nD → Valuation τ sig (Elt F) := fun c => StableHlo.after hostOps1_19 (W21 m ρ c)
/-- After the line `hostOps1_20`. -/
abbrev W23 : Dev nD → Valuation τ sig (Elt F) := fun c => StableHlo.after hostOps1_20 (W22 m ρ c)
/-- After the line `hostOps1_21`. -/
abbrev W24 : Dev nD → Valuation τ sig (Elt F) := fun c => StableHlo.after hostOps1_21 (W23 m ρ c)
/-- What @main returns with. -/
abbrev Wend : Dev nD → Valuation τ sig (Elt F) := W24 m ρ

end Cert.KernelIdeal.Hand

end
-- ==== Proof.KIRegion.lean ====
/-
  The distance kernel's region as a segment of @main's run, for any float instance.

  Between two segments of the run a core holds every unscoped buffer whole at the boundary's contents, its generator
  register at some state, and owes nothing.  The region is entered from that state at the contents the first line of
  host operations leaves, and left in it with the output array at what the pipeline's write-backs leave: its arrays are
  taken out of the unscoped buffers on entry and put back on exit (the shared array cut into its halves and rejoined),
  the generator register rides through the pipeline's invariant, and the kernel has no semaphore of its own.
-/
import proofs.«136027_j7438883356888_1_alg».proof.Proof.KIBody
import proofs.«136027_j7438883356888_1_alg».proof.Proof.KIShare
import proofs.«136027_j7438883356888_1_alg».proof.Proof.KIVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The region as a segment -/

set_option backward.isDefEq.respectTransparency.types false in
/-- The region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) :=
      arrays_of_unscopedBufs0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) :=
      unscopedBufs_of_arrays0 (V1 m ρ) c (V2 m ρ c) (W2_main_v6 m ρ c) (fun b hb => W2_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIHostFresh.lean ====
/-
  The host stretches of the program allocate nothing: every host operation between the launch and the return
  writes a buffer the program's signature already names, so a stretch's set of fresh buffers is empty, operation
  by operation.
-/
import proofs.«136027_j7438883356888_1_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps1_3` allocates a buffer. -/
theorem hostOps1_3_fresh : (hostOps1_3 : List (HloOp τ sig (Elt F))).Forall fun op => op.fresh = ∅ := by
  simp only [List.Forall]; repeat' constructor
/-- No operation of `hostOps1_4` allocates a buffer. -/
theorem hostOps1_4_fresh : (hostOps1_4 : List (HloOp τ sig (Elt F))).Forall fun op => op.fresh = ∅ := by
  simp only [List.Forall]; repeat' constructor
/-- No operation of `hostOps1_5` allocates a buffer. -/
theorem hostOps1_5_fresh : (hostOps1_5 : List (HloOp τ sig (Elt F))).Forall fun op => op.fresh = ∅ := by
  simp only [List.Forall]; repeat' constructor
/-- No operation of `hostOps1_6` allocates a buffer. -/
theorem hostOps1_6_fresh : (hostOps1_6 : List (HloOp τ sig (Elt F))).Forall fun op => op.fresh = ∅ := by
  simp only [List.Forall]; repeat' constructor
/-- No operation of `hostOps1_7` allocates a buffer. -/
theorem hostOps1_7_fresh : (hostOps1_7 : List (HloOp τ sig (Elt F))).Forall fun op => op.fresh = ∅ := by
  simp only [List.Forall]; repeat' constructor
/-- No operation of `hostOps1_8` allocates a buffer. -/
theorem hostOps1_8_fresh : (hostOps1_8 : List (HloOp τ sig (Elt F))).Forall fun op => op.fresh = ∅ := by
  simp only [List.Forall]; repeat' constructor
/-- No operation of `hostOps1_9` allocates a buffer. -/
theorem hostOps1_9_fresh : (hostOps1_9 : List (HloOp τ sig (Elt F))).Forall fun op => op.fresh = ∅ := by
  simp only [List.Forall]; repeat' constructor
/-- No operation of `hostOps1_10` allocates a buffer. -/
theorem hostOps1_10_fresh : (hostOps1_10 : List (HloOp τ sig (Elt F))).Forall fun op => op.fresh = ∅ := by
  simp only [List.Forall]; repeat' constructor
/-- No operation of `hostOps1_11` allocates a buffer. -/
theorem hostOps1_11_fresh : (hostOps1_11 : List (HloOp τ sig (Elt F))).Forall fun op => op.fresh = ∅ := by
  simp only [List.Forall]; repeat' constructor
/-- No operation of `hostOps1_12` allocates a buffer. -/
theorem hostOps1_12_fresh : (hostOps1_12 : List (HloOp τ sig (Elt F))).Forall fun op => op.fresh = ∅ := by
  simp only [List.Forall]; repeat' constructor
/-- No operation of `hostOps1_13` allocates a buffer. -/
theorem hostOps1_13_fresh : (hostOps1_13 : List (HloOp τ sig (Elt F))).Forall fun op => op.fresh = ∅ := by
  simp only [List.Forall]; repeat' constructor
/-- No operation of `hostOps1_14` allocates a buffer. -/
theorem hostOps1_14_fresh : (hostOps1_14 : List (HloOp τ sig (Elt F))).Forall fun op => op.fresh = ∅ := by
  simp only [List.Forall]; repeat' constructor
/-- No operation of `hostOps1_15` allocates a buffer. -/
theorem hostOps1_15_fresh : (hostOps1_15 : List (HloOp τ sig (Elt F))).Forall fun op => op.fresh = ∅ := by
  simp only [List.Forall]; repeat' constructor
/-- No operation of `hostOps1_16` allocates a buffer. -/
theorem hostOps1_16_fresh : (hostOps1_16 : List (HloOp τ sig (Elt F))).Forall fun op => op.fresh = ∅ := by
  simp only [List.Forall]; repeat' constructor
/-- No operation of `hostOps1_17` allocates a buffer. -/
theorem hostOps1_17_fresh : (hostOps1_17 : List (HloOp τ sig (Elt F))).Forall fun op => op.fresh = ∅ := by
  simp only [List.Forall]; repeat' constructor
/-- No operation of `hostOps1_18` allocates a buffer. -/
theorem hostOps1_18_fresh : (hostOps1_18 : List (HloOp τ sig (Elt F))).Forall fun op => op.fresh = ∅ := by
  simp only [List.Forall]; repeat' constructor
/-- No operation of `hostOps1_19` allocates a buffer. -/
theorem hostOps1_19_fresh : (hostOps1_19 : List (HloOp τ sig (Elt F))).Forall fun op => op.fresh = ∅ := by
  simp only [List.Forall]; repeat' constructor
/-- No operation of `hostOps1_20` allocates a buffer. -/
theorem hostOps1_20_fresh : (hostOps1_20 : List (HloOp τ sig (Elt F))).Forall fun op => op.fresh = ∅ := by
  simp only [List.Forall]; repeat' constructor
/-- No operation of `hostOps1_21` allocates a buffer. -/
theorem hostOps1_21_fresh : (hostOps1_21 : List (HloOp τ sig (Elt F))).Forall fun op => op.fresh = ∅ := by
  simp only [List.Forall]; repeat' constructor

end Cert.KernelIdeal.Hand

end
-- ==== Proof.KIFrame.lean ====
/-
  The distance kernel program's run from launch to return, and its frame, for any float instance.

  @main is twenty-four segments: a line of host operations, the kernel's region, and twenty-two more lines.  Each line
  runs over the core's unscoped buffers from the contents at its boundary and leaves them at the contents at the next;
  the region is the segment of the module before this one.  Chained, they take the launch memory to the last boundary's
  contents: every weakly fair execution of @main terminates, and in every final state each unscoped buffer of each core
  holds what the fold of the boundaries says.  No line writes an argument array and the region writes only its output
  array, so the six arguments end as launched.
-/
import proofs.«136027_j7438883356888_1_alg».proof.Proof.KIRegion
import proofs.«136027_j7438883356888_1_alg».proof.Proof.KIHostFresh
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines of host operations as segments -/

/-- A line of host operations as a segment: it runs over the unscoped references from the contents `W`, the generator
    register and the core's dues riding along, and leaves the references at the contents after the line. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator
    register at some state. -/
abbrev Tₙ (c : Dev nD) : sProp 𝕄 := iprop(StableHlo.held (c : Thread nD τ) (Pipeline.ucRefs τ sig) (Wend m ρ c) ∗ ∃ r, prngReg c r)

/-! ## @main as segments, and the launch -/

/-- @main's twenty-four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .host (hseg hostOps1_13 hostOps1_13_sub hostOps1_13_fresh (W15 m ρ)),
    .host (hseg hostOps1_14 hostOps1_14_sub hostOps1_14_fresh (W16 m ρ)),
    .host (hseg hostOps1_15 hostOps1_15_sub hostOps1_15_fresh (W17 m ρ)),
    .host (hseg hostOps1_16 hostOps1_16_sub hostOps1_16_fresh (W18 m ρ)),
    .host (hseg hostOps1_17 hostOps1_17_sub hostOps1_17_fresh (W19 m ρ)),
    .host (hseg hostOps1_18 hostOps1_18_sub hostOps1_18_fresh (W20 m ρ)),
    .host (hseg hostOps1_19 hostOps1_19_sub hostOps1_19_fresh (W21 m ρ)),
    .host (hseg hostOps1_20 hostOps1_20_sub hostOps1_20_fresh (W22 m ρ)),
    .host (hseg hostOps1_21 hostOps1_21_sub hostOps1_21_fresh (W23 m ρ)) ]

/-- @main is the run of the segments: @main is the chain of its items, and the segments' run is the chain of theirs. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      StableHlo.seq hostOps1_3,
      StableHlo.seq hostOps1_4,
      StableHlo.seq hostOps1_5,
      StableHlo.seq hostOps1_6,
      StableHlo.seq hostOps1_7,
      StableHlo.seq hostOps1_8,
      StableHlo.seq hostOps1_9,
      StableHlo.seq hostOps1_10,
      StableHlo.seq hostOps1_11,
      StableHlo.seq hostOps1_12,
      StableHlo.seq hostOps1_13,
      StableHlo.seq hostOps1_14,
      StableHlo.seq hostOps1_15,
      StableHlo.seq hostOps1_16,
      StableHlo.seq hostOps1_17,
      StableHlo.seq hostOps1_18,
      StableHlo.seq hostOps1_19,
      StableHlo.seq hostOps1_20,
      StableHlo.seq hostOps1_21 ] from rfl]
  rfl

set_option backward.isDefEq.respectTransparency.types false in
/-- THE RUN: from any memory with zero counters, every weakly fair execution of @main on the TensorCores terminates,
    nothing faulting, and in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (Wend m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

end Cert.KernelIdeal.Hand

end
-- ==== Proof.KIHostWrites.lean ====
/-
  What each host stretch of the program writes: per stretch the list of the buffers its operations write, one per
  operation, and that every operation's written set lies in that list.  A buffer outside a stretch's list therefore
  holds after the stretch what it held before.
-/
import proofs.«136027_j7438883356888_1_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The references `hostOps0`'s operations write, in order. -/
abbrev hostOps0_W : List (Ref sig .tc) := [main_v0, main_v1, main_cst, main_v2, main_v3, main_v4, main_v5]
/-- Each operation of `hostOps0` writes one of them. -/
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1`'s operations write, in order. -/
abbrev hostOps1_W : List (Ref sig .tc) := [main_v7, main_v8, main_v9, main_v10, main_v11, main_v12, main_v13, main_c, main_v14, main_v15, main_v16, main_v17, main_v18, main_v19, main_v20]
/-- Each operation of `hostOps1` writes one of them. -/
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_1`'s operations write, in order. -/
abbrev hostOps1_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v21]
/-- Each operation of `hostOps1_1` writes one of them. -/
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_2`'s operations write, in order. -/
abbrev hostOps1_2_W : List (Ref sig .tc) := [main_v22, main_c_0]
/-- Each operation of `hostOps1_2` writes one of them. -/
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_3`'s operations write, in order. -/
abbrev hostOps1_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v23]
/-- Each operation of `hostOps1_3` writes one of them. -/
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_4`'s operations write, in order. -/
abbrev hostOps1_4_W : List (Ref sig .tc) := [main_v24, main_v25, main_v26, main_v27, main_v28, main_v29, main_c_1, main_c_2]
/-- Each operation of `hostOps1_4` writes one of them. -/
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_5`'s operations write, in order. -/
abbrev hostOps1_5_W : List (Ref sig .tc) := [main_call2_v0, main_call2_v1, main_v30]
/-- Each operation of `hostOps1_5` writes one of them. -/
theorem hostOps1_5_writes : (hostOps1_5 : List (HloOp τ sig (Elt F))).Forall fun op => op.writes ⊆ (hostOps1_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_6`'s operations write, in order. -/
abbrev hostOps1_6_W : List (Ref sig .tc) := [main_call3_v0, main_call3_v1_0, main_v31]
/-- Each operation of `hostOps1_6` writes one of them. -/
theorem hostOps1_6_writes : (hostOps1_6 : List (HloOp τ sig (Elt F))).Forall fun op => op.writes ⊆ (hostOps1_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_7`'s operations write, in order. -/
abbrev hostOps1_7_W : List (Ref sig .tc) := [main_v32]
/-- Each operation of `hostOps1_7` writes one of them. -/
theorem hostOps1_7_writes : (hostOps1_7 : List (HloOp τ sig (Elt F))).Forall fun op => op.writes ⊆ (hostOps1_7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_8`'s operations write, in order. -/
abbrev hostOps1_8_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v33]
/-- Each operation of `hostOps1_8` writes one of them. -/
theorem hostOps1_8_writes : (hostOps1_8 : List (HloOp τ sig (Elt F))).Forall fun op => op.writes ⊆ (hostOps1_8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_9`'s operations write, in order. -/
abbrev hostOps1_9_W : List (Ref sig .tc) := [main_cst_3, main_v34, main_cst_4, main_v35, main_v36, main_v37, main_v38, main_v39, main_v40, main_cst_5, main_v41, main_v42, main_v43, main_v44, main_v45, main_cst_6, main_v46, main_v47, main_cst_7]
/-- Each operation of `hostOps1_9` writes one of them. -/
theorem hostOps1_9_writes : (hostOps1_9 : List (HloOp τ sig (Elt F))).Forall fun op => op.writes ⊆ (hostOps1_9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_10`'s operations write, in order. -/
abbrev hostOps1_10_W : List (Ref sig .tc) := [main_call5_v0, main_call5_v1, main_v48]
/-- Each operation of `hostOps1_10` writes one of them. -/
theorem hostOps1_10_writes : (hostOps1_10 : List (HloOp τ sig (Elt F))).Forall fun op => op.writes ⊆ (hostOps1_10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_11`'s operations write, in order. -/
abbrev hostOps1_11_W : List (Ref sig .tc) := [main_cst_8, main_v49, main_cst_9, main_v50, main_v51, main_v52, main_v53, main_v54, main_v55, main_v56, main_cst_10]
/-- Each operation of `hostOps1_11` writes one of them. -/
theorem hostOps1_11_writes : (hostOps1_11 : List (HloOp τ sig (Elt F))).Forall fun op => op.writes ⊆ (hostOps1_11_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_12`'s operations write, in order. -/
abbrev hostOps1_12_W : List (Ref sig .tc) := [main_call6_v0, main_call6_v1, main_v57]
/-- Each operation of `hostOps1_12` writes one of them. -/
theorem hostOps1_12_writes : (hostOps1_12 : List (HloOp τ sig (Elt F))).Forall fun op => op.writes ⊆ (hostOps1_12_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_13`'s operations write, in order. -/
abbrev hostOps1_13_W : List (Ref sig .tc) := [main_cst_11, main_v58, main_cst_12, main_v59, main_v60, main_v61, main_v62, main_v63, main_v64, main_cst_13, main_v65, main_v66, main_v67, main_v68, main_cst_14]
/-- Each operation of `hostOps1_13` writes one of them. -/
theorem hostOps1_13_writes : (hostOps1_13 : List (HloOp τ sig (Elt F))).Forall fun op => op.writes ⊆ (hostOps1_13_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_14`'s operations write, in order. -/
abbrev hostOps1_14_W : List (Ref sig .tc) := [main_call7_v0, main_call7_v1, main_v69]
/-- Each operation of `hostOps1_14` writes one of them. -/
theorem hostOps1_14_writes : (hostOps1_14 : List (HloOp τ sig (Elt F))).Forall fun op => op.writes ⊆ (hostOps1_14_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_15`'s operations write, in order. -/
abbrev hostOps1_15_W : List (Ref sig .tc) := [main_v70, main_cst_15, main_v71, main_v72, main_cst_16, main_v73, main_v74]
/-- Each operation of `hostOps1_15` writes one of them. -/
theorem hostOps1_15_writes : (hostOps1_15 : List (HloOp τ sig (Elt F))).Forall fun op => op.writes ⊆ (hostOps1_15_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_16`'s operations write, in order. -/
abbrev hostOps1_16_W : List (Ref sig .tc) := [main_call8_cst, main_call8_v0, main_v75]
/-- Each operation of `hostOps1_16` writes one of them. -/
theorem hostOps1_16_writes : (hostOps1_16 : List (HloOp τ sig (Elt F))).Forall fun op => op.writes ⊆ (hostOps1_16_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_17`'s operations write, in order. -/
abbrev hostOps1_17_W : List (Ref sig .tc) := [main_cst_17, main_v76, main_cst_18, main_v77]
/-- Each operation of `hostOps1_17` writes one of them. -/
theorem hostOps1_17_writes : (hostOps1_17 : List (HloOp τ sig (Elt F))).Forall fun op => op.writes ⊆ (hostOps1_17_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_18`'s operations write, in order. -/
abbrev hostOps1_18_W : List (Ref sig .tc) := [main_call9_cst, main_call9_v0, main_call9_cst_0, main_call9_v1, main_call9_v2, main_call9_v3, main_call9_v4, main_call9_v5, main_call9_v6, main_call9_cst_1, main_call9_v7, main_call9_v8, main_call9_v9, main_call9_v10, main_v78]
/-- Each operation of `hostOps1_18` writes one of them. -/
theorem hostOps1_18_writes : (hostOps1_18 : List (HloOp τ sig (Elt F))).Forall fun op => op.writes ⊆ (hostOps1_18_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_19`'s operations write, in order. -/
abbrev hostOps1_19_W : List (Ref sig .tc) := [main_v79]
/-- Each operation of `hostOps1_19` writes one of them. -/
theorem hostOps1_19_writes : (hostOps1_19 : List (HloOp τ sig (Elt F))).Forall fun op => op.writes ⊆ (hostOps1_19_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_20`'s operations write, in order. -/
abbrev hostOps1_20_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v80]
/-- Each operation of `hostOps1_20` writes one of them. -/
theorem hostOps1_20_writes : (hostOps1_20 : List (HloOp τ sig (Elt F))).Forall fun op => op.writes ⊆ (hostOps1_20_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1_21`'s operations write, in order. -/
abbrev hostOps1_21_W : List (Ref sig .tc) := [main_cst_19, main_v81, main_cst_20, main_v82, main_v83, main_v84, main_v85, main_cst_21, main_v86, main_v87, main_v88, main_v89, main_cst_22, main_v90, main_v91, main_cst_23, main_v92, main_cst_24, main_v93, main_v94, main_v95, main_cst_25, main_v96, main_v97]
/-- Each operation of `hostOps1_21` writes one of them. -/
theorem hostOps1_21_writes : (hostOps1_21 : List (HloOp τ sig (Elt F))).Forall fun op => op.writes ⊆ (hostOps1_21_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.KernelIdeal.Hand

end
-- ==== Proof.KITail.lean ====
/-
  The kernel program's host operations after the region, as one line: the twenty-two stretches in program order.
-/
import proofs.«136027_j7438883356888_1_alg».proof.Proof.Gen.KernelIdeal.Launch

noncomputable section

namespace Cert.KernelIdeal.Hand

open Cert.KernelIdeal Cert.KernelIdeal.Gen Idealize.ShloMosaic

variable {F : FTy → Type} [FloatOps F]

/-- Everything @main does after the region: the mining of hard positives and negatives over the distance rows, the
    cross entropy, the two norms and the weighted sum. -/
abbrev tailOps : List (HloOp τ sig (Elt F)) :=
  hostOps1 ++ (hostOps1_1 ++ (hostOps1_2 ++ (hostOps1_3 ++ (hostOps1_4 ++ (hostOps1_5 ++ (hostOps1_6 ++ (hostOps1_7 ++
  (hostOps1_8 ++ (hostOps1_9 ++ (hostOps1_10 ++ (hostOps1_11 ++ (hostOps1_12 ++ (hostOps1_13 ++ (hostOps1_14 ++
  (hostOps1_15 ++ (hostOps1_16 ++ (hostOps1_17 ++ (hostOps1_18 ++ (hostOps1_19 ++ (hostOps1_20 ++ hostOps1_21))))))))))))))))))))

end Cert.KernelIdeal.Hand

end
-- ==== Proof.KIValsFacts.lean ====
/-
  How the buffers' contents move from one boundary of @main's run to the next.

  A line of host operations changes only the buffers its operations write, so a buffer outside a line's write list
  holds after the line what it held before; the region changes the output array only.  Chaining these from the
  return back to the launch: each argument of @main reaches the return holding its launch contents, and the contents
  at the return are the lines after the region, run as one line, from what the region leaves.
-/
import proofs.«136027_j7438883356888_1_alg».proof.Proof.KIVals
import proofs.«136027_j7438883356888_1_alg».proof.Proof.KIHostWrites
import proofs.«136027_j7438883356888_1_alg».proof.Proof.KITail

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## One boundary to the next -/

/-- A buffer the first line does not write holds at the region's entry what it held at launch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A buffer the line `hostOps1` does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- A buffer the line `hostOps1_1` does not write holds after it what it held before. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
/-- A buffer the line `hostOps1_2` does not write holds after it what it held before. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
/-- A buffer the line `hostOps1_3` does not write holds after it what it held before. -/
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h
/-- A buffer the line `hostOps1_4` does not write holds after it what it held before. -/
theorem W7_of (c : Dev nD) (r : Ref sig .tc) (h : r ∉ hostOps1_4_W) :
    W7 m ρ c (Proc.devRef .tc r) = W6 m ρ c (Proc.devRef .tc r) :=
  StableHlo.after_of_writes_sub hostOps1_4 _ hostOps1_4_writes h
/-- A buffer the line `hostOps1_5` does not write holds after it what it held before. -/
theorem W8_of (c : Dev nD) (r : Ref sig .tc) (h : r ∉ hostOps1_5_W) :
    W8 m ρ c (Proc.devRef .tc r) = W7 m ρ c (Proc.devRef .tc r) :=
  StableHlo.after_of_writes_sub hostOps1_5 _ hostOps1_5_writes h
/-- A buffer the line `hostOps1_6` does not write holds after it what it held before. -/
theorem W9_of (c : Dev nD) (r : Ref sig .tc) (h : r ∉ hostOps1_6_W) :
    W9 m ρ c (Proc.devRef .tc r) = W8 m ρ c (Proc.devRef .tc r) :=
  StableHlo.after_of_writes_sub hostOps1_6 _ hostOps1_6_writes h
/-- A buffer the line `hostOps1_7` does not write holds after it what it held before. -/
theorem W10_of (c : Dev nD) (r : Ref sig .tc) (h : r ∉ hostOps1_7_W) :
    W10 m ρ c (Proc.devRef .tc r) = W9 m ρ c (Proc.devRef .tc r) :=
  StableHlo.after_of_writes_sub hostOps1_7 _ hostOps1_7_writes h
/-- A buffer the line `hostOps1_8` does not write holds after it what it held before. -/
theorem W11_of (c : Dev nD) (r : Ref sig .tc) (h : r ∉ hostOps1_8_W) :
    W11 m ρ c (Proc.devRef .tc r) = W10 m ρ c (Proc.devRef .tc r) :=
  StableHlo.after_of_writes_sub hostOps1_8 _ hostOps1_8_writes h
/-- A buffer the line `hostOps1_9` does not write holds after it what it held before. -/
theorem W12_of (c : Dev nD) (r : Ref sig .tc) (h : r ∉ hostOps1_9_W) :
    W12 m ρ c (Proc.devRef .tc r) = W11 m ρ c (Proc.devRef .tc r) :=
  StableHlo.after_of_writes_sub hostOps1_9 _ hostOps1_9_writes h
/-- A buffer the line `hostOps1_10` does not write holds after it what it held before. -/
theorem W13_of (c : Dev nD) (r : Ref sig .tc) (h : r ∉ hostOps1_10_W) :
    W13 m ρ c (Proc.devRef .tc r) = W12 m ρ c (Proc.devRef .tc r) :=
  StableHlo.after_of_writes_sub hostOps1_10 _ hostOps1_10_writes h
/-- A buffer the line `hostOps1_11` does not write holds after it what it held before. -/
theorem W14_of (c : Dev nD) (r : Ref sig .tc) (h : r ∉ hostOps1_11_W) :
    W14 m ρ c (Proc.devRef .tc r) = W13 m ρ c (Proc.devRef .tc r) :=
  StableHlo.after_of_writes_sub hostOps1_11 _ hostOps1_11_writes h
/-- A buffer the line `hostOps1_12` does not write holds after it what it held before. -/
theorem W15_of (c : Dev nD) (r : Ref sig .tc) (h : r ∉ hostOps1_12_W) :
    W15 m ρ c (Proc.devRef .tc r) = W14 m ρ c (Proc.devRef .tc r) :=
  StableHlo.after_of_writes_sub hostOps1_12 _ hostOps1_12_writes h
/-- A buffer the line `hostOps1_13` does not write holds after it what it held before. -/
theorem W16_of (c : Dev nD) (r : Ref sig .tc) (h : r ∉ hostOps1_13_W) :
    W16 m ρ c (Proc.devRef .tc r) = W15 m ρ c (Proc.devRef .tc r) :=
  StableHlo.after_of_writes_sub hostOps1_13 _ hostOps1_13_writes h
/-- A buffer the line `hostOps1_14` does not write holds after it what it held before. -/
theorem W17_of (c : Dev nD) (r : Ref sig .tc) (h : r ∉ hostOps1_14_W) :
    W17 m ρ c (Proc.devRef .tc r) = W16 m ρ c (Proc.devRef .tc r) :=
  StableHlo.after_of_writes_sub hostOps1_14 _ hostOps1_14_writes h
/-- A buffer the line `hostOps1_15` does not write holds after it what it held before. -/
theorem W18_of (c : Dev nD) (r : Ref sig .tc) (h : r ∉ hostOps1_15_W) :
    W18 m ρ c (Proc.devRef .tc r) = W17 m ρ c (Proc.devRef .tc r) :=
  StableHlo.after_of_writes_sub hostOps1_15 _ hostOps1_15_writes h
/-- A buffer the line `hostOps1_16` does not write holds after it what it held before. -/
theorem W19_of (c : Dev nD) (r : Ref sig .tc) (h : r ∉ hostOps1_16_W) :
    W19 m ρ c (Proc.devRef .tc r) = W18 m ρ c (Proc.devRef .tc r) :=
  StableHlo.after_of_writes_sub hostOps1_16 _ hostOps1_16_writes h
/-- A buffer the line `hostOps1_17` does not write holds after it what it held before. -/
theorem W20_of (c : Dev nD) (r : Ref sig .tc) (h : r ∉ hostOps1_17_W) :
    W20 m ρ c (Proc.devRef .tc r) = W19 m ρ c (Proc.devRef .tc r) :=
  StableHlo.after_of_writes_sub hostOps1_17 _ hostOps1_17_writes h
/-- A buffer the line `hostOps1_18` does not write holds after it what it held before. -/
theorem W21_of (c : Dev nD) (r : Ref sig .tc) (h : r ∉ hostOps1_18_W) :
    W21 m ρ c (Proc.devRef .tc r) = W20 m ρ c (Proc.devRef .tc r) :=
  StableHlo.after_of_writes_sub hostOps1_18 _ hostOps1_18_writes h
/-- A buffer the line `hostOps1_19` does not write holds after it what it held before. -/
theorem W22_of (c : Dev nD) (r : Ref sig .tc) (h : r ∉ hostOps1_19_W) :
    W22 m ρ c (Proc.devRef .tc r) = W21 m ρ c (Proc.devRef .tc r) :=
  StableHlo.after_of_writes_sub hostOps1_19 _ hostOps1_19_writes h
/-- A buffer the line `hostOps1_20` does not write holds after it what it held before. -/
theorem W23_of (c : Dev nD) (r : Ref sig .tc) (h : r ∉ hostOps1_20_W) :
    W23 m ρ c (Proc.devRef .tc r) = W22 m ρ c (Proc.devRef .tc r) :=
  StableHlo.after_of_writes_sub hostOps1_20 _ hostOps1_20_writes h
/-- A buffer the line `hostOps1_21` does not write holds after it what it held before. -/
theorem W24_of (c : Dev nD) (r : Ref sig .tc) (h : r ∉ hostOps1_21_W) :
    W24 m ρ c (Proc.devRef .tc r) = W23 m ρ c (Proc.devRef .tc r) :=
  StableHlo.after_of_writes_sub hostOps1_21 _ hostOps1_21_writes h

/-! ## From the return back to the region's exit -/

/-- A buffer none of the lines after the region writes holds at the return what the region left in it. -/
theorem Wend_of (c : Dev nD) (r : Ref sig .tc) (h0 : r ∉ hostOps1_W) (h1 : r ∉ hostOps1_1_W) (h2 : r ∉ hostOps1_2_W) (h3 : r ∉ hostOps1_3_W) (h4 : r ∉ hostOps1_4_W) (h5 : r ∉ hostOps1_5_W) (h6 : r ∉ hostOps1_6_W) (h7 : r ∉ hostOps1_7_W) (h8 : r ∉ hostOps1_8_W) (h9 : r ∉ hostOps1_9_W) (h10 : r ∉ hostOps1_10_W) (h11 : r ∉ hostOps1_11_W) (h12 : r ∉ hostOps1_12_W) (h13 : r ∉ hostOps1_13_W) (h14 : r ∉ hostOps1_14_W) (h15 : r ∉ hostOps1_15_W) (h16 : r ∉ hostOps1_16_W) (h17 : r ∉ hostOps1_17_W) (h18 : r ∉ hostOps1_18_W) (h19 : r ∉ hostOps1_19_W) (h20 : r ∉ hostOps1_20_W) (h21 : r ∉ hostOps1_21_W) :
    Wend m ρ c (Proc.devRef .tc r) = W2 m ρ c (Proc.devRef .tc r) :=
  (W24_of m ρ c r h21).trans <| (W23_of m ρ c r h20).trans <| (W22_of m ρ c r h19).trans <| (W21_of m ρ c r h18).trans <| (W20_of m ρ c r h17).trans <| (W19_of m ρ c r h16).trans <| (W18_of m ρ c r h15).trans <| (W17_of m ρ c r h14).trans <| (W16_of m ρ c r h13).trans <| (W15_of m ρ c r h12).trans <| (W14_of m ρ c r h11).trans <| (W13_of m ρ c r h10).trans <| (W12_of m ρ c r h9).trans <| (W11_of m ρ c r h8).trans <| (W10_of m ρ c r h7).trans <| (W9_of m ρ c r h6).trans <| (W8_of m ρ c r h5).trans <| (W7_of m ρ c r h4).trans <| (W6_of m ρ c r h3).trans <| (W5_of m ρ c r h2).trans <| (W4_of m ρ c r h1).trans <| (W3_of m ρ c r h0)

/-! ## The arguments end as launched -/

/-- Argument `main_arg0` reaches the return as launched: no host operation writes it and the region does not change it. -/
theorem Wend_main_arg0 (c : Dev nD) : Wend m ρ c (Proc.devRef .tc main_arg0) = m ((c : Thread nD τ).loc main_arg0) :=
  (Wend_of m ρ c main_arg0 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg0 (by decide)).trans <| (W1_of m ρ c main_arg0 (by decide)).trans rfl

/-- Argument `main_arg1` reaches the return as launched: no host operation writes it and the region does not change it. -/
theorem Wend_main_arg1 (c : Dev nD) : Wend m ρ c (Proc.devRef .tc main_arg1) = m ((c : Thread nD τ).loc main_arg1) :=
  (Wend_of m ρ c main_arg1 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg1 (by decide)).trans <| (W1_of m ρ c main_arg1 (by decide)).trans rfl

/-- Argument `main_arg2` reaches the return as launched: no host operation writes it and the region does not change it. -/
theorem Wend_main_arg2 (c : Dev nD) : Wend m ρ c (Proc.devRef .tc main_arg2) = m ((c : Thread nD τ).loc main_arg2) :=
  (Wend_of m ρ c main_arg2 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg2 (by decide)).trans <| (W1_of m ρ c main_arg2 (by decide)).trans rfl

/-- Argument `main_arg3` reaches the return as launched: no host operation writes it and the region does not change it. -/
theorem Wend_main_arg3 (c : Dev nD) : Wend m ρ c (Proc.devRef .tc main_arg3) = m ((c : Thread nD τ).loc main_arg3) :=
  (Wend_of m ρ c main_arg3 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg3 (by decide)).trans <| (W1_of m ρ c main_arg3 (by decide)).trans rfl

/-- Argument `main_arg4` reaches the return as launched: no host operation writes it and the region does not change it. -/
theorem Wend_main_arg4 (c : Dev nD) : Wend m ρ c (Proc.devRef .tc main_arg4) = m ((c : Thread nD τ).loc main_arg4) :=
  (Wend_of m ρ c main_arg4 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg4 (by decide)).trans <| (W1_of m ρ c main_arg4 (by decide)).trans rfl

/-- Argument `main_arg5` reaches the return as launched: no host operation writes it and the region does not change it. -/
theorem Wend_main_arg5 (c : Dev nD) : Wend m ρ c (Proc.devRef .tc main_arg5) = m ((c : Thread nD τ).loc main_arg5) :=
  (Wend_of m ρ c main_arg5 (by decide) (by decide) (by decide) (by decide) (by decide) (by decide) (by decide) (by decide) (by decide) (by decide) (by decide) (by decide) (by decide) (by decide) (by decide) (by decide) (by decide) (by decide) (by decide) (by decide) (by decide) (by decide)).trans <|
    (W2_of_ne m ρ c main_arg5 (by decide)).trans <| (W1_of m ρ c main_arg5 (by decide)).trans rfl

/-! ## The lines after the region as one line -/

/-- The contents at the return are the twenty-two lines after the region, run as one line, from what the region
    leaves. -/
theorem Wend_eq_tail (c : Dev nD) : Wend m ρ c = StableHlo.after tailOps (W2 m ρ c) := by
  unfold tailOps
  simp only [StableHlo.after_append]

end Cert.KernelIdeal.Hand

end
-- ==== Proof.KIFrameArgs.lean ====
/-
  The distance kernel program's frame, for any float instance: its six argument arrays end as launched.

  Every final state of @main's run holds each unscoped buffer at the last boundary's contents; no line of host
  operations writes an argument array and the region writes its output array only, so at an argument the fold of the
  boundaries walks back to the launch memory.
-/
import proofs.«136027_j7438883356888_1_alg».proof.Proof.KIFrame
import proofs.«136027_j7438883356888_1_alg».proof.Proof.KIValsFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: from any memory with zero counters, every weakly fair execution of @main on the TensorCores terminates,
    nothing faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run defs (onTc (τ := τ) (main (F := F))) ⟨m, fun _ => 0, ρ⟩) (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c)⟩) (run_main m ρ)

end Cert.KernelIdeal.Hand

end
-- ==== Proof.RefOps.lean ====
/-
  The reference program as one straight line of host operations.

  The printed reference is a host-only program: @main's lines, some of them calls of module-local functions, each call
  being its callee's body run on the operands' buffers and on one buffer per value of that body. Written out with every
  call replaced by its callee's lines at the call's own buffers, the program is a list of operations, each writing one
  buffer. The list is given in two parts: `opsA`, the lines up to the one that writes the first 1024 rows of the
  distance matrix, and `opsB`, the lines after it (the labels' comparison, hard mining, the two soft-max weightings, the
  cross entropy and the two Frobenius norms). The program equals the list run in order (`main_eq`); run from any memory
  with zero counters it terminates, and every buffer ends at the fold of the operations over the launch contents
  (`run_main`); no operation writes an argument (`kept_argK`).
-/
import proofs.«136027_j7438883356888_1_alg».proof.Proof.Gen.ReferenceIdeal
import Idealize.ShloMosaic.Lib.StableHlo.Run

noncomputable section

namespace Cert.ReferenceIdeal.Hand

open Idealize.ShloMosaic Idealize.ShloMosaic.TcCoe Idealize.ShloMosaic.StableHlo Idealize.SL.Sem
open Cert.ReferenceIdeal Cert.ReferenceIdeal.Gen

variable {F : FTy → Type} [FloatOps F]

/-- The lines of @main up to the slice of the distance matrix's first 1024 rows: the row sums of squares, their two
    broadcasts and sum, the product with the transpose, the clip from below (a call: the bound converted, broadcast,
    the maximum), the square root, the slice. -/
abbrev opsA : List (HloOp τ sig (Elt F)) :=
  [ StableHlo.binary main_arg4 main_arg4 main_v0 (mulf : (⟨S4096x2048, .f32⟩ : BufTy).Contents (Elt F) → (⟨S4096x2048, .f32⟩ : BufTy).Contents (Elt F) → (⟨S4096x2048, .f32⟩ : BufTy).Contents (Elt F)),
    StableHlo.nullary main_cst (constant S_ .f32 0x00000000#32),
    StableHlo.binary main_v0 main_cst main_v1 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.unary main_v1 main_v3 (broadcastInDim S1x4096 ![1] bcast_S4096_S1x4096_1 : (⟨S4096, .f32⟩ : BufTy).Contents (Elt F) → (⟨S1x4096, .f32⟩ : BufTy).Contents (Elt F)),
    StableHlo.unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    StableHlo.unary main_arg4 main_v7 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg4 main_v7 main_v8 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.nullary main_cst_0 (constant S_ .f32 0x40000000#32),
    StableHlo.unary main_cst_0 main_v9 (broadcastInDim S4096x4096 ![] bcast_S_S4096x4096 : (⟨S_, .f32⟩ : BufTy).Contents (Elt F) → (⟨S4096x4096, .f32⟩ : BufTy).Contents (Elt F)),
    StableHlo.binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    StableHlo.binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x2B8CBCCC#32),
    StableHlo.TRef.unary (.of main_cst_1 : StableHlo.TRef sig ⟨S_, .f32⟩) main_call0.v0 id,
    StableHlo.TRef.unary main_call0.v0 main_call0.v1 (broadcastInDim S4096x4096 ![] bcast_S_S4096x4096),
    StableHlo.TRef.binary main_call0.v1 (.of main_v11 : StableHlo.TRef sig ⟨S4096x4096, .f32⟩) main_call0.v2 maximumf,
    StableHlo.unary main_v12 main_v13 (Host.sqrt : (⟨S4096x4096, .f32⟩ : BufTy).Contents (Elt F) → (⟨S4096x4096, .f32⟩ : BufTy).Contents (Elt F)),
    StableHlo.unary main_v13 main_v14 ((extractStridedSlice S1024x4096 ![0, 0] · slices_S4096x4096_S1024x4096_0_0) : (⟨S4096x4096, .f32⟩ : BufTy).Contents (Elt F) → (⟨S1024x4096, .f32⟩ : BufTy).Contents (Elt F)) ]

/-- The lines of @main after it, in order, every call written out at its own buffers. -/
abbrev opsB : List (HloOp τ sig (Elt F)) :=
  [ StableHlo.unary main_arg5 main_v15 ((extractStridedSlice S1024 ![0] · slices_S4096_S1024_0) : (⟨S4096, .i32⟩ : BufTy).Contents (Elt F) → (⟨S1024, .i32⟩ : BufTy).Contents (Elt F)),
    StableHlo.unary main_v15 main_v16 (broadcastInDim S1024x1 ![0] bcast_S1024_S1024x1_0 : (⟨S1024, .i32⟩ : BufTy).Contents (Elt F) → (⟨S1024x1, .i32⟩ : BufTy).Contents (Elt F)),
    StableHlo.unary main_arg5 main_v17 (broadcastInDim S1x4096 ![1] bcast_S4096_S1x4096_1 : (⟨S4096, .i32⟩ : BufTy).Contents (Elt F) → (⟨S1x4096, .i32⟩ : BufTy).Contents (Elt F)),
    StableHlo.unary main_v16 main_v18 (broadcastInDim S1024x4096 ![0, 1] bcast_S1024x1_S1024x4096_0_1 : (⟨S1024x1, .i32⟩ : BufTy).Contents (Elt F) → (⟨S1024x4096, .i32⟩ : BufTy).Contents (Elt F)),
    StableHlo.unary main_v17 main_v19 (broadcastInDim S1024x4096 ![0, 1] bcast_S1x4096_S1024x4096_0_1 : (⟨S1x4096, .i32⟩ : BufTy).Contents (Elt F) → (⟨S1024x4096, .i32⟩ : BufTy).Contents (Elt F)),
    StableHlo.binary main_v18 main_v19 main_v20 (cmpi .eq : (⟨S1024x4096, .i32⟩ : BufTy).Contents (Elt F) → (⟨S1024x4096, .i32⟩ : BufTy).Contents (Elt F) → (⟨S1024x4096, .i1⟩ : BufTy).Contents (Elt F)),
    StableHlo.unary main_v15 main_v21 (broadcastInDim S1024x1 ![0] bcast_S1024_S1024x1_0 : (⟨S1024, .i32⟩ : BufTy).Contents (Elt F) → (⟨S1024x1, .i32⟩ : BufTy).Contents (Elt F)),
    StableHlo.nullary main_c (constantI S_ 32 4#32),
    StableHlo.unary main_c main_v22 (broadcastInDim S1024x1 ![] bcast_S_S1024x1 : (⟨S_, .i32⟩ : BufTy).Contents (Elt F) → (⟨S1024x1, .i32⟩ : BufTy).Contents (Elt F)),
    StableHlo.binary main_v21 main_v22 main_v23 (muli : (⟨S1024x1, .i32⟩ : BufTy).Contents (Elt F) → (⟨S1024x1, .i32⟩ : BufTy).Contents (Elt F) → (⟨S1024x1, .i32⟩ : BufTy).Contents (Elt F)),
    StableHlo.nullary main_v24 (iotaInDim S4 32 0),
    StableHlo.unary main_v24 main_v25 (broadcastInDim S1x4 ![1] bcast_S4_S1x4_1 : (⟨S4, .i32⟩ : BufTy).Contents (Elt F) → (⟨S1x4, .i32⟩ : BufTy).Contents (Elt F)),
    StableHlo.unary main_v23 main_v26 (broadcastInDim S1024x4 ![0, 1] bcast_S1024x1_S1024x4_0_1 : (⟨S1024x1, .i32⟩ : BufTy).Contents (Elt F) → (⟨S1024x4, .i32⟩ : BufTy).Contents (Elt F)),
    StableHlo.unary main_v25 main_v27 (broadcastInDim S1024x4 ![0, 1] bcast_S1x4_S1024x4_0_1 : (⟨S1x4, .i32⟩ : BufTy).Contents (Elt F) → (⟨S1024x4, .i32⟩ : BufTy).Contents (Elt F)),
    StableHlo.binary main_v26 main_v27 main_v28 (addi : (⟨S1024x4, .i32⟩ : BufTy).Contents (Elt F) → (⟨S1024x4, .i32⟩ : BufTy).Contents (Elt F) → (⟨S1024x4, .i32⟩ : BufTy).Contents (Elt F)),
    StableHlo.TRef.nullary main_call1.c (constantI S_ 32 0#32),
    StableHlo.TRef.unary main_call1.c main_call1.v0 (broadcastInDim S1024x4 ![] bcast_S_S1024x4),
    StableHlo.TRef.binary (.of main_v28 : StableHlo.TRef sig ⟨S1024x4, .i32⟩) main_call1.v0 main_call1.v1 (cmpi .slt),
    StableHlo.TRef.nullary main_call1.c_0 (constantI S_ 32 4096#32),
    StableHlo.TRef.unary main_call1.c_0 main_call1.v2 (broadcastInDim S1024x4 ![] bcast_S_S1024x4),
    StableHlo.TRef.binary (.of main_v28 : StableHlo.TRef sig ⟨S1024x4, .i32⟩) main_call1.v2 main_call1.v3 addi,
    StableHlo.TRef.ternary main_call1.v1 main_call1.v3 (.of main_v28 : StableHlo.TRef sig ⟨S1024x4, .i32⟩) main_call1.v4 select,
    StableHlo.TRef.reshape main_call1.v4 main_call1.v5 rfl shapeCasts_S1024x4_S1024x4x1,
    StableHlo.TRef.nullary main_call1.c_1 (constantI S1 32 4095#32),
    StableHlo.TRef.nullary main_call1.c_2 (constantI S_ 32 0#32),
    StableHlo.TRef.unary main_call1.c_2 main_call1.v6 (broadcastInDim S1024x4x1 ![] bcast_S_S1024x4x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1024x4x1 ![0, 1, 2] bcast_S1x1x1_S1024x4x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x4x1_S1024x4_d2 h_S_),
    StableHlo.TRef.binary (.of main_v14 : StableHlo.TRef sig ⟨S1024x4096, .f32⟩) main_call1.v5 main_call1.v13 (fun x i => Host.gather gather_S1024x4096_S1024x4x1_S1024x4_n_1_0_0_1_2_11 x i),
    StableHlo.TRef.nullary main_call1.cst (constant S_ .f32 0x7FC00000#32),
    StableHlo.TRef.unary main_call1.cst main_call1.v14 (broadcastInDim S1024x4 ![] bcast_S_S1024x4),
    StableHlo.TRef.ternary main_call1.v12 main_call1.v13 main_call1.v14 main_call1.v15 select,
    StableHlo.nullary main_v30 (iotaInDim S1024 32 0),
    StableHlo.nullary main_c_2 (constantI S_ 32 4#32),
    StableHlo.TRef.unary (.of main_c_2 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1024 ![] bcast_S_S1024),
    StableHlo.TRef.binary (.of main_v30 : StableHlo.TRef sig ⟨S1024, .i32⟩) main_call2.v3 main_call2.v4 Host.remsi,
    StableHlo.TRef.nullary main_call2.c_1 (constantI S_ 32 0#32),
    StableHlo.TRef.unary main_call2.c_1 main_call2.v5 (broadcastInDim S1024 ![] bcast_S_S1024),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1024 ![] bcast_S_S1024),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1024 ![] bcast_S_S1024),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1024 ![] bcast_S_S1024),
    StableHlo.TRef.binary main_call2.v4 main_call2.v13 main_call2.v14 addi,
    StableHlo.TRef.ternary main_call2.v12 main_call2.v14 main_call2.v4 main_call2.v15 select,
    StableHlo.nullary main_v32 (iotaInDim S4 32 0),
    StableHlo.unary main_v32 main_v33 (broadcastInDim S1x4 ![1] bcast_S4_S1x4_1 : (⟨S4, .i32⟩ : BufTy).Contents (Elt F) → (⟨S1x4, .i32⟩ : BufTy).Contents (Elt F)),
    StableHlo.unary main_v31 main_v34 (broadcastInDim S1024x1 ![0] bcast_S1024_S1024x1_0 : (⟨S1024, .i32⟩ : BufTy).Contents (Elt F) → (⟨S1024x1, .i32⟩ : BufTy).Contents (Elt F)),
    StableHlo.unary main_v33 main_v35 (broadcastInDim S1024x4 ![0, 1] bcast_S1x4_S1024x4_0_1 : (⟨S1x4, .i32⟩ : BufTy).Contents (Elt F) → (⟨S1024x4, .i32⟩ : BufTy).Contents (Elt F)),
    StableHlo.unary main_v34 main_v36 (broadcastInDim S1024x4 ![0, 1] bcast_S1024x1_S1024x4_0_1 : (⟨S1024x1, .i32⟩ : BufTy).Contents (Elt F) → (⟨S1024x4, .i32⟩ : BufTy).Contents (Elt F)),
    StableHlo.binary main_v35 main_v36 main_v37 (cmpi .ne : (⟨S1024x4, .i32⟩ : BufTy).Contents (Elt F) → (⟨S1024x4, .i32⟩ : BufTy).Contents (Elt F) → (⟨S1024x4, .i1⟩ : BufTy).Contents (Elt F)),
    StableHlo.nullary main_c_3 (constantI S_ 32 0#32),
    StableHlo.nullary main_c_4 (constantI S_ 32 1#32),
    StableHlo.TRef.unary (.of main_c_3 : StableHlo.TRef sig ⟨S_, .i32⟩) main_call3.v0 (broadcastInDim S1024x4 ![] bcast_S_S1024x4),
    StableHlo.TRef.unary (.of main_c_4 : StableHlo.TRef sig ⟨S_, .i32⟩) main_call3.v1 (broadcastInDim S1024x4 ![] bcast_S_S1024x4),
    StableHlo.TRef.ternary (.of main_v37 : StableHlo.TRef sig ⟨S1024x4, .i1⟩) main_call3.v0 main_call3.v1 main_call3.v2 select,
    StableHlo.TRef.nullary main_call4.v0 (iotaInDim S1024x4 32 1),
    StableHlo.TRef.binary (.of main_v38 : StableHlo.TRef sig ⟨S1024x4, .i32⟩) main_call4.v0 main_call4.v1_0 (fun x y => (Host.sort2 S1024x4 1 comparator_i32_i32_d1 x y).1),
    StableHlo.TRef.binary (.of main_v38 : StableHlo.TRef sig ⟨S1024x4, .i32⟩) main_call4.v0 main_call4.v1_1 (fun x y => (Host.sort2 S1024x4 1 comparator_i32_i32_d1 x y).2),
    StableHlo.unary main_v39 main_v40 ((extractStridedSlice S1024x3 ![0, 0] · slices_S1024x4_S1024x3_0_0) : (⟨S1024x4, .i32⟩ : BufTy).Contents (Elt F) → (⟨S1024x3, .i32⟩ : BufTy).Contents (Elt F)),
    StableHlo.TRef.nullary main_call5.c (constantI S_ 32 0#32),
    StableHlo.TRef.unary main_call5.c main_call5.v0 (broadcastInDim S1024x3 ![] bcast_S_S1024x3),
    StableHlo.TRef.binary (.of main_v40 : StableHlo.TRef sig ⟨S1024x3, .i32⟩) main_call5.v0 main_call5.v1 (cmpi .slt),
    StableHlo.TRef.nullary main_call5.c_0 (constantI S_ 32 4#32),
    StableHlo.TRef.unary main_call5.c_0 main_call5.v2 (broadcastInDim S1024x3 ![] bcast_S_S1024x3),
    StableHlo.TRef.binary (.of main_v40 : StableHlo.TRef sig ⟨S1024x3, .i32⟩) main_call5.v2 main_call5.v3 addi,
    StableHlo.TRef.ternary main_call5.v1 main_call5.v3 (.of main_v40 : StableHlo.TRef sig ⟨S1024x3, .i32⟩) main_call5.v4 select,
    StableHlo.TRef.reshape main_call5.v4 main_call5.v5 rfl shapeCasts_S1024x3_S1024x3x1,
    StableHlo.TRef.nullary main_call5.c_1 (constantI S1 32 3#32),
    StableHlo.TRef.nullary main_call5.c_2 (constantI S_ 32 0#32),
    StableHlo.TRef.unary main_call5.c_2 main_call5.v6 (broadcastInDim S1024x3x1 ![] bcast_S_S1024x3x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S1024x3x1 ![0, 1, 2] bcast_S1x1x1_S1024x3x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x3x1_S1024x3_d2 h_S_),
    StableHlo.TRef.binary (.of main_v29 : StableHlo.TRef sig ⟨S1024x4, .f32⟩) main_call5.v5 main_call5.v13 (fun x i => Host.gather gather_S1024x4_S1024x3x1_S1024x3_n_1_0_0_1_2_11 x i),
    StableHlo.TRef.nullary main_call5.cst (constant S_ .f32 0x7FC00000#32),
    StableHlo.TRef.unary main_call5.cst main_call5.v14 (broadcastInDim S1024x3 ![] bcast_S_S1024x3),
    StableHlo.TRef.ternary main_call5.v12 main_call5.v13 main_call5.v14 main_call5.v15 select,
    StableHlo.nullary main_cst_5 (constant S_ .f32 0xFF800000#32),
    StableHlo.binary main_v41 main_cst_5 main_v42 ((fun x v => Host.reduce FloatOps.maximumf x v reducesTo_S1024x3_S1024_d1 h_S_) : (⟨S1024x3, .f32⟩ : BufTy).Contents (Elt F) → (⟨S_, .f32⟩ : BufTy).Contents (Elt F) → (⟨S1024, .f32⟩ : BufTy).Contents (Elt F)),
    StableHlo.nullary main_cst_6 (constant S_ .f32 0xFF800000#32),
    StableHlo.unary main_cst_6 main_v43 (broadcastInDim S1024 ![] bcast_S_S1024 : (⟨S_, .f32⟩ : BufTy).Contents (Elt F) → (⟨S1024, .f32⟩ : BufTy).Contents (Elt F)),
    StableHlo.binary main_v43 main_v42 main_v44 (maximumf : (⟨S1024, .f32⟩ : BufTy).Contents (Elt F) → (⟨S1024, .f32⟩ : BufTy).Contents (Elt F) → (⟨S1024, .f32⟩ : BufTy).Contents (Elt F)),
    StableHlo.unary main_v44 main_v45 (broadcastInDim S1024x1 ![0] bcast_S1024_S1024x1_0 : (⟨S1024, .f32⟩ : BufTy).Contents (Elt F) → (⟨S1024x1, .f32⟩ : BufTy).Contents (Elt F)),
    StableHlo.unary main_v45 main_v46 (broadcastInDim S1024x3 ![0, 1] bcast_S1024x1_S1024x3_0_1 : (⟨S1024x1, .f32⟩ : BufTy).Contents (Elt F) → (⟨S1024x3, .f32⟩ : BufTy).Contents (Elt F)),
    StableHlo.binary main_v41 main_v46 main_v47 (subf : (⟨S1024x3, .f32⟩ : BufTy).Contents (Elt F) → (⟨S1024x3, .f32⟩ : BufTy).Contents (Elt F) → (⟨S1024x3, .f32⟩ : BufTy).Contents (Elt F)),
    StableHlo.unary main_v47 main_v48 (Host.exp : (⟨S1024x3, .f32⟩ : BufTy).Contents (Elt F) → (⟨S1024x3, .f32⟩ : BufTy).Contents (Elt F)),
    StableHlo.nullary main_cst_7 (constant S_ .f32 0x00000000#32),
    StableHlo.binary main_v48 main_cst_7 main_v49 ((fun x v => Host.reduceAdd x v reducesTo_S1024x3_S1024_d1 h_S_) : (⟨S1024x3, .f32⟩ : BufTy).Contents (Elt F) → (⟨S_, .f32⟩ : BufTy).Contents (Elt F) → (⟨S1024, .f32⟩ : BufTy).Contents (Elt F)),
    StableHlo.unary main_v49 main_v50 (broadcastInDim S1024x1 ![0] bcast_S1024_S1024x1_0 : (⟨S1024, .f32⟩ : BufTy).Contents (Elt F) → (⟨S1024x1, .f32⟩ : BufTy).Contents (Elt F)),
    StableHlo.unary main_v50 main_v51 (broadcastInDim S1024x3 ![0, 1] bcast_S1024x1_S1024x3_0_1 : (⟨S1024x1, .f32⟩ : BufTy).Contents (Elt F) → (⟨S1024x3, .f32⟩ : BufTy).Contents (Elt F)),
    StableHlo.binary main_v48 main_v51 main_v52 (Host.divf : (⟨S1024x3, .f32⟩ : BufTy).Contents (Elt F) → (⟨S1024x3, .f32⟩ : BufTy).Contents (Elt F) → (⟨S1024x3, .f32⟩ : BufTy).Contents (Elt F)),
    StableHlo.binary main_v52 main_v41 main_v53 (mulf : (⟨S1024x3, .f32⟩ : BufTy).Contents (Elt F) → (⟨S1024x3, .f32⟩ : BufTy).Contents (Elt F) → (⟨S1024x3, .f32⟩ : BufTy).Contents (Elt F)),
    StableHlo.nullary main_cst_8 (constant S_ .f32 0x00000000#32),
    StableHlo.binary main_v53 main_cst_8 main_v54 ((fun x v => Host.reduceAdd x v reducesTo_S1024x3_S1024_d1 h_S_) : (⟨S1024x3, .f32⟩ : BufTy).Contents (Elt F) → (⟨S_, .f32⟩ : BufTy).Contents (Elt F) → (⟨S1024, .f32⟩ : BufTy).Contents (Elt F)),
    StableHlo.unary main_v20 main_v55 (noti : (⟨S1024x4096, .i1⟩ : BufTy).Contents (Elt F) → (⟨S1024x4096, .i1⟩ : BufTy).Contents (Elt F)),
    StableHlo.nullary main_cst_9 (constant S_ .f32 0x7F800000#32),
    StableHlo.TRef.unary (.of main_cst_9 : StableHlo.TRef sig ⟨S_, .f32⟩) main_call6.v0 id,
    StableHlo.TRef.unary main_call6.v0 main_call6.v1 (broadcastInDim S1024x4096 ![] bcast_S_S1024x4096),
    StableHlo.TRef.ternary (.of main_v55 : StableHlo.TRef sig ⟨S1024x4096, .i1⟩) (.of main_v14 : StableHlo.TRef sig ⟨S1024x4096, .f32⟩) main_call6.v1 main_call6.v2 select,
    StableHlo.nullary main_cst_10 (constant S_ .f32 0x7F800000#32),
    StableHlo.binary main_v56 main_cst_10 main_v57 ((fun x v => Host.reduce FloatOps.minimumf x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    StableHlo.nullary main_cst_11 (constant S_ .f32 0x3DCCCCCD#32),
    StableHlo.unary main_cst_11 main_v58 (broadcastInDim S1024 ![] bcast_S_S1024 : (⟨S_, .f32⟩ : BufTy).Contents (Elt F) → (⟨S1024, .f32⟩ : BufTy).Contents (Elt F)),
    StableHlo.binary main_v57 main_v58 main_v59 (addf : (⟨S1024, .f32⟩ : BufTy).Contents (Elt F) → (⟨S1024, .f32⟩ : BufTy).Contents (Elt F) → (⟨S1024, .f32⟩ : BufTy).Contents (Elt F)),
    StableHlo.unary main_v59 main_v60 (broadcastInDim S1024x1 ![0] bcast_S1024_S1024x1_0 : (⟨S1024, .f32⟩ : BufTy).Contents (Elt F) → (⟨S1024x1, .f32⟩ : BufTy).Contents (Elt F)),
    StableHlo.unary main_v60 main_v61 (broadcastInDim S1024x4096 ![0, 1] bcast_S1024x1_S1024x4096_0_1 : (⟨S1024x1, .f32⟩ : BufTy).Contents (Elt F) → (⟨S1024x4096, .f32⟩ : BufTy).Contents (Elt F)),
    StableHlo.binary main_v14 main_v61 main_v62 (cmpf .olt : (⟨S1024x4096, .f32⟩ : BufTy).Contents (Elt F) → (⟨S1024x4096, .f32⟩ : BufTy).Contents (Elt F) → (⟨S1024x4096, .i1⟩ : BufTy).Contents (Elt F)),
    StableHlo.binary main_v55 main_v62 main_v63 (andi : (⟨S1024x4096, .i1⟩ : BufTy).Contents (Elt F) → (⟨S1024x4096, .i1⟩ : BufTy).Contents (Elt F) → (⟨S1024x4096, .i1⟩ : BufTy).Contents (Elt F)),
    StableHlo.unary main_v14 main_v64 (Host.negf : (⟨S1024x4096, .f32⟩ : BufTy).Contents (Elt F) → (⟨S1024x4096, .f32⟩ : BufTy).Contents (Elt F)),
    StableHlo.nullary main_cst_12 (constant S_ .f32 0xFF800000#32),
    StableHlo.TRef.unary (.of main_cst_12 : StableHlo.TRef sig ⟨S_, .f32⟩) main_call7.v0 id,
    StableHlo.TRef.unary main_call7.v0 main_call7.v1 (broadcastInDim S1024x4096 ![] bcast_S_S1024x4096),
    StableHlo.TRef.ternary (.of main_v63 : StableHlo.TRef sig ⟨S1024x4096, .i1⟩) (.of main_v64 : StableHlo.TRef sig ⟨S1024x4096, .f32⟩) main_call7.v1 main_call7.v2 select,
    StableHlo.nullary main_cst_13 (constant S_ .f32 0xFF800000#32),
    StableHlo.binary main_v65 main_cst_13 main_v66 ((fun x v => Host.reduce FloatOps.maximumf x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    StableHlo.nullary main_cst_14 (constant S_ .f32 0xFF800000#32),
    StableHlo.unary main_cst_14 main_v67 (broadcastInDim S1024 ![] bcast_S_S1024 : (⟨S_, .f32⟩ : BufTy).Contents (Elt F) → (⟨S1024, .f32⟩ : BufTy).Contents (Elt F)),
    StableHlo.binary main_v67 main_v66 main_v68 (maximumf : (⟨S1024, .f32⟩ : BufTy).Contents (Elt F) → (⟨S1024, .f32⟩ : BufTy).Contents (Elt F) → (⟨S1024, .f32⟩ : BufTy).Contents (Elt F)),
    StableHlo.unary main_v68 main_v69 (broadcastInDim S1024x1 ![0] bcast_S1024_S1024x1_0 : (⟨S1024, .f32⟩ : BufTy).Contents (Elt F) → (⟨S1024x1, .f32⟩ : BufTy).Contents (Elt F)),
    StableHlo.unary main_v69 main_v70 (broadcastInDim S1024x4096 ![0, 1] bcast_S1024x1_S1024x4096_0_1 : (⟨S1024x1, .f32⟩ : BufTy).Contents (Elt F) → (⟨S1024x4096, .f32⟩ : BufTy).Contents (Elt F)),
    StableHlo.binary main_v65 main_v70 main_v71 (subf : (⟨S1024x4096, .f32⟩ : BufTy).Contents (Elt F) → (⟨S1024x4096, .f32⟩ : BufTy).Contents (Elt F) → (⟨S1024x4096, .f32⟩ : BufTy).Contents (Elt F)),
    StableHlo.unary main_v71 main_v72 (Host.exp : (⟨S1024x4096, .f32⟩ : BufTy).Contents (Elt F) → (⟨S1024x4096, .f32⟩ : BufTy).Contents (Elt F)),
    StableHlo.nullary main_cst_15 (constant S_ .f32 0x00000000#32),
    StableHlo.binary main_v72 main_cst_15 main_v73 ((fun x v => Host.reduceAdd x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    StableHlo.unary main_v73 main_v74 (broadcastInDim S1024x1 ![0] bcast_S1024_S1024x1_0 : (⟨S1024, .f32⟩ : BufTy).Contents (Elt F) → (⟨S1024x1, .f32⟩ : BufTy).Contents (Elt F)),
    StableHlo.unary main_v74 main_v75 (broadcastInDim S1024x4096 ![0, 1] bcast_S1024x1_S1024x4096_0_1 : (⟨S1024x1, .f32⟩ : BufTy).Contents (Elt F) → (⟨S1024x4096, .f32⟩ : BufTy).Contents (Elt F)),
    StableHlo.binary main_v72 main_v75 main_v76 (Host.divf : (⟨S1024x4096, .f32⟩ : BufTy).Contents (Elt F) → (⟨S1024x4096, .f32⟩ : BufTy).Contents (Elt F) → (⟨S1024x4096, .f32⟩ : BufTy).Contents (Elt F)),
    StableHlo.nullary main_cst_16 (constant S_ .f32 0x00000000#32),
    StableHlo.TRef.unary (.of main_cst_16 : StableHlo.TRef sig ⟨S_, .f32⟩) main_call8.v0 id,
    StableHlo.TRef.unary main_call8.v0 main_call8.v1 (broadcastInDim S1024x4096 ![] bcast_S_S1024x4096),
    StableHlo.TRef.ternary (.of main_v63 : StableHlo.TRef sig ⟨S1024x4096, .i1⟩) (.of main_v14 : StableHlo.TRef sig ⟨S1024x4096, .f32⟩) main_call8.v1 main_call8.v2 select,
    StableHlo.binary main_v76 main_v77 main_v78 (mulf : (⟨S1024x4096, .f32⟩ : BufTy).Contents (Elt F) → (⟨S1024x4096, .f32⟩ : BufTy).Contents (Elt F) → (⟨S1024x4096, .f32⟩ : BufTy).Contents (Elt F)),
    StableHlo.nullary main_cst_17 (constant S_ .f32 0x00000000#32),
    StableHlo.binary main_v78 main_cst_17 main_v79 ((fun x v => Host.reduceAdd x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    StableHlo.binary main_v79 main_v54 main_v80 (subf : (⟨S1024, .f32⟩ : BufTy).Contents (Elt F) → (⟨S1024, .f32⟩ : BufTy).Contents (Elt F) → (⟨S1024, .f32⟩ : BufTy).Contents (Elt F)),
    StableHlo.nullary main_cst_18 (constant S_ .f32 0x3E99999A#32),
    StableHlo.unary main_cst_18 main_v81 (broadcastInDim S1024 ![] bcast_S_S1024 : (⟨S_, .f32⟩ : BufTy).Contents (Elt F) → (⟨S1024, .f32⟩ : BufTy).Contents (Elt F)),
    StableHlo.binary main_v81 main_v80 main_v82 (subf : (⟨S1024, .f32⟩ : BufTy).Contents (Elt F) → (⟨S1024, .f32⟩ : BufTy).Contents (Elt F) → (⟨S1024, .f32⟩ : BufTy).Contents (Elt F)),
    StableHlo.TRef.nullary main_call9.cst (constant S_ .f32 0x00000000#32),
    StableHlo.TRef.unary main_call9.cst main_call9.v0 (broadcastInDim S1024 ![] bcast_S_S1024),
    StableHlo.TRef.binary (.of main_v82 : StableHlo.TRef sig ⟨S1024, .f32⟩) main_call9.v0 main_call9.v1 maximumf,
    StableHlo.nullary main_cst_19 (constant S_ .f32 0x00000000#32),
    StableHlo.binary main_v83 main_cst_19 main_v84 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.nullary main_cst_20 (constant S_ .f32 0x44800000#32),
    StableHlo.binary main_v84 main_cst_20 main_v85 (Host.divf : (⟨S_, .f32⟩ : BufTy).Contents (Elt F) → (⟨S_, .f32⟩ : BufTy).Contents (Elt F) → (⟨S_, .f32⟩ : BufTy).Contents (Elt F)),
    StableHlo.TRef.nullary main_call10.cst (constant S_ .f32 0xFF800000#32),
    StableHlo.TRef.binary (.of main_arg0 : StableHlo.TRef sig ⟨S4096x1024, .f32⟩) main_call10.cst main_call10.v0 (fun x v => Host.reduce FloatOps.maximumf x v reducesTo_S4096x1024_S4096_d1 h_S_),
    StableHlo.TRef.nullary main_call10.cst_0 (constant S_ .f32 0xFF800000#32),
    StableHlo.TRef.unary main_call10.cst_0 main_call10.v1 (broadcastInDim S4096 ![] bcast_S_S4096),
    StableHlo.TRef.binary main_call10.v1 main_call10.v0 main_call10.v2 maximumf,
    StableHlo.TRef.unary main_call10.v2 main_call10.v3 (broadcastInDim S4096x1 ![0] bcast_S4096_S4096x1_0),
    StableHlo.TRef.unary main_call10.v3 main_call10.v4 (broadcastInDim S4096x1024 ![0, 1] bcast_S4096x1_S4096x1024_0_1),
    StableHlo.TRef.binary (.of main_arg0 : StableHlo.TRef sig ⟨S4096x1024, .f32⟩) main_call10.v4 main_call10.v5 subf,
    StableHlo.TRef.unary main_call10.v5 main_call10.v6 Host.exp,
    StableHlo.TRef.nullary main_call10.cst_1 (constant S_ .f32 0x00000000#32),
    StableHlo.TRef.binary main_call10.v6 main_call10.cst_1 main_call10.v7 (fun x v => Host.reduceAdd x v reducesTo_S4096x1024_S4096_d1 h_S_),
    StableHlo.TRef.unary main_call10.v7 main_call10.v8 (broadcastInDim S4096x1 ![0] bcast_S4096_S4096x1_0),
    StableHlo.TRef.unary main_call10.v8 main_call10.v9 Host.log,
    StableHlo.TRef.unary main_call10.v9 main_call10.v10 (broadcastInDim S4096x1024 ![0, 1] bcast_S4096x1_S4096x1024_0_1),
    StableHlo.TRef.binary main_call10.v5 main_call10.v10 main_call10.v11 subf,
    StableHlo.unary main_arg5 main_v87 (broadcastInDim S4096x1 ![0] bcast_S4096_S4096x1_0 : (⟨S4096, .i32⟩ : BufTy).Contents (Elt F) → (⟨S4096x1, .i32⟩ : BufTy).Contents (Elt F)),
    StableHlo.TRef.nullary main_call11.c (constantI S_ 32 0#32),
    StableHlo.TRef.unary main_call11.c main_call11.v0 (broadcastInDim S4096x1 ![] bcast_S_S4096x1),
    StableHlo.TRef.binary (.of main_v87 : StableHlo.TRef sig ⟨S4096x1, .i32⟩) main_call11.v0 main_call11.v1 (cmpi .slt),
    StableHlo.TRef.nullary main_call11.c_0 (constantI S_ 32 1024#32),
    StableHlo.TRef.unary main_call11.c_0 main_call11.v2 (broadcastInDim S4096x1 ![] bcast_S_S4096x1),
    StableHlo.TRef.binary (.of main_v87 : StableHlo.TRef sig ⟨S4096x1, .i32⟩) main_call11.v2 main_call11.v3 addi,
    StableHlo.TRef.ternary main_call11.v1 main_call11.v3 (.of main_v87 : StableHlo.TRef sig ⟨S4096x1, .i32⟩) main_call11.v4 select,
    StableHlo.TRef.reshape main_call11.v4 main_call11.v5 rfl shapeCasts_S4096x1_S4096x1x1,
    StableHlo.TRef.nullary main_call11.c_1 (constantI S1 32 1023#32),
    StableHlo.TRef.nullary main_call11.c_2 (constantI S_ 32 0#32),
    StableHlo.TRef.unary main_call11.c_2 main_call11.v6 (broadcastInDim S4096x1x1 ![] bcast_S_S4096x1x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S4096x1x1 ![0, 1, 2] bcast_S1x1x1_S4096x1x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S4096x1x1_S4096x1_d2 h_S_),
    StableHlo.TRef.binary (.of main_v86 : StableHlo.TRef sig ⟨S4096x1024, .f32⟩) main_call11.v5 main_call11.v13 (fun x i => Host.gather gather_S4096x1024_S4096x1x1_S4096x1_n_1_0_0_1_2_11 x i),
    StableHlo.TRef.nullary main_call11.cst (constant S_ .f32 0x7FC00000#32),
    StableHlo.TRef.unary main_call11.cst main_call11.v14 (broadcastInDim S4096x1 ![] bcast_S_S4096x1),
    StableHlo.TRef.ternary main_call11.v12 main_call11.v13 main_call11.v14 main_call11.v15 select,
    StableHlo.nullary main_cst_21 (constant S_ .f32 0x00000000#32),
    StableHlo.binary main_v88 main_cst_21 main_v89 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    StableHlo.nullary main_cst_22 (constant S_ .f32 0x45800000#32),
    StableHlo.binary main_v89 main_cst_22 main_v90 (Host.divf : (⟨S_, .f32⟩ : BufTy).Contents (Elt F) → (⟨S_, .f32⟩ : BufTy).Contents (Elt F) → (⟨S_, .f32⟩ : BufTy).Contents (Elt F)),
    StableHlo.unary main_v90 main_v91 (Host.negf : (⟨S_, .f32⟩ : BufTy).Contents (Elt F) → (⟨S_, .f32⟩ : BufTy).Contents (Elt F)),
    StableHlo.binary main_arg3 main_arg1 main_v92 (subf : (⟨S4096x1024, .f32⟩ : BufTy).Contents (Elt F) → (⟨S4096x1024, .f32⟩ : BufTy).Contents (Elt F) → (⟨S4096x1024, .f32⟩ : BufTy).Contents (Elt F)),
    StableHlo.binary main_v92 main_v92 main_v93 (mulf : (⟨S4096x1024, .f32⟩ : BufTy).Contents (Elt F) → (⟨S4096x1024, .f32⟩ : BufTy).Contents (Elt F) → (⟨S4096x1024, .f32⟩ : BufTy).Contents (Elt F)),
    StableHlo.nullary main_cst_23 (constant S_ .f32 0x00000000#32),
    StableHlo.binary main_v93 main_cst_23 main_v94 ((fun x v => Host.reduceAdd x v reducesTo_S4096x1024_S_d0_1 h_S_) : (⟨S4096x1024, .f32⟩ : BufTy).Contents (Elt F) → (⟨S_, .f32⟩ : BufTy).Contents (Elt F) → (⟨S_, .f32⟩ : BufTy).Contents (Elt F)),
    StableHlo.unary main_v94 main_v95 (Host.sqrt : (⟨S_, .f32⟩ : BufTy).Contents (Elt F) → (⟨S_, .f32⟩ : BufTy).Contents (Elt F)),
    StableHlo.binary main_arg3 main_arg2 main_v96 (subf : (⟨S4096x1024, .f32⟩ : BufTy).Contents (Elt F) → (⟨S4096x1024, .f32⟩ : BufTy).Contents (Elt F) → (⟨S4096x1024, .f32⟩ : BufTy).Contents (Elt F)),
    StableHlo.binary main_v96 main_v96 main_v97 (mulf : (⟨S4096x1024, .f32⟩ : BufTy).Contents (Elt F) → (⟨S4096x1024, .f32⟩ : BufTy).Contents (Elt F) → (⟨S4096x1024, .f32⟩ : BufTy).Contents (Elt F)),
    StableHlo.nullary main_cst_24 (constant S_ .f32 0x00000000#32),
    StableHlo.binary main_v97 main_cst_24 main_v98 ((fun x v => Host.reduceAdd x v reducesTo_S4096x1024_S_d0_1 h_S_) : (⟨S4096x1024, .f32⟩ : BufTy).Contents (Elt F) → (⟨S_, .f32⟩ : BufTy).Contents (Elt F) → (⟨S_, .f32⟩ : BufTy).Contents (Elt F)),
    StableHlo.unary main_v98 main_v99 (Host.sqrt : (⟨S_, .f32⟩ : BufTy).Contents (Elt F) → (⟨S_, .f32⟩ : BufTy).Contents (Elt F)),
    StableHlo.nullary main_cst_25 (constant S_ .f32 0x3F800000#32),
    StableHlo.binary main_cst_25 main_v85 main_v100 (mulf : (⟨S_, .f32⟩ : BufTy).Contents (Elt F) → (⟨S_, .f32⟩ : BufTy).Contents (Elt F) → (⟨S_, .f32⟩ : BufTy).Contents (Elt F)),
    StableHlo.nullary main_cst_26 (constant S_ .f32 0x3F000000#32),
    StableHlo.binary main_cst_26 main_v91 main_v101 (mulf : (⟨S_, .f32⟩ : BufTy).Contents (Elt F) → (⟨S_, .f32⟩ : BufTy).Contents (Elt F) → (⟨S_, .f32⟩ : BufTy).Contents (Elt F)),
    StableHlo.binary main_v100 main_v101 main_v102 (addf : (⟨S_, .f32⟩ : BufTy).Contents (Elt F) → (⟨S_, .f32⟩ : BufTy).Contents (Elt F) → (⟨S_, .f32⟩ : BufTy).Contents (Elt F)),
    StableHlo.binary main_v95 main_v99 main_v103 (addf : (⟨S_, .f32⟩ : BufTy).Contents (Elt F) → (⟨S_, .f32⟩ : BufTy).Contents (Elt F) → (⟨S_, .f32⟩ : BufTy).Contents (Elt F)),
    StableHlo.nullary main_cst_27 (constant S_ .f32 0x3DCCCCCD#32),
    StableHlo.binary main_cst_27 main_v103 main_v104 (mulf : (⟨S_, .f32⟩ : BufTy).Contents (Elt F) → (⟨S_, .f32⟩ : BufTy).Contents (Elt F) → (⟨S_, .f32⟩ : BufTy).Contents (Elt F)),
    StableHlo.binary main_v102 main_v104 main_v105 (addf : (⟨S_, .f32⟩ : BufTy).Contents (Elt F) → (⟨S_, .f32⟩ : BufTy).Contents (Elt F) → (⟨S_, .f32⟩ : BufTy).Contents (Elt F)) ]

/-- @main's operations in order. -/
abbrev ops : List (HloOp τ sig (Elt F)) := opsA ++ opsB

-- the chain of binds is as deep as the line is long (247 operations), and each side is unfolded one operation at a time
set_option maxRecDepth 100000 in
/-- @main is that straight line: its three windows in order, every call its callee's body at the call's buffers, the
    sequencing reassociated — all by unfolding, so the two sides are equal by computation. -/
theorem main_eq (c : Dev nD) : main (F := F) c = StableHlo.seq (ops (F := F)) := by
  rfl

theorem scopedRefs_eq : (Finset.univ.filter fun b : Ref sig .tc => b.isScoped) = ∅ := by decide
theorem scopedSems_eq : (Finset.univ.filter fun sm : SemLoc sig => sm.isScoped .tc) = ∅ := by decide

-- one step per operation, 247 of them: the list is unfolded one operation at a time
set_option maxHeartbeats 4000000 in
set_option maxRecDepth 100000 in
/-- Every operation of the line touches TensorCore buffers only: each is one of the builders, whose operands and result
    are TensorCore references. -/
theorem ops_sub : (ops (F := F)).Forall fun op => op.bufs ⊆ tcRefs τ sig := by
  repeat (refine And.intro (by simp only [nullary_bufs_sub, unary_bufs_sub, binary_bufs_sub, ternary_bufs_sub, reshape_bufs_sub]) ?_)
  simp only [List.Forall, nullary_bufs_sub, unary_bufs_sub, binary_bufs_sub, ternary_bufs_sub, reshape_bufs_sub]

set_option maxHeartbeats 4000000 in
set_option maxRecDepth 100000 in
/-- Every operation of the line determines its results (none merely allocates a buffer). -/
theorem ops_fresh : (ops (F := F)).Forall fun op => op.fresh = ∅ := by
  repeat (refine And.intro rfl ?_)
  rfl

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ
    (fun _ => List.forall_iff_forall_mem.mp ops_fresh)

/-- The program's six arguments. -/
abbrev args : List (Ref sig .tc) := [main_arg0, main_arg1, main_arg2, main_arg3, main_arg4, main_arg5]

/-- An operation that writes one buffer, not an argument's, writes no argument's. -/
theorem keeps {op : HloOp τ sig (Elt F)} {y : Ref sig .tc} (hw : op.writes = {Proc.devRef .tc y}) (hy : y ∉ args) :
    ∀ r ∈ args, Proc.devRef (τ := τ) .tc r ∉ op.writes := by
  intro r hr h
  rw [hw, Finset.mem_singleton] at h
  exact hy (Proc.devRef_injective _ h ▸ hr)

set_option maxHeartbeats 4000000 in
set_option maxRecDepth 100000 in
/-- No operation of the line writes an argument: each writes the buffer of one value of @main or of a callee's body. -/
theorem ops_keep_args : (ops (F := F)).Forall fun op => ∀ r ∈ args, Proc.devRef (τ := τ) .tc r ∉ op.writes := by
  repeat (refine And.intro (keeps rfl (by decide)) ?_)
  exact keeps rfl (by decide)

/-- So an argument's buffer holds after the line what it held before. -/
theorem kept (V : Valuation τ sig (Elt F)) (r : Ref sig .tc) (hr : r ∈ args) :
    StableHlo.after (ops (F := F)) V (Proc.devRef .tc r) = V (Proc.devRef .tc r) :=
  after_of_forall_not_mem ops V fun op hop => List.forall_iff_forall_mem.mp ops_keep_args op hop r hr

theorem kept_arg0 (V : Valuation τ sig (Elt F)) :
    StableHlo.after (ops (F := F)) V (main_arg0 : DevRef τ sig) = V (main_arg0 : DevRef τ sig) := kept V main_arg0 (by decide)
theorem kept_arg1 (V : Valuation τ sig (Elt F)) :
    StableHlo.after (ops (F := F)) V (main_arg1 : DevRef τ sig) = V (main_arg1 : DevRef τ sig) := kept V main_arg1 (by decide)
theorem kept_arg2 (V : Valuation τ sig (Elt F)) :
    StableHlo.after (ops (F := F)) V (main_arg2 : DevRef τ sig) = V (main_arg2 : DevRef τ sig) := kept V main_arg2 (by decide)
theorem kept_arg3 (V : Valuation τ sig (Elt F)) :
    StableHlo.after (ops (F := F)) V (main_arg3 : DevRef τ sig) = V (main_arg3 : DevRef τ sig) := kept V main_arg3 (by decide)
theorem kept_arg4 (V : Valuation τ sig (Elt F)) :
    StableHlo.after (ops (F := F)) V (main_arg4 : DevRef τ sig) = V (main_arg4 : DevRef τ sig) := kept V main_arg4 (by decide)
theorem kept_arg5 (V : Valuation τ sig (Elt F)) :
    StableHlo.after (ops (F := F)) V (main_arg5 : DevRef τ sig) = V (main_arg5 : DevRef τ sig) := kept V main_arg5 (by decide)

end Cert.ReferenceIdeal.Hand
-- ==== Proof.RefFrame.lean ====
/-
  The reference program runs to its end and leaves its six arguments as launched: its run read at the argument buffers,
  none of which any operation writes.
-/
import proofs.«136027_j7438883356888_1_alg».proof.Defs
import proofs.«136027_j7438883356888_1_alg».proof.Proof.RefOps
import proofs.«136027_j7438883356888_1_alg».proof.Proof.Gen.Pre_finite_inputs

noncomputable section

namespace Cert.Proof.Ref

open Idealize.ShloMosaic Idealize.ShloMosaic.TcCoe Idealize.SL.Sem
open Cert.ReferenceIdeal Cert.ReferenceIdeal.Hand

theorem frame_ri : Cert.frame_ReferenceIdeal := fun m ρ _ =>
  (θ_run Cert.ReferenceIdeal.defs _ _).mono
    (fun r h c => ⟨(h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _)⟩)
    (Cert.ReferenceIdeal.Hand.run_main (F := Ideal) m ρ)

end Cert.Proof.Ref

end
-- ==== Proof.KIPrefix.lean ====
/-
  What the kernel program's host operations before the region leave in the three arrays the region reads: the features
  rounded to the narrower format, the first 1024 row sums of squares as a column, and all 4096 row sums of squares as a
  row.
-/
import proofs.«136027_j7438883356888_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The row sums of squares of the features. -/
def rowSq (x : FVec F S4096x2048 .f32) : FVec F S4096 .f32 :=
  Host.reduceAdd (mulf x x) (constant S_ .f32 0x00000000#32) reducesTo_S4096x2048_S4096_d1 h_S_

theorem pre_v0 (V : Valuation τ sig (Elt F)) :
    after hostOps0 V (main_v0 : DevRef τ sig) = truncf .bf16 (V (main_arg4 : DevRef τ sig)) bitsLt_bf16_f32 := by
  after_results

theorem pre_v2 (V : Valuation τ sig (Elt F)) :
    after hostOps0 V (main_v2 : DevRef τ sig) = rowSq (V (main_arg4 : DevRef τ sig)) := by
  after_results
  rfl

theorem pre_v4 (V : Valuation τ sig (Elt F)) :
    after hostOps0 V (main_v4 : DevRef τ sig)
      = shapeCast S1024x1 (extractStridedSlice S1024 ![0] (rowSq (V (main_arg4 : DevRef τ sig))) slices_S4096_S1024_0) shapeCasts_S1024_S1024x1 := by
  after_results
  rfl

theorem pre_v5 (V : Valuation τ sig (Elt F)) :
    after hostOps0 V (main_v5 : DevRef τ sig)
      = shapeCast S1x4096 (rowSq (V (main_arg4 : DevRef τ sig))) shapeCasts_S4096_S1x4096 := by
  after_results
  rfl

end Cert.KernelIdeal.Hand

end
-- ==== Proof.KISpec.lean ====
/-
  The pairwise-distance block as ONE function of its three arrays, entry by entry.

  For a feature matrix `X` of 4096 rows and 2048 columns, a column `Q` of 1024 query squared norms and a row `Kr` of
  4096 key squared norms, entry `(i, j)` of the 1024 × 4096 result is

      sqrt (max ε ((Q i + Kr j) − 2 · ∑ k, X i k · X j k)),

  the square root of the clamped squared distance between rows `i` and `j` of `X`: the sum of the two squared
  norms minus twice the inner product of the rows, clamped below at the small positive constant `ε`.  The constants
  `ε` and `2` are kept as the words that denote them; nothing here depends on their values.  Everything is over the
  extended reals, where each operation is exact.
-/
import Idealize.ShloMosaic.PureOps.Ideal
import Idealize.ShloMosaic.Lib.ValueIdx

noncomputable section

open scoped BigOperators

namespace Cert.KernelIdeal.HandValue

open Idealize.ShloMosaic Idealize.ShloMosaic.ValueIdx

/-- Query row `i` (one of the first 1024 rows) as a row of the whole 4096-row matrix. -/
abbrev row4096 (i : Fin 1024) : Fin 4096 := ⟨i.val, Nat.lt_of_lt_of_le i.isLt (by decide)⟩

/-- Entry `(i, j)` of the distance block by coordinates: the squared norm of query row `i`, the squared norm of key
    row `j`, and the inner product of rows `i` and `j` of `X` over the 2048 features. -/
def gdistAt (X : FVec Ideal ⟨2, ![4096, 2048]⟩ .bf16) (Q : FVec Ideal ⟨2, ![1024, 1]⟩ .f32)
    (Kr : FVec Ideal ⟨2, ![1, 4096]⟩ .f32) (i : Fin 1024) (j : Fin 4096) : EReal :=
  Ideal.sqrt (max (Ideal.ofBits .f32 0x2B8CBCCC#32)
    ((Q (ix2 i (0 : Fin 1)) + Kr (ix2 (0 : Fin 1) j))
      - Ideal.ofBits .f32 0x40000000#32 * ∑ k : Fin 2048, X (ix2 (row4096 i) k) * X (ix2 j k)))

/-- THE DISTANCE BLOCK: rows 0 … 1023 of the pairwise-distance matrix of `X`'s rows, as one function of `X` and the
    two arrays of squared norms. -/
def Gdist (X : FVec Ideal ⟨2, ![4096, 2048]⟩ .bf16) (Q : FVec Ideal ⟨2, ![1024, 1]⟩ .f32)
    (Kr : FVec Ideal ⟨2, ![1, 4096]⟩ .f32) : FVec Ideal ⟨2, ![1024, 4096]⟩ .f32 :=
  fun idx => gdistAt X Q Kr (idx 0) (idx 1)

/-- The block read at an index given by its coordinates. -/
theorem Gdist_apply (X : FVec Ideal ⟨2, ![4096, 2048]⟩ .bf16) (Q : FVec Ideal ⟨2, ![1024, 1]⟩ .f32)
    (Kr : FVec Ideal ⟨2, ![1, 4096]⟩ .f32) (i : Fin 1024) (j : Fin 4096) :
    Gdist X Q Kr (ix2 i j) = Ideal.sqrt (max (Ideal.ofBits .f32 0x2B8CBCCC#32)
      ((Q (ix2 i (0 : Fin 1)) + Kr (ix2 (0 : Fin 1) j))
        - Ideal.ofBits .f32 0x40000000#32 * ∑ k : Fin 2048, X (ix2 (row4096 i) k) * X (ix2 j k))) := rfl

end Cert.KernelIdeal.HandValue

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KIPayload.lean ====
/-
  The distance kernel's stored value read at one entry of the 128 × 4096 block.

  The body multiplies the 128 × 2048 query block with the 4096 × 2048 key block, contracting the feature axis of
  both, into a zero accumulator; adds the column of query squared norms and the row of key squared norms, each
  broadcast over the block; subtracts twice the product; clamps below at a small constant; takes the square root.
  Read at entry `(p, q)` this is

      sqrt (max ε ((n₁ p + n₂ q) − 2 · ∑ k, a p k · b q k))

  with `a`, `b` the two blocks and `n₁`, `n₂` the column and the row of squared norms: every operation but the
  product is pointwise or a broadcast, and the product at an entry is the sum over the one contracted axis.
-/
import proofs.«136027_j7438883356888_1_alg».proof.Proof.Gen.KernelIdeal.Skeleton
import proofs.«136027_j7438883356888_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandValue

open Cert.KernelIdeal Cert.KernelIdeal.Gen
open Idealize.ShloMosaic Idealize.ShloMosaic.ValueIdx

/-- The product's dimension numbers: both operands contract their feature axis (axis 1), rows are free. -/
abbrev DD : DotDims S128x2048 S4096x2048 S128x4096 := dot_S128x2048_S4096x2048_S128x4096_1_1_0_0_n_n

/-- The left operand's row at output entry `i` is the entry's row … -/
theorem lhs_row (i : S128x4096.Idx) (c : DD.contr.Idx) : (DD.lhsIdx i c 0).val = (i 0).val := by
  unfold DotDims.lhsIdx
  rw [dif_neg (show ¬(0 : Fin S128x2048.rank) ∈ DD.lhsBatch by decide),
    dif_pos (show (0 : Fin S128x2048.rank) ∈ DD.lhsNonContracting by decide)]
  rfl
/-- … and its column the contraction position. -/
theorem lhs_col (i : S128x4096.Idx) (c : DD.contr.Idx) : (DD.lhsIdx i c 1).val = (c ⟨0, by decide⟩).val :=
  DD.lhsIdx_val_of_single rfl i c
/-- The right operand's row at output entry `i` is the entry's column … -/
theorem rhs_row (i : S128x4096.Idx) (c : DD.contr.Idx) : (DD.rhsIdx i c 0).val = (i 1).val := by
  unfold DotDims.rhsIdx
  rw [dif_neg (show ¬(0 : Fin S4096x2048.rank) ∈ DD.rhsBatch by decide),
    dif_pos (show (0 : Fin S4096x2048.rank) ∈ DD.rhsNonContracting by decide)]
  rfl
/-- … and its column the contraction position. -/
theorem rhs_col (i : S128x4096.Idx) (c : DD.contr.Idx) : (DD.rhsIdx i c 1).val = (c ⟨0, by decide⟩).val :=
  DD.rhsIdx_val_of_single rfl i c

/-- THE PRODUCT AT AN ENTRY: into the zero accumulator, entry `(p, q)` is the inner product of row `p` of the left
    block and row `q` of the right block over the 2048 features. -/
theorem dot_apply (a : FVec Ideal S128x2048 .bf16) (b : FVec Ideal S4096x2048 .bf16) (p : Fin 128) (q : Fin 4096) :
    FloatOps.matmul DD none a b (constant (F := Ideal) S128x4096 .f32 0x00000000#32) (ix2 p q)
      = ∑ k : Fin 2048, a (ix2 p k) * b (ix2 q k) := by
  rw [Ideal.matmul_constant_zero_apply, ← Equiv.sum_comp (contrEquiv1 DD 2048 rfl rfl).symm]
  refine Finset.sum_congr rfl fun k _ => ?_
  have hk := contrEquiv1_symm_val DD 2048 rfl rfl k
  have el : DD.lhsIdx (ix2 p q) ((contrEquiv1 DD 2048 rfl rfl).symm k) = ix2 p k := funext fun ax => Fin.ext (by
    match ax with
    | ⟨0, _⟩ => exact lhs_row _ _
    | ⟨1, _⟩ => exact (lhs_col _ _).trans hk)
  have er : DD.rhsIdx (ix2 p q) ((contrEquiv1 DD 2048 rfl rfl).symm k) = ix2 q k := funext fun ax => Fin.ext (by
    match ax with
    | ⟨0, _⟩ => exact rhs_row _ _
    | ⟨1, _⟩ => exact (rhs_col _ _).trans hk)
  rw [el, er]

/-- THE STORED VALUE AT AN ENTRY: the square root of the clamped sum of the two squared norms minus twice the inner
    product. -/
theorem pay_apply (x0 : FVec Ideal S128x2048 .bf16) (x1 : FVec Ideal S4096x2048 .bf16) (x2 : FVec Ideal S128x1 .f32)
    (x3 : FVec Ideal S1x4096 .f32) (p : Fin 128) (q : Fin 4096) :
    k0_pay1 (F := Ideal) x0 x1 x2 x3 (ix2 p q)
      = Ideal.sqrt (max (Ideal.ofBits .f32 0x2B8CBCCC#32)
          ((x2 (ix2 p (0 : Fin 1)) + x3 (ix2 (0 : Fin 1) q))
            - Ideal.ofBits .f32 0x40000000#32 * ∑ k : Fin 2048, x0 (ix2 p k) * x1 (ix2 q k))) := by
  unfold Gen.k0_pay1
  simp only [shapeCast_self]
  show Ideal.sqrt (max (Ideal.ofBits .f32 0x2B8CBCCC#32)
      ((broadcastTo S128x4096 x2 broadcasts_S128x1_S128x4096 (ix2 p q)
          + broadcastTo S128x4096 x3 broadcasts_S1x4096_S128x4096 (ix2 p q))
        - Ideal.ofBits .f32 0x40000000#32
          * FloatOps.matmul DD none x0 x1 (constant (F := Ideal) S128x4096 .f32 0x00000000#32) (ix2 p q))) = _
  rw [Cert.LibKeepdims.broadcastTo_a1_ab_apply, broadcastTo_1b_ab_apply, dot_apply]

end Cert.KernelIdeal.HandValue

end
-- ==== Proof.KIValue.lean ====
/-
  What the distance kernel's region leaves in its output array, as one function of the arrays it reads.

  Grid point `t` of eight reads query rows `128 t … 128 t + 127` of the feature matrix (window 0), the whole matrix
  as keys (window 1), the matching 128 query squared norms (window 2) and all 4096 key squared norms (window 3), and
  writes back the 128 × 4096 block of distances of its query rows (window 4).  Each written block is block `t` of
  ONE function of the three arrays, the distance block `Gdist`: at entry `(p, q)` of the block the stored value is
  the clamped-distance formula of block row `p` and key row `q`, and block row `p` of point `t` is row
  `128 t + p` of the array.  The eight blocks cover the 1024 rows (row `r` lies in the block of point `r / 128`),
  so after the region the output array is `Gdist` of the feature matrix and the two arrays of squared norms.
-/
import proofs.«136027_j7438883356888_1_alg».proof.Proof.KIDat
import proofs.«136027_j7438883356888_1_alg».proof.Proof.KISpec
import proofs.«136027_j7438883356888_1_alg».proof.Proof.KIPayload
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## One entry, over variables -/

/-- ONE ENTRY OF A BLOCK IS ONE ENTRY OF THE DISTANCE BLOCK.  If block row `p` of the query block is row `a` of the
    feature matrix, row `q` of the key block is row `q` of it, and the two norm blocks read the norm arrays at `a`
    and `q`, then the stored value at `(p, q)` is the distance block at `(a, q)`. -/
theorem entry_eq (X : FVec Ideal S4096x2048 .bf16) (Q : FVec Ideal S1024x1 .f32) (Kr : FVec Ideal S1x4096 .f32)
    (x0 : FVec Ideal S128x2048 .bf16) (x1 : FVec Ideal S4096x2048 .bf16) (x2 : FVec Ideal S128x1 .f32)
    (x3 : FVec Ideal S1x4096 .f32) (p : Fin 128) (q : Fin 4096) (a : Fin 1024)
    (h0 : ∀ k : Fin 2048, x0 (ix2 p k) = X (ix2 (row4096 a) k))
    (h1 : ∀ k : Fin 2048, x1 (ix2 q k) = X (ix2 q k))
    (h2 : x2 (ix2 p (0 : Fin 1)) = Q (ix2 a (0 : Fin 1)))
    (h3 : x3 (ix2 (0 : Fin 1) q) = Kr (ix2 (0 : Fin 1) q)) :
    k0_pay1 (F := Ideal) x0 x1 x2 x3 (ix2 p q) = Gdist X Q Kr (ix2 a q) := by
  rw [pay_apply, Gdist_apply, h2, h3]
  refine congrArg (fun s => Ideal.sqrt (max (Ideal.ofBits .f32 0x2B8CBCCC#32)
    ((Q (ix2 a (0 : Fin 1)) + Kr (ix2 (0 : Fin 1) q)) - Ideal.ofBits .f32 0x40000000#32 * s))) ?_
  exact Finset.sum_congr rfl fun k _ => by rw [h0 k, h1 k]

/-! ## The windows' block indices, decided over the eight points -/

theorem hz : (![0, 0] : Fin 2 → Nat) = fun _ => 0 := funext fun a => by fin_cases a <;> rfl

/-- The query rows, the query norms and the output move with the point along the rows; the key matrix and the key
    norms are the whole of their arrays at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## What a point writes back -/

/-- WHAT POINT `t` WRITES BACK is block `t` of the distance block of the arrays as the region finds them. -/
theorem flushed4_eq (c : Dev nD) (t : Fin cfg0.N) :
    (dat0 (F := Ideal) V c).flushed 4 t
      = ((cfg0.win 4).blk t).view.read (Elt Ideal) (Gdist (V c main_v0) (V c main_v4) (V c main_v5)) := by
  show (cfg0.win 4).cut (grid0.coords t) ((dat0 V c).after 4 t) = _
  rw [after0_4]
  unfold out0_4
  rw [View.canon_unit_zero hz]
  simp only [View.ld_unit_zero (S := S128x2048) hz, View.ld_unit_zero (S := S4096x2048) hz,
    View.ld_unit_zero (S := S128x1) hz, View.ld_unit_zero (S := S1x4096) hz]
  obtain ⟨e00, e01, e10, e11, e20, e21, e30, e31, e40, e41⟩ := idx_facts t
  have hN : grid0.N = 8 := N_0
  have ht : t.val < 8 := hN ▸ t.isLt
  funext j
  revert j
  show ∀ j : S128x4096.Idx, k0_pay1 (F := Ideal) (iblk0 V c 0 t) (iblk0 V c 1 t) (iblk0 V c 2 t) (iblk0 V c 3 t) j
    = Gdist (V c main_v0) (V c main_v4) (V c main_v5) (((cfg0.win 4).blk t).view.emb j)
  intro j
  obtain ⟨p, q, rfl⟩ : ∃ (p : Fin 128) (q : Fin 4096), j = ix2 p q := ⟨j 0, j 1, eq_ix2 j⟩
  have hp : p.val < 128 := p.isLt
  have hq : q.val < 4096 := q.isLt
  refine (entry_eq (V c main_v0) (V c main_v4) (V c main_v5) (iblk0 V c 0 t) (iblk0 V c 1 t) (iblk0 V c 2 t)
    (iblk0 V c 3 t) p q ⟨t.val * 128 + p.val, by omega⟩ (fun k => ?_) (fun k => ?_) ?_ ?_).trans ?_
  · -- block row p of the query block is row 128 t + p of the matrix
    show V c main_v0 (((cfg0.win 0).blk t).view.emb (ix2 p k)) = V c main_v0 _
    refine congrArg (V c main_v0) (funext fun ax => Fin.ext ?_)
    match ax with
    | ⟨0, _⟩ => show win0_0.index t (0 : Fin 2) * 128 + 1 * p.val = t.val * 128 + p.val; omega
    | ⟨1, _⟩ => show win0_0.index t (1 : Fin 2) * 2048 + 1 * k.val = k.val; omega
  · -- the key block is the whole matrix
    show V c main_v0 (((cfg0.win 1).blk t).view.emb (ix2 q k)) = V c main_v0 _
    refine congrArg (V c main_v0) (funext fun ax => Fin.ext ?_)
    match ax with
    | ⟨0, _⟩ => show win0_1.index t (0 : Fin 2) * 4096 + 1 * q.val = q.val; omega
    | ⟨1, _⟩ => show win0_1.index t (1 : Fin 2) * 2048 + 1 * k.val = k.val; omega
  · -- the query norm of block row p is the norm of row 128 t + p
    show V c main_v4 (((cfg0.win 2).blk t).view.emb (ix2 p (0 : Fin 1))) = V c main_v4 _
    refine congrArg (V c main_v4) (funext fun ax => Fin.ext ?_)
    match ax with
    | ⟨0, _⟩ => show win0_2.index t (0 : Fin 2) * 128 + 1 * p.val = t.val * 128 + p.val; omega
    | ⟨1, _⟩ => show win0_2.index t (1 : Fin 2) * 1 + 1 * 0 = 0; omega
  · -- the key norms are the whole row
    show V c main_v5 (((cfg0.win 3).blk t).view.emb (ix2 (0 : Fin 1) q)) = V c main_v5 _
    refine congrArg (V c main_v5) (funext fun ax => Fin.ext ?_)
    match ax with
    | ⟨0, _⟩ => show win0_3.index t (0 : Fin 2) * 1 + 1 * 0 = 0; omega
    | ⟨1, _⟩ => show win0_3.index t (1 : Fin 2) * 4096 + 1 * q.val = q.val; omega
  · -- entry (p, q) of the output block sits at (128 t + p, q) of the array
    refine congrArg (Gdist (V c main_v0) (V c main_v4) (V c main_v5)) (funext fun ax => Fin.ext ?_)
    match ax with
    | ⟨0, _⟩ => show t.val * 128 + p.val = win0_4.index t (0 : Fin 2) * 128 + 1 * p.val; omega
    | ⟨1, _⟩ => show q.val = win0_4.index t (1 : Fin 2) * 4096 + 1 * q.val; omega

/-! ## The blocks cover the array -/

/-- An index of the output array is in point `t`'s block iff each coordinate is in the block's range on its axis. -/
theorem mem_blk4 (t : Fin cfg0.N) (i : S1024x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v6).slice (win0_4.rect t)).set ↔ _
  rw [View.set_slice_whole, Rect.mem_set_unit]
  exact Iff.rfl

/-- Row `r` of the output lies in the block of point `r / 128`. -/
theorem cover4 (i : S1024x4096.Idx) :
    ∃ t : Fin cfg0.N, (cfg0.win 4).flush t = true ∧ i ∈ ((cfg0.win 4).blk t).view.set := by
  have hN : grid0.N = 8 := N_0
  have hi0 : (i 0).val < 1024 := (i 0).isLt
  have hi1 : (i 1).val < 4096 := (i 1).isLt
  let t : Fin cfg0.N := ⟨(i 0).val / 128, by show (i 0).val / 128 < grid0.N; omega⟩
  have htv : t.val = (i 0).val / 128 := rfl
  obtain ⟨-, -, -, -, -, -, -, -, e40, e41⟩ := idx_facts t
  refine ⟨t, flush0_4 t, ?_⟩
  rw [mem_blk4]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 4096 ≤ (i 1).val ∧ (i 1).val < win0_4.index t (1 : Fin 2) * 4096 + 4096
    omega

/-! ## The array after the region -/

/-- THE OUTPUT ARRAY AFTER THE REGION is the distance block of the feature matrix and the two arrays of squared
    norms, as the region finds them. -/
theorem final4 (c : Dev nD) :
    (dat0 (F := Ideal) V c).arrAt 4 cfg0.N = Gdist (V c main_v0) (V c main_v4) (V c main_v5) :=
  (dat0 (F := Ideal) V c).arrAt_eq_of_cover 4 (Gdist (V c main_v0) (V c main_v4) (V c main_v5))
    (fun t _ => flushed4_eq V c t) cover4

end Cert.KernelIdeal.HandValue

end
-- ==== Proof.DistSpec.lean ====
/-
  The rows of the pairwise distance matrix, as one function of the features.

  For 4096 feature vectors x_0 … x_4095 of length 2048 with squared norms s_j = Σ_k x_j[k]², the distance from anchor
  i (one of the first 1024 vectors) to vector j is  √ max(ε, (s_i + s_j) − 2·Σ_k x_i[k]·x_j[k]),  ε and 2 the two
  single-precision literals of both programs.  Stated over the extended reals, with the squared norms a parameter.
-/
import Idealize.ShloMosaic.PureOps.Ideal
import Idealize.ShloMosaic.Lib.ValueIdx

noncomputable section

namespace Cert.DistSpec

open Idealize.ShloMosaic Idealize.ShloMosaic.ValueIdx

/-- Anchor row `i` as one of the 4096 rows. -/
def up (i : Fin 1024) : Fin 4096 := ⟨i.val, Nat.lt_of_lt_of_le i.isLt (by decide)⟩

@[simp] theorem up_val (i : Fin 1024) : (up i).val = i.val := rfl

/-- The distance from anchor `i` to vector `j`. -/
def distAt (s : (⟨1, ![4096]⟩ : Shape).Idx → EReal) (x : (⟨2, ![4096, 2048]⟩ : Shape).Idx → EReal) (i : Fin 1024) (j : Fin 4096) : EReal :=
  Ideal.sqrt (max (Ideal.ofBits .f32 0x2B8CBCCC#32)
    ((s (ix1 (up i)) + s (ix1 j)) - Ideal.ofBits .f32 0x40000000#32 * ∑ k : Fin 2048, x (ix2 (up i) k) * x (ix2 j k)))

/-- The 1024 × 4096 distance rows. -/
def Dist (s : (⟨1, ![4096]⟩ : Shape).Idx → EReal) (x : (⟨2, ![4096, 2048]⟩ : Shape).Idx → EReal) :
    (⟨2, ![1024, 4096]⟩ : Shape).Idx → EReal :=
  fun idx => distAt s x (idx 0) (idx 1)

theorem Dist_ix2 (s) (x) (i : Fin 1024) (j : Fin 4096) : Dist s x (ix2 i j) = distAt s x i j := rfl

end Cert.DistSpec

end
-- ==== Proof.KIBridge.lean ====
/-
  The kernel region's three input arrays, as the host operations before it leave them, give the distance
  specification.

  The region reads the features rounded to the narrower format (the identity on extended reals), the first 1024 row
  sums of squares recast as a column, and all 4096 row sums of squares recast as a row; the whole-array function of
  those three that the region writes is then the distance specification of the row sums of squares and the features.
-/
import proofs.«136027_j7438883356888_1_alg».proof.Proof.KIPrefix
import proofs.«136027_j7438883356888_1_alg».proof.Proof.KISpec
import proofs.«136027_j7438883356888_1_alg».proof.Proof.DistSpec
import proofs.«136027_j7438883356888_1_alg».proof.Proof.LibKeepdims
import Idealize.ShloMosaic.Lib.Pipeline.Value
import Idealize.ShloMosaic.Lib.ValueLayout

noncomputable section

namespace Cert.KernelIdeal.HandValue

open Cert.KernelIdeal Cert.KernelIdeal.Gen Cert.KernelIdeal.Hand
open Idealize.ShloMosaic Idealize.ShloMosaic.ValueIdx
open Cert.DistSpec Cert.LibKeepdims

/-- The first 1024 entries of a length-4096 vector, at `i`. -/
theorem head1024_apply (s : FVec Ideal S4096 .f32) (i : Fin 1024) :
    extractStridedSlice S1024 ![0] s slices_S4096_S1024_0 (ix1 i) = s (ix1 (up i)) :=
  extractStridedSlice_apply _ _ _ (ix1 i) (ix1 (up i)) (fun a => by
    match a with
    | ⟨0, _⟩ => exact (Nat.zero_add _).symm)

/-- The region's whole-array function at the three arrays the host prefix leaves is the distance specification. -/
theorem gdist_pre (x : FVec Ideal S4096x2048 .f32) :
    Gdist (truncf .bf16 x bitsLt_bf16_f32)
        (shapeCast S1024x1 (extractStridedSlice S1024 ![0] (rowSq x) slices_S4096_S1024_0) shapeCasts_S1024_S1024x1)
        (shapeCast S1x4096 (rowSq x) shapeCasts_S4096_S1x4096)
      = Dist (rowSq x) x := by
  funext idx
  obtain ⟨i, j, rfl⟩ : ∃ (i : Fin 1024) (j : Fin 4096), idx = ix2 i j := ⟨idx 0, idx 1, eq_ix2 idx⟩
  rw [Gdist_apply, Dist_ix2]
  unfold distAt
  rw [shapeCast_a_a1_apply, head1024_apply, shapeCast_a_1a_apply]
  rfl

end Cert.KernelIdeal.HandValue

end
-- ==== Proof.RefDist.lean ====
/-
  The reference's distance rows, read at an index.

  The reference computes the whole 4096 × 4096 matrix on the host — the row sums of squares broadcast down the rows and
  along the columns and added, minus twice the product of the features with their transpose, clipped from below, square
  rooted — and keeps its first 1024 rows.  At the ideal instance each entry (i, j) of those rows is the distance
  specification's `distAt` of the row sums of squares and the features.
-/
import proofs.«136027_j7438883356888_1_alg».proof.Proof.RefOps
import proofs.«136027_j7438883356888_1_alg».proof.Proof.DistSpec
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.HandValue

open Cert.ReferenceIdeal Cert.ReferenceIdeal.Gen Cert.ReferenceIdeal.Hand
open Idealize.ShloMosaic Idealize.ShloMosaic.TcCoe Idealize.ShloMosaic.StableHlo Idealize.ShloMosaic.ValueIdx
open Cert.DistSpec

section AnyInstance
variable {F : FTy → Type} [FloatOps F]

/-- The row sums of squares of the features. -/
def rowSq (x : FVec F S4096x2048 .f32) : FVec F S4096 .f32 :=
  Host.reduceAdd (mulf x x) (constant S_ .f32 0x00000000#32) reducesTo_S4096x2048_S4096_d1 h_S_

/-- The whole distance matrix as the reference's operations compose it. -/
def distFull (x : FVec F S4096x2048 .f32) : FVec F S4096x4096 .f32 :=
  Host.sqrt (maximumf (broadcastInDim S4096x4096 ![] bcast_S_S4096x4096 (constant S_ .f32 0x2B8CBCCC#32))
    (subf
      (addf (broadcastInDim S4096x4096 ![0, 1] bcast_S4096x1_S4096x4096_0_1 (broadcastInDim S4096x1 ![0] bcast_S4096_S4096x1_0 (rowSq x)))
        (broadcastInDim S4096x4096 ![0, 1] bcast_S1x4096_S4096x4096_0_1 (broadcastInDim S1x4096 ![1] bcast_S4096_S1x4096_1 (rowSq x))))
      (mulf (broadcastInDim S4096x4096 ![] bcast_S_S4096x4096 (constant S_ .f32 0x40000000#32))
        (Host.dotGeneral dot_S4096x2048_S2048x4096_S4096x4096_1_0_0_1_n_n none x
          (transpose S2048x4096 [1, 0] x transposes_S4096x2048_S2048x4096_1_0)))))

/-- After the first part of the reference's line, the distance-rows buffer holds the first 1024 rows of that matrix of
    the features argument. -/
theorem refA_v14 (V : Valuation τ sig (Elt F)) :
    after opsA V (main_v14 : DevRef τ sig)
      = extractStridedSlice S1024x4096 ![0, 0] (distFull (V (main_arg4 : DevRef τ sig))) slices_S4096x4096_S1024x4096_0_0 := by
  after_results
  rfl

end AnyInstance

/-! ## At the ideal instance -/

/-- The left operand's row at output entry `i` is the entry's row, -/
theorem lhs_row (i : S4096x4096.Idx) (c : dot_S4096x2048_S2048x4096_S4096x4096_1_0_0_1_n_n.contr.Idx) :
    (dot_S4096x2048_S2048x4096_S4096x4096_1_0_0_1_n_n.lhsIdx i c 0).val = (i 0).val := by
  unfold DotDims.lhsIdx
  rw [dif_neg (show ¬(0 : Fin S4096x2048.rank) ∈ dot_S4096x2048_S2048x4096_S4096x4096_1_0_0_1_n_n.lhsBatch by decide),
    dif_pos (show (0 : Fin S4096x2048.rank) ∈ dot_S4096x2048_S2048x4096_S4096x4096_1_0_0_1_n_n.lhsNonContracting by decide)]
  rfl
/-- its column the contraction position; -/
theorem lhs_col (i : S4096x4096.Idx) (c : dot_S4096x2048_S2048x4096_S4096x4096_1_0_0_1_n_n.contr.Idx) :
    (dot_S4096x2048_S2048x4096_S4096x4096_1_0_0_1_n_n.lhsIdx i c 1).val = (c ⟨0, by decide⟩).val :=
  dot_S4096x2048_S2048x4096_S4096x4096_1_0_0_1_n_n.lhsIdx_val_of_single rfl i c
/-- the right operand's row is the contraction position, -/
theorem rhs_row (i : S4096x4096.Idx) (c : dot_S4096x2048_S2048x4096_S4096x4096_1_0_0_1_n_n.contr.Idx) :
    (dot_S4096x2048_S2048x4096_S4096x4096_1_0_0_1_n_n.rhsIdx i c 0).val = (c ⟨0, by decide⟩).val :=
  dot_S4096x2048_S2048x4096_S4096x4096_1_0_0_1_n_n.rhsIdx_val_of_single rfl i c
/-- and its column the entry's column. -/
theorem rhs_col (i : S4096x4096.Idx) (c : dot_S4096x2048_S2048x4096_S4096x4096_1_0_0_1_n_n.contr.Idx) :
    (dot_S4096x2048_S2048x4096_S4096x4096_1_0_0_1_n_n.rhsIdx i c 1).val = (i 1).val := by
  unfold DotDims.rhsIdx
  rw [dif_neg (show ¬(1 : Fin S2048x4096.rank) ∈ dot_S4096x2048_S2048x4096_S4096x4096_1_0_0_1_n_n.rhsBatch by decide),
    dif_pos (show (1 : Fin S2048x4096.rank) ∈ dot_S4096x2048_S2048x4096_S4096x4096_1_0_0_1_n_n.rhsNonContracting by decide)]
  rfl

/-- The host's product of the features with their transpose, at (i, j): the sum over the 2048 coordinates of the
    products of vectors i and j. -/
theorem gram_apply (x : FVec Ideal S4096x2048 .f32) (i j : Fin 4096) :
    Host.dotGeneral dot_S4096x2048_S2048x4096_S4096x4096_1_0_0_1_n_n none x
        (transpose S2048x4096 [1, 0] x transposes_S4096x2048_S2048x4096_1_0) (ix2 i j)
      = ∑ k : Fin 2048, x (ix2 i k) * x (ix2 j k) := by
  show FloatOps.dotGeneral dot_S4096x2048_S2048x4096_S4096x4096_1_0_0_1_n_n none .single x _ (ix2 i j) = _
  rw [Ideal.dotGeneral_apply,
    ← Equiv.sum_comp (contrEquiv1 dot_S4096x2048_S2048x4096_S4096x4096_1_0_0_1_n_n 2048 rfl rfl).symm]
  refine Finset.sum_congr rfl fun k _ => ?_
  have hk := contrEquiv1_symm_val dot_S4096x2048_S2048x4096_S4096x4096_1_0_0_1_n_n 2048 rfl rfl k
  have el : dot_S4096x2048_S2048x4096_S4096x4096_1_0_0_1_n_n.lhsIdx (ix2 i j)
      ((contrEquiv1 dot_S4096x2048_S2048x4096_S4096x4096_1_0_0_1_n_n 2048 rfl rfl).symm k) = ix2 i k :=
    funext fun a => Fin.ext (by
      match a with
      | ⟨0, _⟩ => exact lhs_row _ _
      | ⟨1, _⟩ => exact (lhs_col _ _).trans hk)
  have er : dot_S4096x2048_S2048x4096_S4096x4096_1_0_0_1_n_n.rhsIdx (ix2 i j)
      ((contrEquiv1 dot_S4096x2048_S2048x4096_S4096x4096_1_0_0_1_n_n 2048 rfl rfl).symm k) = ix2 k j :=
    funext fun a => Fin.ext (by
      match a with
      | ⟨0, _⟩ => exact (rhs_row _ _).trans hk
      | ⟨1, _⟩ => exact rhs_col _ _)
  rw [el, er, transpose_ix2_apply]

/-- The row sums of squares broadcast down the rows: at (i, j), the sum of row i. -/
theorem colBcast_apply (s : FVec Ideal S4096 .f32) (i j : Fin 4096) :
    broadcastInDim S4096x4096 ![0, 1] bcast_S4096x1_S4096x4096_0_1 (broadcastInDim S4096x1 ![0] bcast_S4096_S4096x1_0 s) (ix2 i j)
      = s (ix1 i) := by
  rw [broadcastInDim_apply _ _ _ (ix2 i j) (ix2 i (0 : Fin 1)) (fun a => by match a with | ⟨0, _⟩ => rfl | ⟨1, _⟩ => rfl),
    broadcastInDim_apply _ _ _ (ix2 i (0 : Fin 1)) (ix1 i) (fun a => by match a with | ⟨0, _⟩ => rfl)]

/-- The row sums of squares broadcast along the columns: at (i, j), the sum of row j. -/
theorem rowBcast_apply (s : FVec Ideal S4096 .f32) (i j : Fin 4096) :
    broadcastInDim S4096x4096 ![0, 1] bcast_S1x4096_S4096x4096_0_1 (broadcastInDim S1x4096 ![1] bcast_S4096_S1x4096_1 s) (ix2 i j)
      = s (ix1 j) := by
  rw [broadcastInDim_apply _ _ _ (ix2 i j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- The whole matrix at (i, j). -/
theorem distFull_apply (x : FVec Ideal S4096x2048 .f32) (i j : Fin 4096) :
    distFull x (ix2 i j)
      = Ideal.sqrt (max (Ideal.ofBits .f32 0x2B8CBCCC#32)
          ((rowSq x (ix1 i) + rowSq x (ix1 j)) - Ideal.ofBits .f32 0x40000000#32 * ∑ k : Fin 2048, x (ix2 i k) * x (ix2 j k))) := by
  unfold distFull
  show Ideal.sqrt (max (broadcastInDim S4096x4096 ![] bcast_S_S4096x4096 (constant (F := Ideal) S_ .f32 0x2B8CBCCC#32) (ix2 i j))
      ((broadcastInDim S4096x4096 ![0, 1] bcast_S4096x1_S4096x4096_0_1 (broadcastInDim S4096x1 ![0] bcast_S4096_S4096x1_0 (rowSq x)) (ix2 i j)
          + broadcastInDim S4096x4096 ![0, 1] bcast_S1x4096_S4096x4096_0_1 (broadcastInDim S1x4096 ![1] bcast_S4096_S1x4096_1 (rowSq x)) (ix2 i j))
        - broadcastInDim S4096x4096 ![] bcast_S_S4096x4096 (constant (F := Ideal) S_ .f32 0x40000000#32) (ix2 i j)
          * Host.dotGeneral dot_S4096x2048_S2048x4096_S4096x4096_1_0_0_1_n_n none x
              (transpose S2048x4096 [1, 0] x transposes_S4096x2048_S2048x4096_1_0) (ix2 i j))) = _
  rw [broadcastInDim_scalar_apply, broadcastInDim_scalar_apply, colBcast_apply, rowBcast_apply, gram_apply]
  rfl

/-- The distance-rows buffer after the first part of the reference's line: the distance specification of the row sums
    of squares and the features. -/
theorem refA_dist (V : Valuation τ sig (Elt Ideal)) :
    after opsA V (main_v14 : DevRef τ sig)
      = Dist (rowSq (F := Ideal) (V (main_arg4 : DevRef τ sig))) (V (main_arg4 : DevRef τ sig) : FVec Ideal S4096x2048 .f32) := by
  rw [refA_v14]
  funext idx
  obtain ⟨i, j, rfl⟩ : ∃ (i : Fin 1024) (j : Fin 4096), idx = ix2 i j := ⟨idx 0, idx 1, eq_ix2 idx⟩
  rw [slice2_axis0_apply 0 _ _ i j (up i) (by simp), distFull_apply, Dist_ix2]
  rfl

end Cert.ReferenceIdeal.HandValue

end
-- ==== Proof.DistEq.lean ====
/-
  The distance rows the kernel region writes are the distance rows the reference computes.

  Both are the distance specification of the row sums of squares and the features: the region's whole-array function at
  the three arrays the host operations before it leave, and the first part of the reference's line.
-/
import proofs.«136027_j7438883356888_1_alg».proof.Proof.KIValue
import proofs.«136027_j7438883356888_1_alg».proof.Proof.KIBridge
import proofs.«136027_j7438883356888_1_alg».proof.Proof.RefDist

noncomputable section

namespace Cert.DistEq

open Idealize.ShloMosaic Idealize.ShloMosaic.TcCoe Idealize.ShloMosaic.StableHlo Idealize.SL.Sem
open Cert.DistSpec

/-- The kernel program's row sums of squares and the reference's are one function. -/
theorem rowSq_eq (x : FVec Ideal Cert.KernelIdeal.S4096x2048 .f32) :
    Cert.KernelIdeal.Hand.rowSq x = Cert.ReferenceIdeal.HandValue.rowSq (F := Ideal) x := rfl

/-- The region's output array, when the region finds the rounded features, the column of the first 1024 row sums of
    squares and the row of all 4096 in its three input arrays, is the distance specification. -/
theorem k_dist (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (x : FVec Ideal Cert.KernelIdeal.S4096x2048 .f32)
    (hv0 : V c Cert.KernelIdeal.main_v0 = truncf .bf16 x Cert.KernelIdeal.Facts₀.bitsLt_bf16_f32)
    (hv4 : V c Cert.KernelIdeal.main_v4 = shapeCast Cert.KernelIdeal.S1024x1
      (extractStridedSlice Cert.KernelIdeal.S1024 ![0] (Cert.KernelIdeal.Hand.rowSq x) Cert.KernelIdeal.Facts₀.slices_S4096_S1024_0)
      Cert.KernelIdeal.Facts₀.shapeCasts_S1024_S1024x1)
    (hv5 : V c Cert.KernelIdeal.main_v5 = shapeCast Cert.KernelIdeal.S1x4096 (Cert.KernelIdeal.Hand.rowSq x)
      Cert.KernelIdeal.Facts₀.shapeCasts_S4096_S1x4096) :
    (Cert.KernelIdeal.Hand.dat0 (F := Ideal) V c).arrAt 4 Cert.KernelIdeal.cfg0.N = Dist (Cert.KernelIdeal.Hand.rowSq x) x := by
  rw [Cert.KernelIdeal.HandValue.final4, hv0, hv4, hv5]
  exact Cert.KernelIdeal.HandValue.gdist_pre x

/-- The same array is what the first part of the reference's line leaves in its distance-rows buffer, run from
    contents with the same features. -/
theorem dist_eq (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (x : FVec Ideal Cert.KernelIdeal.S4096x2048 .f32)
    (hv0 : V c Cert.KernelIdeal.main_v0 = truncf .bf16 x Cert.KernelIdeal.Facts₀.bitsLt_bf16_f32)
    (hv4 : V c Cert.KernelIdeal.main_v4 = shapeCast Cert.KernelIdeal.S1024x1
      (extractStridedSlice Cert.KernelIdeal.S1024 ![0] (Cert.KernelIdeal.Hand.rowSq x) Cert.KernelIdeal.Facts₀.slices_S4096_S1024_0)
      Cert.KernelIdeal.Facts₀.shapeCasts_S1024_S1024x1)
    (hv5 : V c Cert.KernelIdeal.main_v5 = shapeCast Cert.KernelIdeal.S1x4096 (Cert.KernelIdeal.Hand.rowSq x)
      Cert.KernelIdeal.Facts₀.shapeCasts_S4096_S1x4096)
    (WR : Valuation Cert.ReferenceIdeal.τ Cert.ReferenceIdeal.sig (Elt Ideal))
    (hx : WR (Cert.ReferenceIdeal.main_arg4 : DevRef Cert.ReferenceIdeal.τ Cert.ReferenceIdeal.sig) = x) :
    (Cert.KernelIdeal.Hand.dat0 (F := Ideal) V c).arrAt 4 Cert.KernelIdeal.cfg0.N
      = after Cert.ReferenceIdeal.Hand.opsA WR (Cert.ReferenceIdeal.main_v14 : DevRef Cert.ReferenceIdeal.τ Cert.ReferenceIdeal.sig) := by
  rw [k_dist V c x hv0 hv4 hv5, Cert.ReferenceIdeal.HandValue.refA_dist, hx]
  rfl

end Cert.DistEq

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.TailTry.lean ====
/-
  The two programs' host operations after the distance rows compute the same number from the same inputs.

  After its region the kernel program runs some 190 host operations on the distance rows and on the arguments; after the
  line that writes the distance rows the reference runs the same operations, traced a second time, on differently
  numbered buffers. Each side's final buffer, read back through the operations that wrote its operands, is one term over
  the contents of the distance rows and of the arguments; the two terms are built from the same operations at equal
  shapes, so they are equal as soon as those contents are.
-/
import proofs.«136027_j7438883356888_1_alg».proof.Proof.RefOps
import proofs.«136027_j7438883356888_1_alg».proof.Proof.KITail
import proofs.«136027_j7438883356888_1_alg».proof.Proof.LibHostRead
import Idealize.ShloMosaic.Lib.StableHlo.Run

noncomputable section

namespace Cert.TailTry

open Idealize.ShloMosaic Idealize.ShloMosaic.TcCoe Idealize.ShloMosaic.StableHlo Idealize.SL.Sem

variable {F : FTy → Type} [FloatOps F]

-- each side is a line of some two hundred operations: reading the result back through them and comparing the two terms
-- takes one step per operation and per read
set_option maxRecDepth 100000 in
set_option maxHeartbeats 40000000 in
/-- If the kernel program's distance rows and arguments hold what the reference's do, then after the kernel program's
    host operations its result buffer holds what the reference's result buffer holds after the reference's lines. -/
theorem tail_eq (WK : Valuation Cert.KernelIdeal.τ Cert.KernelIdeal.sig (Elt F))
    (WR : Valuation Cert.ReferenceIdeal.τ Cert.ReferenceIdeal.sig (Elt F))
    (hd : WK (Cert.KernelIdeal.main_v6 : DevRef _ _) = WR (Cert.ReferenceIdeal.main_v14 : DevRef _ _))
    (h0 : WK (Cert.KernelIdeal.main_arg0 : DevRef _ _) = WR (Cert.ReferenceIdeal.main_arg0 : DevRef _ _))
    (h1 : WK (Cert.KernelIdeal.main_arg1 : DevRef _ _) = WR (Cert.ReferenceIdeal.main_arg1 : DevRef _ _))
    (h2 : WK (Cert.KernelIdeal.main_arg2 : DevRef _ _) = WR (Cert.ReferenceIdeal.main_arg2 : DevRef _ _))
    (h3 : WK (Cert.KernelIdeal.main_arg3 : DevRef _ _) = WR (Cert.ReferenceIdeal.main_arg3 : DevRef _ _))
    (h5 : WK (Cert.KernelIdeal.main_arg5 : DevRef _ _) = WR (Cert.ReferenceIdeal.main_arg5 : DevRef _ _)) :
    StableHlo.after Cert.KernelIdeal.Hand.tailOps WK (Cert.KernelIdeal.main_v97 : DevRef _ _)
      = StableHlo.after Cert.ReferenceIdeal.Hand.opsB WR (Cert.ReferenceIdeal.main_v105 : DevRef _ _) := by
  simp only [Cert.KernelIdeal.Hand.tailOps, List.append_assoc, List.cons_append, List.nil_append]
  after_results_simp
  rw [hd, h0, h1, h2, h3, h5]
  rfl

end Cert.TailTry
-- ==== Proof.AlgProof.lean ====
/-
  The idealized kernel program and the idealized reference end with the same loss.

  The kernel program: host operations leave the rounded features and their row sums of squares, the region writes the
  distance rows, twenty-two lines of host operations turn them (with the labels, the class scores and the side
  features) into the loss.  The reference: the first part of its line computes the same distance rows on the host, the
  rest is the same operations.  The distance rows agree (both are the distance specification), the arguments agree by
  hypothesis, and equal inputs to the common tail give equal results.
-/
import proofs.«136027_j7438883356888_1_alg».proof.Defs
import proofs.«136027_j7438883356888_1_alg».proof.Proof.KIFrame
import proofs.«136027_j7438883356888_1_alg».proof.Proof.KIValsFacts
import proofs.«136027_j7438883356888_1_alg».proof.Proof.KIPrefix
import proofs.«136027_j7438883356888_1_alg».proof.Proof.DistEq
import proofs.«136027_j7438883356888_1_alg».proof.Proof.TailTry
import proofs.«136027_j7438883356888_1_alg».proof.Proof.RefFrame
import proofs.«136027_j7438883356888_1_alg».proof.Proof.Gen.Pre_finite_inputs

noncomputable section

namespace Cert.Proof.Alg

open Idealize.ShloMosaic Idealize.ShloMosaic.TcCoe Idealize.ShloMosaic.StableHlo Idealize.SL.Sem

/-- The first part of the reference's line writes no argument. -/
theorem keptA (V : Valuation Cert.ReferenceIdeal.τ Cert.ReferenceIdeal.sig (Elt Ideal)) (r : Ref Cert.ReferenceIdeal.sig .tc)
    (hr : r ∈ Cert.ReferenceIdeal.Hand.args) :
    after (Cert.ReferenceIdeal.Hand.opsA (F := Ideal)) V (Proc.devRef .tc r) = V (Proc.devRef .tc r) :=
  after_of_forall_not_mem _ _ fun op hop =>
    (List.forall_iff_forall_mem.mp (Cert.ReferenceIdeal.Hand.ops_keep_args (F := Ideal))) op (List.mem_append_left _ hop) r hr

/-- The kernel program's first line of host operations writes no argument. -/
theorem pre_arg (V : Valuation Cert.KernelIdeal.τ Cert.KernelIdeal.sig (Elt Ideal)) (r : Ref Cert.KernelIdeal.sig .tc)
    (hr : r ∈ ([Cert.KernelIdeal.main_arg0, Cert.KernelIdeal.main_arg1, Cert.KernelIdeal.main_arg2, Cert.KernelIdeal.main_arg3,
      Cert.KernelIdeal.main_arg4, Cert.KernelIdeal.main_arg5] : List (Ref Cert.KernelIdeal.sig .tc))) :
    after (Cert.KernelIdeal.Gen.hostOps0 (F := Ideal)) V (Proc.devRef .tc r) = V (Proc.devRef .tc r) := by
  simp only [List.mem_cons, List.not_mem_nil, or_false] at hr
  rcases hr with rfl | rfl | rfl | rfl | rfl | rfl <;> after_results

/-- At the ideal instance, from memories agreeing on the six arguments, the two programs end with one loss. -/
theorem algebraic : Cert.algebraic_KernelIdeal_ReferenceIdeal := by
  intro m ρ m' ρ' _ hagree
  refine ⟨fun c => Cert.KernelIdeal.Hand.Wend m ρ c (Proc.devRef .tc Cert.KernelIdeal.main_v97), ?_, ?_⟩
  · exact (θ_run (Cert.KernelIdeal.defs (F := Ideal)) _ _).mono
      (fun r h c => ⟨h c _ (Cert.KernelIdeal.Hand.mem_uc Cert.KernelIdeal.main_v97 (by decide)),
        (h c _ (Cert.KernelIdeal.Hand.mem_uc Cert.KernelIdeal.main_arg0 (by decide))).trans (Cert.KernelIdeal.Hand.Wend_main_arg0 m ρ c),
        (h c _ (Cert.KernelIdeal.Hand.mem_uc Cert.KernelIdeal.main_arg1 (by decide))).trans (Cert.KernelIdeal.Hand.Wend_main_arg1 m ρ c),
        (h c _ (Cert.KernelIdeal.Hand.mem_uc Cert.KernelIdeal.main_arg2 (by decide))).trans (Cert.KernelIdeal.Hand.Wend_main_arg2 m ρ c),
        (h c _ (Cert.KernelIdeal.Hand.mem_uc Cert.KernelIdeal.main_arg3 (by decide))).trans (Cert.KernelIdeal.Hand.Wend_main_arg3 m ρ c),
        (h c _ (Cert.KernelIdeal.Hand.mem_uc Cert.KernelIdeal.main_arg4 (by decide))).trans (Cert.KernelIdeal.Hand.Wend_main_arg4 m ρ c),
        (h c _ (Cert.KernelIdeal.Hand.mem_uc Cert.KernelIdeal.main_arg5 (by decide))).trans (Cert.KernelIdeal.Hand.Wend_main_arg5 m ρ c)⟩)
      (Cert.KernelIdeal.Hand.run_main (F := Ideal) m ρ)
  · refine (θ_run (Cert.ReferenceIdeal.defs (F := Ideal)) _ _).mono
      (fun r h c => ⟨(h c Cert.ReferenceIdeal.main_v105).trans ?_,
        (h c Cert.ReferenceIdeal.main_arg0).trans (Cert.ReferenceIdeal.Hand.kept_arg0 _),
        (h c Cert.ReferenceIdeal.main_arg1).trans (Cert.ReferenceIdeal.Hand.kept_arg1 _),
        (h c Cert.ReferenceIdeal.main_arg2).trans (Cert.ReferenceIdeal.Hand.kept_arg2 _),
        (h c Cert.ReferenceIdeal.main_arg3).trans (Cert.ReferenceIdeal.Hand.kept_arg3 _),
        (h c Cert.ReferenceIdeal.main_arg4).trans (Cert.ReferenceIdeal.Hand.kept_arg4 _),
        (h c Cert.ReferenceIdeal.main_arg5).trans (Cert.ReferenceIdeal.Hand.kept_arg5 _)⟩)
      (Cert.ReferenceIdeal.Hand.run_main (F := Ideal) m' ρ')
    -- the reference's result is the tail of its line run from what the first part leaves
    show after (Cert.ReferenceIdeal.Hand.opsA ++ Cert.ReferenceIdeal.Hand.opsB) (launchContents m' c)
        (Cert.ReferenceIdeal.main_v105 : DevRef Cert.ReferenceIdeal.τ Cert.ReferenceIdeal.sig)
      = Cert.KernelIdeal.Hand.Wend m ρ c (Proc.devRef .tc Cert.KernelIdeal.main_v97)
    rw [HostRead.after_append, Cert.KernelIdeal.Hand.Wend_eq_tail m ρ c]
    obtain ⟨ha0, ha1, ha2, ha3, ha4, ha5⟩ := hagree c
    have hK : ∀ r ∈ ([Cert.KernelIdeal.main_arg0, Cert.KernelIdeal.main_arg1, Cert.KernelIdeal.main_arg2, Cert.KernelIdeal.main_arg3,
        Cert.KernelIdeal.main_arg4, Cert.KernelIdeal.main_arg5] : List (Ref Cert.KernelIdeal.sig .tc)), r ≠ Cert.KernelIdeal.main_v6 := by decide
    have hW2 : ∀ r (hr : r ∈ ([Cert.KernelIdeal.main_arg0, Cert.KernelIdeal.main_arg1, Cert.KernelIdeal.main_arg2, Cert.KernelIdeal.main_arg3,
        Cert.KernelIdeal.main_arg4, Cert.KernelIdeal.main_arg5] : List (Ref Cert.KernelIdeal.sig .tc))),
        Cert.KernelIdeal.Hand.W2 m ρ c (Proc.devRef .tc r) = m ((c.tc : Thread Cert.KernelIdeal.nD Cert.KernelIdeal.τ).loc r) :=
      fun r hr => (Cert.KernelIdeal.Hand.W2_of_ne m ρ c r (hK r hr)).trans (pre_arg _ r hr)
    refine (Cert.TailTry.tail_eq (Cert.KernelIdeal.Hand.W2 m ρ c) (after Cert.ReferenceIdeal.Hand.opsA (launchContents m' c)) ?_ ?_ ?_ ?_ ?_ ?_).symm
    · -- the distance rows
      rw [Cert.KernelIdeal.Hand.W2_main_v6]
      exact Cert.DistEq.dist_eq (Cert.KernelIdeal.Hand.V1 m ρ) c (m ((c.tc : Thread Cert.KernelIdeal.nD Cert.KernelIdeal.τ).loc Cert.KernelIdeal.main_arg4))
        (Cert.KernelIdeal.Hand.pre_v0 _) (Cert.KernelIdeal.Hand.pre_v4 _) (Cert.KernelIdeal.Hand.pre_v5 _) (launchContents m' c) ha4
    · exact (hW2 Cert.KernelIdeal.main_arg0 (by decide)).trans ((keptA _ Cert.ReferenceIdeal.main_arg0 (by decide)).trans ha0).symm
    · exact (hW2 Cert.KernelIdeal.main_arg1 (by decide)).trans ((keptA _ Cert.ReferenceIdeal.main_arg1 (by decide)).trans ha1).symm
    · exact (hW2 Cert.KernelIdeal.main_arg2 (by decide)).trans ((keptA _ Cert.ReferenceIdeal.main_arg2 (by decide)).trans ha2).symm
    · exact (hW2 Cert.KernelIdeal.main_arg3 (by decide)).trans ((keptA _ Cert.ReferenceIdeal.main_arg3 (by decide)).trans ha3).symm
    · exact (hW2 Cert.KernelIdeal.main_arg5 (by decide)).trans ((keptA _ Cert.ReferenceIdeal.main_arg5 (by decide)).trans ha5).symm

end Cert.Proof.Alg

end
-- ==== Proof.lean ====
/-
  A triplet-style loss over 4096 feature vectors: for each of the first 1024 anchors the distances to all vectors,
  √ max(ε, |x_i|² + |x_j|² − 2⟨x_i, x_j⟩), then a soft-max weighted mean of the positives' distances and of the hard
  negatives' distances, a hinge on their difference, plus a cross entropy over the class scores and two Frobenius norms
  of differences of side features.

  The kernel program computes the 1024 × 4096 distance rows in a pallas_call — eight grid points, each taking 128 anchor
  rows against all 4096 keys, the Gram block by a matrix product into a zero accumulator — from the features rounded to
  the narrower format and the row sums of squares that host operations prepare, and everything after the distances by
  host operations.  The reference computes the whole 4096 × 4096 distance matrix by host operations, keeps its first
  1024 rows, and continues with the same host operations.

  The claims: each of the three programs runs to its end, faults nowhere and leaves its six arguments as launched (the
  kernel programs through the pipeline's launch over @main's segments, the two windows on the shared features array
  each holding half of it; the reference as one straight line of host operations); the idealization rewrote nothing;
  and at the ideal instance the two idealized programs, from memories agreeing on the arguments, end with the same
  loss — entry (i, j) of the distance rows is on both sides the same expression of the row sums of squares and the
  features (a rounding is the identity on extended reals, the two Gram products are the same sum over the 2048
  coordinates), and the operations after the distance rows are the same function of them and of the arguments.
-/
import proofs.«136027_j7438883356888_1_alg».proof.Defs
import proofs.«136027_j7438883356888_1_alg».proof.Proof.Gen.Kernel
import proofs.«136027_j7438883356888_1_alg».proof.Proof.Gen.KernelIdeal
import proofs.«136027_j7438883356888_1_alg».proof.Proof.Gen.ReferenceIdeal
import proofs.«136027_j7438883356888_1_alg».proof.Proof.Gen.Pre_finite_inputs
import proofs.«136027_j7438883356888_1_alg».proof.Proof.KBFrameArgs
import proofs.«136027_j7438883356888_1_alg».proof.Proof.KIFrameArgs
import proofs.«136027_j7438883356888_1_alg».proof.Proof.RefFrame
import proofs.«136027_j7438883356888_1_alg».proof.Proof.AlgProof

noncomputable section

namespace Cert.Proof

open Idealize.ShloMosaic Idealize.SL.Sem

/-- The kernel program as printed runs and keeps its arguments. -/
theorem frame_k : Cert.frame_Kernel := fun m ρ _ => Cert.Kernel.Hand.frame (F := Bits) m ρ

/-- The idealized kernel program runs and keeps its arguments. -/
theorem frame_ki : Cert.frame_KernelIdeal := fun m ρ _ => Cert.KernelIdeal.Hand.frame (F := Ideal) m ρ

/-- The ideal pass rewrote no operation: nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, preserves, Cert.Proof.Alg.algebraic⟩

end Cert.Proof

end
